-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S50000x200 : Shape := ⟨2, ![50000, 200]⟩
abbrev S400x200 : Shape := ⟨2, ![400, 200]⟩
abbrev S200 : Shape := ⟨1, ![200]⟩
abbrev S200x288 : Shape := ⟨2, ![200, 288]⟩
abbrev S288 : Shape := ⟨1, ![288]⟩
abbrev S6144x200 : Shape := ⟨2, ![6144, 200]⟩
abbrev S1 : Shape := ⟨1, ![1]⟩
abbrev S32 : Shape := ⟨1, ![32]⟩
abbrev S50000 : Shape := ⟨1, ![50000]⟩
abbrev S_ : Shape := ⟨0, ![]⟩

class Facts : Prop where
  bcast_S_S50000x200 : S_.BroadcastsInDim S50000x200 (![] : Fin 0 → Fin S50000x200.rank)
  reducesTo_S50000x200_S_d0_1 : S50000x200.ReducesTo [0, 1] S_
  h_S_ : 0 < S_.numel
  bcast_S_S400x200 : S_.BroadcastsInDim S400x200 (![] : Fin 0 → Fin S400x200.rank)
  reducesTo_S400x200_S_d0_1 : S400x200.ReducesTo [0, 1] S_
  bcast_S_S200 : S_.BroadcastsInDim S200 (![] : Fin 0 → Fin S200.rank)
  reducesTo_S200_S_d0 : S200.ReducesTo [0] S_
  bcast_S_S200x288 : S_.BroadcastsInDim S200x288 (![] : Fin 0 → Fin S200x288.rank)
  reducesTo_S200x288_S_d0_1 : S200x288.ReducesTo [0, 1] S_
  bcast_S_S288 : S_.BroadcastsInDim S288 (![] : Fin 0 → Fin S288.rank)
  reducesTo_S288_S_d0 : S288.ReducesTo [0] S_
  bcast_S_S6144x200 : S_.BroadcastsInDim S6144x200 (![] : Fin 0 → Fin S6144x200.rank)
  reducesTo_S6144x200_S_d0_1 : S6144x200.ReducesTo [0, 1] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_
  bcast_S_S50000 : S_.BroadcastsInDim S50000 (![] : Fin 0 → Fin S50000.rank)
  reducesTo_S50000_S_d0 : S50000.ReducesTo [0] S_

variable [Facts]

def fn_part6 {F : FTy → Type} [FloatOps F] (main_arg14 : FVec F S1 .f32) (main_arg18 : FVec F S32 .f32) (main_arg22 : FVec F S200 .f32) (main_v98 : IVec S_ 1) (main_v101 : IVec S50000 1) (main_c_39 : IVec S_ 1) : IVec S_ 1 :=
  let main_v102 : IVec S_ 1 := (fun x v => Host.reduce IntOp.andi x v reducesTo_S50000_S_d0 h_S_) main_v101 main_c_39
  let main_v103 : IVec S_ 1 := andi main_v98 main_v102
  let main_cst_40 : FVec F S_ .f32 := constant S_ .f32 0x00000000#32
  let main_v104 : FVec F S1 .f32 := broadcastInDim S1 ![] bcast_S_S1 main_cst_40
  let main_v105 : IVec S1 1 := cmpf .oge main_arg14 main_v104
  let main_c_41 : IVec S_ 1 := constantI S_ 1 1#1
  let main_v106 : IVec S_ 1 := (fun x v => Host.reduce IntOp.andi x v reducesTo_S1_S_d0 h_S_) main_v105 main_c_41
  let main_v107 : IVec S_ 1 := andi main_v103 main_v106
  let main_cst_42 : FVec F S_ .f32 := constant S_ .f32 0x00000000#32
  let main_v108 : FVec F S32 .f32 := broadcastInDim S32 ![] bcast_S_S32 main_cst_42
  let main_v109 : IVec S32 1 := cmpf .oge main_arg18 main_v108
  let main_c_43 : IVec S_ 1 := constantI S_ 1 1#1
  let main_v110 : IVec S_ 1 := (fun x v => Host.reduce IntOp.andi x v reducesTo_S32_S_d0 h_S_) main_v109 main_c_43
  let main_v111 : IVec S_ 1 := andi main_v107 main_v110
  let main_cst_44 : FVec F S_ .f32 := constant S_ .f32 0x00000000#32
  let main_v112 : FVec F S200 .f32 := broadcastInDim S200 ![] bcast_S_S200 main_cst_44
  let main_v113 : IVec S200 1 := cmpf .oge main_arg22 main_v112
  let main_c_45 : IVec S_ 1 := constantI S_ 1 1#1
  let main_v114 : IVec S_ 1 := (fun x v => Host.reduce IntOp.andi x v reducesTo_S200_S_d0 h_S_) main_v113 main_c_45
  let main_v115 : IVec S_ 1 := andi main_v111 main_v114
  main_v115

def fn_part5 {F : FTy → Type} [FloatOps F] (main_arg14 : FVec F S1 .f32) (main_arg18 : FVec F S32 .f32) (main_arg21 : FVec F S200 .f32) (main_arg22 : FVec F S200 .f32) (main_arg23 : FVec F S50000 .f32) (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  let main_v89 : FVec F S200 .f32 := Host.absf main_arg21
  let main_cst_34 : FVec F S_ .f32 := constant S_ .f32 0x7F800000#32
  let main_v90 : FVec F S200 .f32 := broadcastInDim S200 ![] bcast_S_S200 main_cst_34
  let main_v91 : IVec S200 1 := cmpf .olt main_v89 main_v90
  let main_c_35 : IVec S_ 1 := constantI S_ 1 1#1
  let main_v92 : IVec S_ 1 := (fun x v => Host.reduce IntOp.andi x v reducesTo_S200_S_d0 h_S_) main_v91 main_c_35
  let main_v93 : IVec S_ 1 := andi main_v88 main_v92
  let main_v94 : FVec F S200 .f32 := Host.absf main_arg22
  let main_cst_36 : FVec F S_ .f32 := constant S_ .f32 0x7F800000#32
  let main_v95 : FVec F S200 .f32 := broadcastInDim S200 ![] bcast_S_S200 main_cst_36
  let main_v96 : IVec S200 1 := cmpf .olt main_v94 main_v95
  let main_c_37 : IVec S_ 1 := constantI S_ 1 1#1
  let main_v97 : IVec S_ 1 := (fun x v => Host.reduce IntOp.andi x v reducesTo_S200_S_d0 h_S_) main_v96 main_c_37
  let main_v98 : IVec S_ 1 := andi main_v93 main_v97
  let main_v99 : FVec F S50000 .f32 := Host.absf main_arg23
  let main_cst_38 : FVec F S_ .f32 := constant S_ .f32 0x7F800000#32
  let main_v100 : FVec F S50000 .f32 := broadcastInDim S50000 ![] bcast_S_S50000 main_cst_38
  let main_v101 : IVec S50000 1 := cmpf .olt main_v99 main_v100
  let main_c_39 : IVec S_ 1 := constantI S_ 1 1#1
  fn_part6 (F := F) main_arg14 main_arg18 main_arg22 main_v98 main_v101 main_c_39

def fn_part4 {F : FTy → Type} [FloatOps F] (main_arg14 : FVec F S1 .f32) (main_arg17 : FVec F S32 .f32) (main_arg18 : FVec F S32 .f32) (main_arg19 : FVec F S200 .f32) (main_arg20 : FVec F S200 .f32) (main_arg21 : FVec F S200 .f32) (main_arg22 : FVec F S200 .f32) (main_arg23 : FVec F S50000 .f32) (main_v63 : IVec S_ 1) (main_v67 : IVec S_ 1) : IVec S_ 1 :=
  let main_v68 : IVec S_ 1 := andi main_v63 main_v67
  let main_v69 : FVec F S32 .f32 := Host.absf main_arg17
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg18
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S200 .f32 := Host.absf main_arg19
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  let main_v84 : FVec F S200 .f32 := Host.absf main_arg20
  let main_cst_32 : FVec F S_ .f32 := constant S_ .f32 0x7F800000#32
  fn_part5 (F := F) main_arg14 main_arg18 main_arg21 main_arg22 main_arg23 main_v83 main_v84 main_cst_32

def fn_part3 {F : FTy → Type} [FloatOps F] (main_arg14 : FVec F S1 .f32) (main_arg15 : FVec F S32 .f32) (main_arg16 : FVec F S32 .f32) (main_arg17 : FVec F S32 .f32) (main_arg18 : FVec F S32 .f32) (main_arg19 : FVec F S200 .f32) (main_arg20 : FVec F S200 .f32) (main_arg21 : FVec F S200 .f32) (main_arg22 : FVec F S200 .f32) (main_arg23 : FVec F S50000 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S32 .f32 := Host.absf main_arg15
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg16
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg17 main_arg18 main_arg19 main_arg20 main_arg21 main_arg22 main_arg23 main_v63 main_v67

def fn_part2 {F : FTy → Type} [FloatOps F] (main_arg10 : FVec F S200 .f32) (main_arg11 : FVec F S1 .f32) (main_arg12 : FVec F S1 .f32) (main_arg13 : FVec F S1 .f32) (main_arg14 : FVec F S1 .f32) (main_arg15 : FVec F S32 .f32) (main_arg16 : FVec F S32 .f32) (main_arg17 : FVec F S32 .f32) (main_arg18 : FVec F S32 .f32) (main_arg19 : FVec F S200 .f32) (main_arg20 : FVec F S200 .f32) (main_arg21 : FVec F S200 .f32) (main_arg22 : FVec F S200 .f32) (main_arg23 : FVec F S50000 .f32) (main_v33 : IVec S_ 1) : IVec S_ 1 :=
  let main_v34 : FVec F S200 .f32 := Host.absf main_arg10
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg14 main_arg15 main_arg16 main_arg17 main_arg18 main_arg19 main_arg20 main_arg21 main_arg22 main_arg23 main_v48 main_v49 main_v50

def fn_part1 {F : FTy → Type} [FloatOps F] (main_arg7 : FVec F S200x288 .f32) (main_arg8 : FVec F S288 .f32) (main_arg9 : FVec F S6144x200 .f32) (main_arg10 : FVec F S200 .f32) (main_arg11 : FVec F S1 .f32) (main_arg12 : FVec F S1 .f32) (main_arg13 : FVec F S1 .f32) (main_arg14 : FVec F S1 .f32) (main_arg15 : FVec F S32 .f32) (main_arg16 : FVec F S32 .f32) (main_arg17 : FVec F S32 .f32) (main_arg18 : FVec F S32 .f32) (main_arg19 : FVec F S200 .f32) (main_arg20 : FVec F S200 .f32) (main_arg21 : FVec F S200 .f32) (main_arg22 : FVec F S200 .f32) (main_arg23 : FVec F S50000 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x288 .f32 := Host.absf main_arg7
  let main_cst_6 : FVec F S_ .f32 := constant S_ .f32 0x7F800000#32
  let main_v20 : FVec F S200x288 .f32 := broadcastInDim S200x288 ![] bcast_S_S200x288 main_cst_6
  let main_v21 : IVec S200x288 1 := cmpf .olt main_v19 main_v20
  let main_c_7 : IVec S_ 1 := constantI S_ 1 1#1
  let main_v22 : IVec S_ 1 := (fun x v => Host.reduce IntOp.andi x v reducesTo_S200x288_S_d0_1 h_S_) main_v21 main_c_7
  let main_v23 : IVec S_ 1 := andi main_v18 main_v22
  let main_v24 : FVec F S288 .f32 := Host.absf main_arg8
  let main_cst_8 : FVec F S_ .f32 := constant S_ .f32 0x7F800000#32
  let main_v25 : FVec F S288 .f32 := broadcastInDim S288 ![] bcast_S_S288 main_cst_8
  let main_v26 : IVec S288 1 := cmpf .olt main_v24 main_v25
  let main_c_9 : IVec S_ 1 := constantI S_ 1 1#1
  let main_v27 : IVec S_ 1 := (fun x v => Host.reduce IntOp.andi x v reducesTo_S288_S_d0 h_S_) main_v26 main_c_9
  let main_v28 : IVec S_ 1 := andi main_v23 main_v27
  let main_v29 : FVec F S6144x200 .f32 := Host.absf main_arg9
  let main_cst_10 : FVec F S_ .f32 := constant S_ .f32 0x7F800000#32
  let main_v30 : FVec F S6144x200 .f32 := broadcastInDim S6144x200 ![] bcast_S_S6144x200 main_cst_10
  let main_v31 : IVec S6144x200 1 := cmpf .olt main_v29 main_v30
  let main_c_11 : IVec S_ 1 := constantI S_ 1 1#1
  let main_v32 : IVec S_ 1 := (fun x v => Host.reduce IntOp.andi x v reducesTo_S6144x200_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_v33

def fn {F : FTy → Type} [FloatOps F] (main_arg0 : IVec S1024 32) (main_arg1 : IVec S1024 32) (main_arg2 : IVec S1024 32) (main_arg3 : FVec F S50000x200 .f32) (main_arg4 : FVec F S400x200 .f32) (main_arg5 : FVec F S400x200 .f32) (main_arg6 : FVec F S200 .f32) (main_arg7 : FVec F S200x288 .f32) (main_arg8 : FVec F S288 .f32) (main_arg9 : FVec F S6144x200 .f32) (main_arg10 : FVec F S200 .f32) (main_arg11 : FVec F S1 .f32) (main_arg12 : FVec F S1 .f32) (main_arg13 : FVec F S1 .f32) (main_arg14 : FVec F S1 .f32) (main_arg15 : FVec F S32 .f32) (main_arg16 : FVec F S32 .f32) (main_arg17 : FVec F S32 .f32) (main_arg18 : FVec F S32 .f32) (main_arg19 : FVec F S200 .f32) (main_arg20 : FVec F S200 .f32) (main_arg21 : FVec F S200 .f32) (main_arg22 : FVec F S200 .f32) (main_arg23 : FVec F S50000 .f32) : IVec S_ 1 :=
  let main_v0 : FVec F S50000x200 .f32 := Host.absf main_arg3
  let main_cst : FVec F S_ .f32 := constant S_ .f32 0x7F800000#32
  let main_v1 : FVec F S50000x200 .f32 := broadcastInDim S50000x200 ![] bcast_S_S50000x200 main_cst
  let main_v2 : IVec S50000x200 1 := cmpf .olt main_v0 main_v1
  let main_c : IVec S_ 1 := constantI S_ 1 1#1
  let main_v3 : IVec S_ 1 := (fun x v => Host.reduce IntOp.andi x v reducesTo_S50000x200_S_d0_1 h_S_) main_v2 main_c
  let main_v4 : FVec F S400x200 .f32 := Host.absf main_arg4
  let main_cst_0 : FVec F S_ .f32 := constant S_ .f32 0x7F800000#32
  let main_v5 : FVec F S400x200 .f32 := broadcastInDim S400x200 ![] bcast_S_S400x200 main_cst_0
  let main_v6 : IVec S400x200 1 := cmpf .olt main_v4 main_v5
  let main_c_1 : IVec S_ 1 := constantI S_ 1 1#1
  let main_v7 : IVec S_ 1 := (fun x v => Host.reduce IntOp.andi x v reducesTo_S400x200_S_d0_1 h_S_) main_v6 main_c_1
  let main_v8 : IVec S_ 1 := andi main_v3 main_v7
  let main_v9 : FVec F S400x200 .f32 := Host.absf main_arg5
  let main_cst_2 : FVec F S_ .f32 := constant S_ .f32 0x7F800000#32
  let main_v10 : FVec F S400x200 .f32 := broadcastInDim S400x200 ![] bcast_S_S400x200 main_cst_2
  let main_v11 : IVec S400x200 1 := cmpf .olt main_v9 main_v10
  let main_c_3 : IVec S_ 1 := constantI S_ 1 1#1
  let main_v12 : IVec S_ 1 := (fun x v => Host.reduce IntOp.andi x v reducesTo_S400x200_S_d0_1 h_S_) main_v11 main_c_3
  let main_v13 : IVec S_ 1 := andi main_v8 main_v12
  let main_v14 : FVec F S200 .f32 := Host.absf main_arg6
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S1024 : Shape := ⟨1, ![1024]⟩
abbrev S50000x200 : Shape := ⟨2, ![50000, 200]⟩
abbrev S400x200 : Shape := ⟨2, ![400, 200]⟩
abbrev S200 : Shape := ⟨1, ![200]⟩
abbrev S200x288 : Shape := ⟨2, ![200, 288]⟩
abbrev S288 : Shape := ⟨1, ![288]⟩
abbrev S6144x200 : Shape := ⟨2, ![6144, 200]⟩
abbrev S1 : Shape := ⟨1, ![1]⟩
abbrev S32 : Shape := ⟨1, ![32]⟩
abbrev S50000 : Shape := ⟨1, ![50000]⟩
abbrev S_ : Shape := ⟨0, ![]⟩
abbrev S1024x1 : Shape := ⟨2, ![1024, 1]⟩
abbrev S1024x200 : Shape := ⟨2, ![1024, 200]⟩
abbrev S200x32x9 : Shape := ⟨3, ![200, 32, 9]⟩
abbrev S9x200x32 : Shape := ⟨3, ![9, 200, 32]⟩
abbrev S32x9 : Shape := ⟨2, ![32, 9]⟩
abbrev S9x32 : Shape := ⟨2, ![9, 32]⟩
abbrev S32x192x200 : Shape := ⟨3, ![32, 192, 200]⟩
abbrev S128x200 : Shape := ⟨2, ![128, 200]⟩
abbrev S128x400 : Shape := ⟨2, ![128, 400]⟩
abbrev S1x200 : Shape := ⟨2, ![1, 200]⟩
abbrev S1x1 : Shape := ⟨2, ![1, 1]⟩
abbrev S128x32x192 : Shape := ⟨3, ![128, 32, 192]⟩
abbrev S1x200x32 : Shape := ⟨3, ![1, 200, 32]⟩
abbrev S200x32 : Shape := ⟨2, ![200, 32]⟩
abbrev S128x32 : Shape := ⟨2, ![128, 32]⟩
abbrev S1x32 : Shape := ⟨2, ![1, 32]⟩
abbrev S128x192 : Shape := ⟨2, ![128, 192]⟩
abbrev S128x32x1 : Shape := ⟨3, ![128, 32, 1]⟩
abbrev S128x1x192 : Shape := ⟨3, ![128, 1, 192]⟩
abbrev S1x32x1 : Shape := ⟨3, ![1, 32, 1]⟩
abbrev S1x192x200 : Shape := ⟨3, ![1, 192, 200]⟩
abbrev S192x200 : Shape := ⟨2, ![192, 200]⟩
abbrev S51200x200 : Shape := ⟨2, ![51200, 200]⟩
abbrev S51200 : Shape := ⟨1, ![51200]⟩
abbrev S1x51200 : Shape := ⟨2, ![1, 51200]⟩
abbrev S1024x51200 : Shape := ⟨2, ![1024, 51200]⟩
abbrev S2048x200 : Shape := ⟨2, ![2048, 200]⟩
abbrev S1x2048 : Shape := ⟨2, ![1, 2048]⟩
abbrev S1024x2048 : Shape := ⟨2, ![1024, 2048]⟩
abbrev S1024x50000 : Shape := ⟨2, ![1024, 50000]⟩

abbrev nBuf : Space → Nat
  | .hbm => 66
  | .vmem => 33
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024, .i32⟩
  | .hbm, ⟨3, _⟩ => ⟨S50000x200, .f32⟩
  | .hbm, ⟨4, _⟩ => ⟨S400x200, .f32⟩
  | .hbm, ⟨5, _⟩ => ⟨S400x200, .f32⟩
  | .hbm, ⟨6, _⟩ => ⟨S200, .f32⟩
  | .hbm, ⟨7, _⟩ => ⟨S200x288, .f32⟩
  | .hbm, ⟨8, _⟩ => ⟨S288, .f32⟩
  | .hbm, ⟨9, _⟩ => ⟨S6144x200, .f32⟩
  | .hbm, ⟨10, _⟩ => ⟨S200, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S200, .f32⟩
  | .hbm, ⟨20, _⟩ => ⟨S200, .f32⟩
  | .hbm, ⟨21, _⟩ => ⟨S200, .f32⟩
  | .hbm, ⟨22, _⟩ => ⟨S200, .f32⟩
  | .hbm, ⟨23, _⟩ => ⟨S50000, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x200, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x200, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024x1, .i32⟩
  | .hbm, ⟨50, _⟩ => ⟨S1024x200, .f32⟩
  | .hbm, ⟨51, _⟩ => ⟨S200x32x9, .f32⟩
  | .hbm, ⟨52, _⟩ => ⟨S9x200x32, .f32⟩
  | .hbm, ⟨53, _⟩ => ⟨S32x9, .f32⟩
  | .hbm, ⟨54, _⟩ => ⟨S9x32, .f32⟩
  | .hbm, ⟨55, _⟩ => ⟨S32x192x200, .f32⟩
  | .hbm, ⟨56, _⟩ => ⟨S1024x200, .f32⟩
  | .hbm, ⟨57, _⟩ => ⟨S_, .i32⟩
  | .hbm, ⟨58, _⟩ => ⟨S_, .f32⟩
  | .hbm, ⟨59, _⟩ => ⟨S51200x200, .f32⟩
  | .hbm, ⟨60, _⟩ => ⟨S_, .i32⟩
  | .hbm, ⟨61, _⟩ => ⟨S_, .f32⟩
  | .hbm, ⟨62, _⟩ => ⟨S51200, .f32⟩
  | .hbm, ⟨63, _⟩ => ⟨S1x51200, .f32⟩
  | .hbm, ⟨64, _⟩ => ⟨S1024x51200, .f32⟩
  | .hbm, ⟨65, _⟩ => ⟨S1024x50000, .f32⟩
  | .local _ .vmem, ⟨0, _⟩ => ⟨S128x200, .f32⟩
  | .local _ .vmem, ⟨1, _⟩ => ⟨S128x200, .f32⟩
  | .local _ .vmem, ⟨2, _⟩ => ⟨S128x200, .f32⟩
  | .local _ .vmem, ⟨3, _⟩ => ⟨S128x200, .f32⟩
  | .local _ .vmem, ⟨4, _⟩ => ⟨S128x200, .f32⟩
  | .local _ .vmem, ⟨5, _⟩ => ⟨S128x200, .f32⟩
  | .local _ .vmem, ⟨6, _⟩ => ⟨S400x200, .f32⟩
  | .local _ .vmem, ⟨7, _⟩ => ⟨S200, .f32⟩
  | .local _ .vmem, ⟨8, _⟩ => ⟨S9x200x32, .f32⟩
  | .local _ .vmem, ⟨9, _⟩ => ⟨S9x32, .f32⟩
  | .local _ .vmem, ⟨10, _⟩ => ⟨S32x192x200, .f32⟩
  | .local _ .vmem, ⟨11, _⟩ => ⟨S200, .f32⟩
  | .local _ .vmem, ⟨12, _⟩ => ⟨S1, .f32⟩
  | .local _ .vmem, ⟨13, _⟩ => ⟨S1, .f32⟩
  | .local _ .vmem, ⟨14, _⟩ => ⟨S1, .f32⟩
  | .local _ .vmem, ⟨15, _⟩ => ⟨S1, .f32⟩
  | .local _ .vmem, ⟨16, _⟩ => ⟨S32, .f32⟩
  | .local _ .vmem, ⟨17, _⟩ => ⟨S32, .f32⟩
  | .local _ .vmem, ⟨18, _⟩ => ⟨S32, .f32⟩
  | .local _ .vmem, ⟨19, _⟩ => ⟨S32, .f32⟩
  | .local _ .vmem, ⟨20, _⟩ => ⟨S200, .f32⟩
  | .local _ .vmem, ⟨21, _⟩ => ⟨S200, .f32⟩
  | .local _ .vmem, ⟨22, _⟩ => ⟨S200, .f32⟩
  | .local _ .vmem, ⟨23, _⟩ => ⟨S200, .f32⟩
  | .local _ .vmem, ⟨24, _⟩ => ⟨S128x200, .f32⟩
  | .local _ .vmem, ⟨25, _⟩ => ⟨S128x200, .f32⟩
  | .local _ .vmem, ⟨26, _⟩ => ⟨S1024x200, .f32⟩
  | .local _ .vmem, ⟨27, _⟩ => ⟨S2048x200, .f32⟩
  | .local _ .vmem, ⟨28, _⟩ => ⟨S2048x200, .f32⟩
  | .local _ .vmem, ⟨29, _⟩ => ⟨S1x2048, .f32⟩
  | .local _ .vmem, ⟨30, _⟩ => ⟨S1x2048, .f32⟩
  | .local _ .vmem, ⟨31, _⟩ => ⟨S1024x2048, .f32⟩
  | .local _ .vmem, ⟨32, _⟩ => ⟨S1024x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_call0_v0 : Ref sig .tc := ⟨.hbm, 58, rfl⟩
abbrev main_v27 : Ref sig .tc := ⟨.hbm, 59, rfl⟩
abbrev main_c_6 : Ref sig .tc := ⟨.hbm, 60, rfl⟩
abbrev main_call1_v0 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc1_stg0_0 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc1_sem0_0 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S400x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x200x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x192x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S200 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S200 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S200 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x200 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S200x288_S200x32x9 : S200x288.ShapeCasts S200x32x9
  transposes_S200x32x9_S9x200x32_2_0_1 : S200x32x9.Transposes [2, 0, 1] S9x200x32
  shapeCasts_S288_S32x9 : S288.ShapeCasts S32x9
  transposes_S32x9_S9x32_1_0 : S32x9.Transposes [1, 0] S9x32
  shapeCasts_S6144x200_S32x192x200 : S6144x200.ShapeCasts S32x192x200
  inb_S128x200_S128x200_0_0 : ∀ a, (![0, 0] : Fin 2 → Nat) a + S128x200.size a ≤ S128x200.size a
  h_S128x200 : 0 < S128x200.numel
  shapeCasts_S128x200_S128x200 : S128x200.ShapeCasts S128x200
  concatenates_S128x200_S128x200_S128x400_d1 : Shape.Concatenates [S128x200, S128x200] S128x400 1
  bitsLt_bf16_f32 : FTy.bits .bf16 < FTy.bits .f32
  inb_S400x200_S400x200_0_0 : ∀ a, (![0, 0] : Fin 2 → Nat) a + S400x200.size a ≤ S400x200.size a
  h_S400x200 : 0 < S400x200.numel
  inb_S200_S200_0 : ∀ a, (![0] : Fin 1 → Nat) a + S200.size a ≤ S200.size a
  h_S200 : 0 < S200.numel
  shapeCasts_S200_S1x200 : S200.ShapeCasts S1x200
  broadcasts_S1x200_S128x200 : S1x200.Broadcasts S128x200
  inb_S1_S1_0 : ∀ a, (![0] : Fin 1 → Nat) a + S1.size a ≤ S1.size a
  h_S1 : 0 < S1.numel
  shapeCasts_S1_S1x1 : S1.ShapeCasts S1x1
  broadcasts_S1x1_S128x200 : S1x1.Broadcasts S128x200
  inb_S9x200x32_S1x200x32_0_0_0 : ∀ a, (![0, 0, 0] : Fin 3 → Nat) a + S1x200x32.size a ≤ S9x200x32.size a
  h_S1x200x32 : 0 < S1x200x32.numel
  shapeCasts_S1x200x32_S200x32 : S1x200x32.ShapeCasts S200x32
  inb_S9x32_S1x32_0_0 : ∀ a, (![0, 0] : Fin 2 → Nat) a + S1x32.size a ≤ S9x32.size a
  h_S1x32 : 0 < S1x32.numel
  shapeCasts_S1x32_S32 : S1x32.ShapeCasts S32
  shapeCasts_S32_S1x32 : S32.ShapeCasts S1x32
  broadcasts_S1x32_S128x32 : S1x32.Broadcasts S128x32
  slices_S128x200_o0_0_S128x192 : S128x200.Slices ![0, 0] S128x192
  shapeCasts_S128x32_S128x32x1 : S128x32.ShapeCasts S128x32x1
  shapeCasts_S128x192_S128x1x192 : S128x192.ShapeCasts S128x1x192
  broadcasts_S128x32x1_S128x32x192 : S128x32x1.Broadcasts S128x32x192
  broadcasts_S128x1x192_S128x32x192 : S128x1x192.Broadcasts S128x32x192
  inb_S9x200x32_S1x200x32_1_0_0 : ∀ a, (![1, 0, 0] : Fin 3 → Nat) a + S1x200x32.size a ≤ S9x200x32.size a
  inb_S9x32_S1x32_1_0 : ∀ a, (![1, 0] : Fin 2 → Nat) a + S1x32.size a ≤ S9x32.size a
  slices_S128x200_o0_1_S128x192 : S128x200.Slices ![0, 1] S128x192
  inb_S9x200x32_S1x200x32_2_0_0 : ∀ a, (![2, 0, 0] : Fin 3 → Nat) a + S1x200x32.size a ≤ S9x200x32.size a
  inb_S9x32_S1x32_2_0 : ∀ a, (![2, 0] : Fin 2 → Nat) a + S1x32.size a ≤ S9x32.size a
  slices_S128x200_o0_2_S128x192 : S128x200.Slices ![0, 2] S128x192
  inb_S9x200x32_S1x200x32_3_0_0 : ∀ a, (![3, 0, 0] : Fin 3 → Nat) a + S1x200x32.size a ≤ S9x200x32.size a
  inb_S9x32_S1x32_3_0 : ∀ a, (![3, 0] : Fin 2 → Nat) a + S1x32.size a ≤ S9x32.size a
  slices_S128x200_o0_3_S128x192 : S128x200.Slices ![0, 3] S128x192
  inb_S9x200x32_S1x200x32_4_0_0 : ∀ a, (![4, 0, 0] : Fin 3 → Nat) a + S1x200x32.size a ≤ S9x200x32.size a
  inb_S9x32_S1x32_4_0 : ∀ a, (![4, 0] : Fin 2 → Nat) a + S1x32.size a ≤ S9x32.size a
  slices_S128x200_o0_4_S128x192 : S128x200.Slices ![0, 4] S128x192
  inb_S9x200x32_S1x200x32_5_0_0 : ∀ a, (![5, 0, 0] : Fin 3 → Nat) a + S1x200x32.size a ≤ S9x200x32.size a
  inb_S9x32_S1x32_5_0 : ∀ a, (![5, 0] : Fin 2 → Nat) a + S1x32.size a ≤ S9x32.size a
  slices_S128x200_o0_5_S128x192 : S128x200.Slices ![0, 5] S128x192
  inb_S9x200x32_S1x200x32_6_0_0 : ∀ a, (![6, 0, 0] : Fin 3 → Nat) a + S1x200x32.size a ≤ S9x200x32.size a
  inb_S9x32_S1x32_6_0 : ∀ a, (![6, 0] : Fin 2 → Nat) a + S1x32.size a ≤ S9x32.size a
  slices_S128x200_o0_6_S128x192 : S128x200.Slices ![0, 6] S128x192
  inb_S9x200x32_S1x200x32_7_0_0 : ∀ a, (![7, 0, 0] : Fin 3 → Nat) a + S1x200x32.size a ≤ S9x200x32.size a
  inb_S9x32_S1x32_7_0 : ∀ a, (![7, 0] : Fin 2 → Nat) a + S1x32.size a ≤ S9x32.size a
  slices_S128x200_o0_7_S128x192 : S128x200.Slices ![0, 7] S128x192
  inb_S9x200x32_S1x200x32_8_0_0 : ∀ a, (![8, 0, 0] : Fin 3 → Nat) a + S1x200x32.size a ≤ S9x200x32.size a
  inb_S9x32_S1x32_8_0 : ∀ a, (![8, 0] : Fin 2 → Nat) a + S1x32.size a ≤ S9x32.size a
  slices_S128x200_o0_8_S128x192 : S128x200.Slices ![0, 8] S128x192
  inb_S32_S32_0 : ∀ a, (![0] : Fin 1 → Nat) a + S32.size a ≤ S32.size a
  h_S32 : 0 < S32.numel
  shapeCasts_S32_S1x32x1 : S32.ShapeCasts S1x32x1
  broadcasts_S1x32x1_S128x32x192 : S1x32x1.Broadcasts S128x32x192
  slices_S128x32x192_o0_0_0_S128x1x192 : S128x32x192.Slices ![0, 0, 0] S128x1x192
  shapeCasts_S128x1x192_S128x192 : S128x1x192.ShapeCasts S128x192
  inb_S32x192x200_S1x192x200_0_0_0 : ∀ a, (![0, 0, 0] : Fin 3 → Nat) a + S1x192x200.size a ≤ S32x192x200.size a
  h_S1x192x200 : 0 < S1x192x200.numel
  shapeCasts_S1x192x200_S192x200 : S1x192x200.ShapeCasts S192x200
  slices_S128x32x192_o0_1_0_S128x1x192 : S128x32x192.Slices ![0, 1, 0] S128x1x192
  inb_S32x192x200_S1x192x200_1_0_0 : ∀ a, (![1, 0, 0] : Fin 3 → Nat) a + S1x192x200.size a ≤ S32x192x200.size a
  slices_S128x32x192_o0_2_0_S128x1x192 : S128x32x192.Slices ![0, 2, 0] S128x1x192
  inb_S32x192x200_S1x192x200_2_0_0 : ∀ a, (![2, 0, 0] : Fin 3 → Nat) a + S1x192x200.size a ≤ S32x192x200.size a
  slices_S128x32x192_o0_3_0_S128x1x192 : S128x32x192.Slices ![0, 3, 0] S128x1x192
  inb_S32x192x200_S1x192x200_3_0_0 : ∀ a, (![3, 0, 0] : Fin 3 → Nat) a + S1x192x200.size a ≤ S32x192x200.size a
  slices_S128x32x192_o0_4_0_S128x1x192 : S128x32x192.Slices ![0, 4, 0] S128x1x192
  inb_S32x192x200_S1x192x200_4_0_0 : ∀ a, (![4, 0, 0] : Fin 3 → Nat) a + S1x192x200.size a ≤ S32x192x200.size a
  slices_S128x32x192_o0_5_0_S128x1x192 : S128x32x192.Slices ![0, 5, 0] S128x1x192
  inb_S32x192x200_S1x192x200_5_0_0 : ∀ a, (![5, 0, 0] : Fin 3 → Nat) a + S1x192x200.size a ≤ S32x192x200.size a
  slices_S128x32x192_o0_6_0_S128x1x192 : S128x32x192.Slices ![0, 6, 0] S128x1x192
  inb_S32x192x200_S1x192x200_6_0_0 : ∀ a, (![6, 0, 0] : Fin 3 → Nat) a + S1x192x200.size a ≤ S32x192x200.size a
  slices_S128x32x192_o0_7_0_S128x1x192 : S128x32x192.Slices ![0, 7, 0] S128x1x192
  inb_S32x192x200_S1x192x200_7_0_0 : ∀ a, (![7, 0, 0] : Fin 3 → Nat) a + S1x192x200.size a ≤ S32x192x200.size a
  slices_S128x32x192_o0_8_0_S128x1x192 : S128x32x192.Slices ![0, 8, 0] S128x1x192
  inb_S32x192x200_S1x192x200_8_0_0 : ∀ a, (![8, 0, 0] : Fin 3 → Nat) a + S1x192x200.size a ≤ S32x192x200.size a
  slices_S128x32x192_o0_9_0_S128x1x192 : S128x32x192.Slices ![0, 9, 0] S128x1x192
  inb_S32x192x200_S1x192x200_9_0_0 : ∀ a, (![9, 0, 0] : Fin 3 → Nat) a + S1x192x200.size a ≤ S32x192x200.size a
  slices_S128x32x192_o0_10_0_S128x1x192 : S128x32x192.Slices ![0, 10, 0] S128x1x192
  inb_S32x192x200_S1x192x200_10_0_0 : ∀ a, (![10, 0, 0] : Fin 3 → Nat) a + S1x192x200.size a ≤ S32x192x200.size a
  slices_S128x32x192_o0_11_0_S128x1x192 : S128x32x192.Slices ![0, 11, 0] S128x1x192
  inb_S32x192x200_S1x192x200_11_0_0 : ∀ a, (![11, 0, 0] : Fin 3 → Nat) a + S1x192x200.size a ≤ S32x192x200.size a
  slices_S128x32x192_o0_12_0_S128x1x192 : S128x32x192.Slices ![0, 12, 0] S128x1x192
  inb_S32x192x200_S1x192x200_12_0_0 : ∀ a, (![12, 0, 0] : Fin 3 → Nat) a + S1x192x200.size a ≤ S32x192x200.size a
  slices_S128x32x192_o0_13_0_S128x1x192 : S128x32x192.Slices ![0, 13, 0] S128x1x192
  inb_S32x192x200_S1x192x200_13_0_0 : ∀ a, (![13, 0, 0] : Fin 3 → Nat) a + S1x192x200.size a ≤ S32x192x200.size a
  slices_S128x32x192_o0_14_0_S128x1x192 : S128x32x192.Slices ![0, 14, 0] S128x1x192
  inb_S32x192x200_S1x192x200_14_0_0 : ∀ a, (![14, 0, 0] : Fin 3 → Nat) a + S1x192x200.size a ≤ S32x192x200.size a
  slices_S128x32x192_o0_15_0_S128x1x192 : S128x32x192.Slices ![0, 15, 0] S128x1x192
  inb_S32x192x200_S1x192x200_15_0_0 : ∀ a, (![15, 0, 0] : Fin 3 → Nat) a + S1x192x200.size a ≤ S32x192x200.size a
  slices_S128x32x192_o0_16_0_S128x1x192 : S128x32x192.Slices ![0, 16, 0] S128x1x192
  inb_S32x192x200_S1x192x200_16_0_0 : ∀ a, (![16, 0, 0] : Fin 3 → Nat) a + S1x192x200.size a ≤ S32x192x200.size a
  slices_S128x32x192_o0_17_0_S128x1x192 : S128x32x192.Slices ![0, 17, 0] S128x1x192
  inb_S32x192x200_S1x192x200_17_0_0 : ∀ a, (![17, 0, 0] : Fin 3 → Nat) a + S1x192x200.size a ≤ S32x192x200.size a
  slices_S128x32x192_o0_18_0_S128x1x192 : S128x32x192.Slices ![0, 18, 0] S128x1x192
  inb_S32x192x200_S1x192x200_18_0_0 : ∀ a, (![18, 0, 0] : Fin 3 → Nat) a + S1x192x200.size a ≤ S32x192x200.size a
  slices_S128x32x192_o0_19_0_S128x1x192 : S128x32x192.Slices ![0, 19, 0] S128x1x192
  inb_S32x192x200_S1x192x200_19_0_0 : ∀ a, (![19, 0, 0] : Fin 3 → Nat) a + S1x192x200.size a ≤ S32x192x200.size a
  slices_S128x32x192_o0_20_0_S128x1x192 : S128x32x192.Slices ![0, 20, 0] S128x1x192
  inb_S32x192x200_S1x192x200_20_0_0 : ∀ a, (![20, 0, 0] : Fin 3 → Nat) a + S1x192x200.size a ≤ S32x192x200.size a
  slices_S128x32x192_o0_21_0_S128x1x192 : S128x32x192.Slices ![0, 21, 0] S128x1x192
  inb_S32x192x200_S1x192x200_21_0_0 : ∀ a, (![21, 0, 0] : Fin 3 → Nat) a + S1x192x200.size a ≤ S32x192x200.size a
  slices_S128x32x192_o0_22_0_S128x1x192 : S128x32x192.Slices ![0, 22, 0] S128x1x192
  inb_S32x192x200_S1x192x200_22_0_0 : ∀ a, (![22, 0, 0] : Fin 3 → Nat) a + S1x192x200.size a ≤ S32x192x200.size a
  slices_S128x32x192_o0_23_0_S128x1x192 : S128x32x192.Slices ![0, 23, 0] S128x1x192
  inb_S32x192x200_S1x192x200_23_0_0 : ∀ a, (![23, 0, 0] : Fin 3 → Nat) a + S1x192x200.size a ≤ S32x192x200.size a
  slices_S128x32x192_o0_24_0_S128x1x192 : S128x32x192.Slices ![0, 24, 0] S128x1x192
  inb_S32x192x200_S1x192x200_24_0_0 : ∀ a, (![24, 0, 0] : Fin 3 → Nat) a + S1x192x200.size a ≤ S32x192x200.size a
  slices_S128x32x192_o0_25_0_S128x1x192 : S128x32x192.Slices ![0, 25, 0] S128x1x192
  inb_S32x192x200_S1x192x200_25_0_0 : ∀ a, (![25, 0, 0] : Fin 3 → Nat) a + S1x192x200.size a ≤ S32x192x200.size a
  slices_S128x32x192_o0_26_0_S128x1x192 : S128x32x192.Slices ![0, 26, 0] S128x1x192
  inb_S32x192x200_S1x192x200_26_0_0 : ∀ a, (![26, 0, 0] : Fin 3 → Nat) a + S1x192x200.size a ≤ S32x192x200.size a
  slices_S128x32x192_o0_27_0_S128x1x192 : S128x32x192.Slices ![0, 27, 0] S128x1x192
  inb_S32x192x200_S1x192x200_27_0_0 : ∀ a, (![27, 0, 0] : Fin 3 → Nat) a + S1x192x200.size a ≤ S32x192x200.size a
  slices_S128x32x192_o0_28_0_S128x1x192 : S128x32x192.Slices ![0, 28, 0] S128x1x192
  inb_S32x192x200_S1x192x200_28_0_0 : ∀ a, (![28, 0, 0] : Fin 3 → Nat) a + S1x192x200.size a ≤ S32x192x200.size a
  slices_S128x32x192_o0_29_0_S128x1x192 : S128x32x192.Slices ![0, 29, 0] S128x1x192
  inb_S32x192x200_S1x192x200_29_0_0 : ∀ a, (![29, 0, 0] : Fin 3 → Nat) a + S1x192x200.size a ≤ S32x192x200.size a
  slices_S128x32x192_o0_30_0_S128x1x192 : S128x32x192.Slices ![0, 30, 0] S128x1x192
  inb_S32x192x200_S1x192x200_30_0_0 : ∀ a, (![30, 0, 0] : Fin 3 → Nat) a + S1x192x200.size a ≤ S32x192x200.size a
  slices_S128x32x192_o0_31_0_S128x1x192 : S128x32x192.Slices ![0, 31, 0] S128x1x192
  inb_S32x192x200_S1x192x200_31_0_0 : ∀ a, (![31, 0, 0] : Fin 3 → Nat) a + S1x192x200.size a ≤ S32x192x200.size a
  pads_S50000x200_S51200x200_012000_000 : S50000x200.Pads (![0, 0] : Fin 2 → Nat) ![1200, 0] ![0, 0] S51200x200
  h_S_ : 0 < S_.numel
  pads_S50000_S51200_012000 : S50000.Pads (![0] : Fin 1 → Nat) ![1200] ![0] S51200
  shapeCasts_S51200_S1x51200 : S51200.ShapeCasts S1x51200
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  slices_S1024x51200_S1024x50000_0_0 : S1024x51200.Slices ![0, 0] S1024x50000
  gather_S50000x200_S1024x1_S1024x200_1_0_n_n_0_1_1200_wf : GatherDims.WF S50000x200 S1024x1 S1024x200 [1] [0] [] [0] [] 1 ![1, 200]
  gather_S400x200_S1024x1_S1024x200_1_0_n_n_0_1_1200_wf : GatherDims.WF S400x200 S1024x1 S1024x200 [1] [0] [] [0] [] 1 ![1, 200]
  dot_S128x400_S400x200_S128x200_1_0_0_1_n_n_wf : DotDims.WF S128x400 S400x200 S128x200 [1] [0] [0] [1] [] []
  dot_S128x200_S200x32_S128x32_1_0_0_1_n_n_wf : DotDims.WF S128x200 S200x32 S128x32 [1] [0] [0] [1] [] []
  dot_S128x192_S192x200_S128x200_1_0_0_1_n_n_wf : DotDims.WF S128x192 S192x200 S128x200 [1] [0] [0] [1] [] []
  dot_S1024x200_S2048x200_S1024x2048_1_1_0_0_n_n_wf : DotDims.WF S1024x200 S2048x200 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200.size a ≤ S1024x200.size a
  hwx0_0 : ∀ i : grid0.Coords, EltTy.bits .f32 = 32 ∨ (Rect.block (s := S1024x200) S128x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200.size a ≤ S1024x200.size a
  hwx0_1 : ∀ i : grid0.Coords, EltTy.bits .f32 = 32 ∨ (Rect.block (s := S1024x200) S128x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x200.size a ≤ S1024x200.size a
  hwx0_2 : ∀ i : grid0.Coords, EltTy.bits .f32 = 32 ∨ (Rect.block (s := S1024x200) S128x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400x200.size a ≤ S400x200.size a
  hwx0_3 : ∀ i : grid0.Coords, EltTy.bits .f32 = 32 ∨ (Rect.block (s := S400x200) S400x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200.size a ≤ S200.size a
  hwx0_4 : ∀ i : grid0.Coords, EltTy.bits .f32 = 32 ∨ (Rect.block (s := S200) S200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x200x32.size a ≤ S9x200x32.size a
  hwx0_5 : ∀ i : grid0.Coords, EltTy.bits .f32 = 32 ∨ (Rect.block (s := S9x200x32) S9x200x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x32.size a ≤ S9x32.size a
  hwx0_6 : ∀ i : grid0.Coords, EltTy.bits .f32 = 32 ∨ (Rect.block (s := S9x32) S9x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x192x200.size a ≤ S32x192x200.size a
  hwx0_7 : ∀ i : grid0.Coords, EltTy.bits .f32 = 32 ∨ (Rect.block (s := S32x192x200) S32x192x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200.size a ≤ S200.size a
  hwx0_8 : ∀ i : grid0.Coords, EltTy.bits .f32 = 32 ∨ (Rect.block (s := S200) S200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32.size a ≤ S32.size a
  hwx0_13 : ∀ i : grid0.Coords, EltTy.bits .f32 = 32 ∨ (Rect.block (s := S32) S32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32.size a ≤ S32.size a
  hwx0_14 : ∀ i : grid0.Coords, EltTy.bits .f32 = 32 ∨ (Rect.block (s := S32) S32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32.size a ≤ S32.size a
  hwx0_15 : ∀ i : grid0.Coords, EltTy.bits .f32 = 32 ∨ (Rect.block (s := S32) S32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32.size a ≤ S32.size a
  hwx0_16 : ∀ i : grid0.Coords, EltTy.bits .f32 = 32 ∨ (Rect.block (s := S32) S32.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S200.size a ≤ S200.size a
  hwx0_17 : ∀ i : grid0.Coords, EltTy.bits .f32 = 32 ∨ (Rect.block (s := S200) S200.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S200.size a ≤ S200.size a
  hwx0_18 : ∀ i : grid0.Coords, EltTy.bits .f32 = 32 ∨ (Rect.block (s := S200) S200.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S200.size a ≤ S200.size a
  hwx0_19 : ∀ i : grid0.Coords, EltTy.bits .f32 = 32 ∨ (Rect.block (s := S200) S200.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S200.size a ≤ S200.size a
  hwx0_20 : ∀ i : grid0.Coords, EltTy.bits .f32 = 32 ∨ (Rect.block (s := S200) S200.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x200.size a ≤ S1024x200.size a
  hwx0_21 : ∀ i : grid0.Coords, EltTy.bits .f32 = 32 ∨ (Rect.block (s := S1024x200) S128x200.size (cc0_transform_21 i) (hinb0_21 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .f32 = 32 ∨ (Rect.block (s := S1024x200) S1024x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x200.size a ≤ S51200x200.size a
  hwx1_1 : ∀ i : grid1.Coords, EltTy.bits .f32 = 32 ∨ (Rect.block (s := S51200x200) S2048x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x51200.size a
  hwx1_2 : ∀ i : grid1.Coords, EltTy.bits .f32 = 32 ∨ (Rect.block (s := S1x51200) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x51200.size a
  hwx1_3 : ∀ i : grid1.Coords, EltTy.bits .f32 = 32 ∨ (Rect.block (s := S1024x51200) S1024x2048.size (cc1_transform_3 i) (hinb1_3 i)).WholeWords (EltTy.packing .f32)

variable [Facts₀]

def gather_S50000x200_S1024x1_S1024x200_1_0_n_n_0_1_1200 : GatherDims S50000x200 S1024x1 S1024x200 where
  offsetDims := [1]
  collapsedSliceDims := [0]
  operandBatchingDims := []
  startIndicesBatchingDims := []
  startIndexMap := [0]
  indexVectorDim := 1
  sliceSizes := ![1, 200]
  wf := gather_S50000x200_S1024x1_S1024x200_1_0_n_n_0_1_1200_wf
def gather_S400x200_S1024x1_S1024x200_1_0_n_n_0_1_1200 : GatherDims S400x200 S1024x1 S1024x200 where
  offsetDims := [1]
  collapsedSliceDims := [0]
  operandBatchingDims := []
  startIndicesBatchingDims := []
  startIndexMap := [0]
  indexVectorDim := 1
  sliceSizes := ![1, 200]
  wf := gather_S400x200_S1024x1_S1024x200_1_0_n_n_0_1_1200_wf
def dot_S128x400_S400x200_S128x200_1_0_0_1_n_n : DotDims S128x400 S400x200 S128x200 where
  lhsContracting := [1]
  rhsContracting := [0]
  lhsNonContracting := [0]
  rhsNonContracting := [1]
  lhsBatch := []
  rhsBatch := []
  wf := dot_S128x400_S400x200_S128x200_1_0_0_1_n_n_wf
def dot_S128x200_S200x32_S128x32_1_0_0_1_n_n : DotDims S128x200 S200x32 S128x32 where
  lhsContracting := [1]
  rhsContracting := [0]
  lhsNonContracting := [0]
  rhsNonContracting := [1]
  lhsBatch := []
  rhsBatch := []
  wf := dot_S128x200_S200x32_S128x32_1_0_0_1_n_n_wf
def dot_S128x192_S192x200_S128x200_1_0_0_1_n_n : DotDims S128x192 S192x200 S128x200 where
  lhsContracting := [1]
  rhsContracting := [0]
  lhsNonContracting := [0]
  rhsNonContracting := [1]
  lhsBatch := []
  rhsBatch := []
  wf := dot_S128x192_S192x200_S128x200_1_0_0_1_n_n_wf
def dot_S1024x200_S2048x200_S1024x2048_1_1_0_0_n_n : DotDims S1024x200 S2048x200 S1024x2048 where
  lhsContracting := [1]
  rhsContracting := [1]
  lhsNonContracting := [0]
  rhsNonContracting := [0]
  lhsBatch := []
  rhsBatch := []
  wf := dot_S1024x200_S2048x200_S1024x2048_1_1_0_0_n_n_wf

abbrev win0_0 : Pipeline.Window sig grid0 :=
  Pipeline.Window.ofSpec (Memref.whole main_v6) S128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S400x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S9x200x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S9x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S32x192x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg19) S200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S200.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg21) S200.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg22) S200.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v26) S128x200.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev win1_0 : Pipeline.Window sig grid1 :=
  Pipeline.Window.ofSpec (Memref.whole main_v26) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2048x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S50000x200 : Shape := ⟨2, ![50000, 200]⟩
abbrev S400x200 : Shape := ⟨2, ![400, 200]⟩
abbrev S200 : Shape := ⟨1, ![200]⟩
abbrev S200x288 : Shape := ⟨2, ![200, 288]⟩
abbrev S288 : Shape := ⟨1, ![288]⟩
abbrev S6144x200 : Shape := ⟨2, ![6144, 200]⟩
abbrev S1 : Shape := ⟨1, ![1]⟩
abbrev S32 : Shape := ⟨1, ![32]⟩
abbrev S50000 : Shape := ⟨1, ![50000]⟩
abbrev S_ : Shape := ⟨0, ![]⟩
abbrev S1024x1 : Shape := ⟨2, ![1024, 1]⟩
abbrev S1024x200 : Shape := ⟨2, ![1024, 200]⟩
abbrev S1024x400 : Shape := ⟨2, ![1024, 400]⟩
abbrev S1x200 : Shape := ⟨2, ![1, 200]⟩
abbrev S1x1 : Shape := ⟨2, ![1, 1]⟩
abbrev S1024x288 : Shape := ⟨2, ![1024, 288]⟩
abbrev S1x288 : Shape := ⟨2, ![1, 288]⟩
abbrev S1024x32x9 : Shape := ⟨3, ![1024, 32, 9]⟩
abbrev S1024x192 : Shape := ⟨2, ![1024, 192]⟩
abbrev S1024x192x1 : Shape := ⟨3, ![1024, 192, 1]⟩
abbrev S1024x192x9 : Shape := ⟨3, ![1024, 192, 9]⟩
abbrev S1024x32x192 : Shape := ⟨3, ![1024, 32, 192]⟩
abbrev S32x1 : Shape := ⟨2, ![32, 1]⟩
abbrev S1x32x1 : Shape := ⟨3, ![1, 32, 1]⟩
abbrev S1024x6144 : Shape := ⟨2, ![1024, 6144]⟩
abbrev S200x50000 : Shape := ⟨2, ![200, 50000]⟩
abbrev S1024x50000 : Shape := ⟨2, ![1024, 50000]⟩
abbrev S1x50000 : Shape := ⟨2, ![1, 50000]⟩

abbrev nBuf : Space → Nat
  | .hbm => 147
  | .vmem => 0
  | .smem => 0
  | _ => 0

abbrev hbmTy0_0 (i : Nat) : BufTy := match i % 128 with
  | 0 => ⟨S1024, .i32⟩
  | 1 => ⟨S1024, .i32⟩
  | 2 => ⟨S1024, .i32⟩
  | 3 => ⟨S50000x200, .f32⟩
  | 4 => ⟨S400x200, .f32⟩
  | 5 => ⟨S400x200, .f32⟩
  | 6 => ⟨S200, .f32⟩
  | 7 => ⟨S200x288, .f32⟩
  | 8 => ⟨S288, .f32⟩
  | 9 => ⟨S6144x200, .f32⟩
  | 10 => ⟨S200, .f32⟩
  | 11 => ⟨S1, .f32⟩
  | 12 => ⟨S1, .f32⟩
  | 13 => ⟨S1, .f32⟩
  | 14 => ⟨S1, .f32⟩
  | 15 => ⟨S32, .f32⟩
  | 16 => ⟨S32, .f32⟩
  | 17 => ⟨S32, .f32⟩
  | 18 => ⟨S32, .f32⟩
  | 19 => ⟨S200, .f32⟩
  | 20 => ⟨S200, .f32⟩
  | 21 => ⟨S200, .f32⟩
  | 22 => ⟨S200, .f32⟩
  | 23 => ⟨S50000, .f32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1024x200, .f32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S1024x1, .i32⟩
  | 41 => ⟨S1024x200, .f32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S1024x200, .f32⟩
  | 51 => ⟨S1024x400, .f32⟩
  | 52 => ⟨S1024x200, .f32⟩
  | 53 => ⟨S1x200, .f32⟩
  | 54 => ⟨S1024x200, .f32⟩
  | 55 => ⟨S1024x200, .f32⟩
  | 56 => ⟨S1x1, .f32⟩
  | 57 => ⟨S1024x200, .f32⟩
  | 58 => ⟨S1024x200, .f32⟩
  | 59 => ⟨S_, .f32⟩
  | 60 => ⟨S1, .f32⟩
  | 61 => ⟨S1, .f32⟩
  | 62 => ⟨S1, .f32⟩
  | 63 => ⟨S1, .f32⟩
  | 64 => ⟨S1x1, .f32⟩
  | 65 => ⟨S1024x200, .f32⟩
  | 66 => ⟨S1024x200, .f32⟩
  | 67 => ⟨S1x1, .f32⟩
  | 68 => ⟨S1024x200, .f32⟩
  | 69 => ⟨S1024x200, .f32⟩
  | 70 => ⟨S1024x288, .f32⟩
  | 71 => ⟨S1x288, .f32⟩
  | 72 => ⟨S1024x288, .f32⟩
  | 73 => ⟨S1024x288, .f32⟩
  | 74 => ⟨S1024x32x9, .f32⟩
  | 75 => ⟨S1024x192, .f32⟩
  | 76 => ⟨S1024x192, .f32⟩
  | 77 => ⟨S1024x192, .f32⟩
  | 78 => ⟨S1024x192, .f32⟩
  | 79 => ⟨S1024x192, .f32⟩
  | 80 => ⟨S1024x192, .f32⟩
  | 81 => ⟨S1024x192, .f32⟩
  | 82 => ⟨S1024x192, .f32⟩
  | 83 => ⟨S1024x192, .f32⟩
  | 84 => ⟨S1024x192x1, .f32⟩
  | 85 => ⟨S1024x192x1, .f32⟩
  | 86 => ⟨S1024x192x1, .f32⟩
  | 87 => ⟨S1024x192x1, .f32⟩
  | 88 => ⟨S1024x192x1, .f32⟩
  | 89 => ⟨S1024x192x1, .f32⟩
  | 90 => ⟨S1024x192x1, .f32⟩
  | 91 => ⟨S1024x192x1, .f32⟩
  | 92 => ⟨S1024x192x1, .f32⟩
  | 93 => ⟨S1024x192x9, .f32⟩
  | 94 => ⟨S1024x32x192, .f32⟩
  | 95 => ⟨S32x1, .f32⟩
  | 96 => ⟨S1x32x1, .f32⟩
  | 97 => ⟨S1024x32x192, .f32⟩
  | 98 => ⟨S1024x32x192, .f32⟩
  | 99 => ⟨S_, .f32⟩
  | 100 => ⟨S32, .f32⟩
  | 101 => ⟨S32, .f32⟩
  | 102 => ⟨S32, .f32⟩
  | 103 => ⟨S32, .f32⟩
  | 104 => ⟨S32x1, .f32⟩
  | 105 => ⟨S1x32x1, .f32⟩
  | 106 => ⟨S1024x32x192, .f32⟩
  | 107 => ⟨S1024x32x192, .f32⟩
  | 108 => ⟨S32x1, .f32⟩
  | 109 => ⟨S1x32x1, .f32⟩
  | 110 => ⟨S1024x32x192, .f32⟩
  | 111 => ⟨S1024x32x192, .f32⟩
  | 112 => ⟨S1024x6144, .f32⟩
  | 113 => ⟨S1024x200, .f32⟩
  | 114 => ⟨S1x200, .f32⟩
  | 115 => ⟨S1024x200, .f32⟩
  | 116 => ⟨S1024x200, .f32⟩
  | 117 => ⟨S1x200, .f32⟩
  | 118 => ⟨S1024x200, .f32⟩
  | 119 => ⟨S1024x200, .f32⟩
  | 120 => ⟨S_, .f32⟩
  | 121 => ⟨S200, .f32⟩
  | 122 => ⟨S200, .f32⟩
  | 123 => ⟨S200, .f32⟩
  | 124 => ⟨S200, .f32⟩
  | 125 => ⟨S1x200, .f32⟩
  | 126 => ⟨S1024x200, .f32⟩
  | 127 => ⟨S1024x200, .f32⟩
  | _ => ⟨S1024, .i32⟩

abbrev hbmTy0_1 (i : Nat) : BufTy := match i % 128 with
  | 0 => ⟨S1x200, .f32⟩
  | 1 => ⟨S1024x200, .f32⟩
  | 2 => ⟨S1024x200, .f32⟩
  | 3 => ⟨S_, .f32⟩
  | 4 => ⟨S1024x200, .f32⟩
  | 5 => ⟨S1024x200, .f32⟩
  | 6 => ⟨S200x50000, .f32⟩
  | 7 => ⟨S1024x50000, .f32⟩
  | 8 => ⟨S1x50000, .f32⟩
  | 9 => ⟨S1024x50000, .f32⟩
  | 10 => ⟨S1024x50000, .f32⟩
  | 11 => ⟨S1024x50000, .f32⟩
  | 12 => ⟨S1024x50000, .f32⟩
  | 13 => ⟨S_, .f32⟩
  | 14 => ⟨S1024x50000, .f32⟩
  | 15 => ⟨S1024x50000, .f32⟩
  | 16 => ⟨S_, .f32⟩
  | 17 => ⟨S1024x50000, .f32⟩
  | 18 => ⟨S1024x50000, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_6 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call0_cst : Ref sig .tc := ⟨.hbm, 131, rfl⟩
abbrev main_call0_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_7 : Ref sig .tc := ⟨.hbm, 141, rfl⟩
abbrev main_v106 : Ref sig .tc := ⟨.hbm, 142, rfl⟩
abbrev main_v107 : Ref sig .tc := ⟨.hbm, 143, rfl⟩
abbrev main_cst_8 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x200_S1024x200_S1024x400_d1 : Shape.Concatenates [S1024x200, S1024x200] S1024x400 1
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S1_S1x1_1 : S1.BroadcastsInDim S1x1 (![1] : Fin 1 → Fin S1x1.rank)
  bcast_S1x1_S1024x200_0_1 : S1x1.BroadcastsInDim S1024x200 (![0, 1] : Fin 2 → Fin S1024x200.rank)
  bcast_S_S1 : S_.BroadcastsInDim S1 (![] : Fin 0 → Fin S1.rank)
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  slices_S1024x200_S1024x192_0_0 : S1024x200.Slices ![0, 0] S1024x192
  slices_S1024x200_S1024x192_0_1 : S1024x200.Slices ![0, 1] S1024x192
  slices_S1024x200_S1024x192_0_2 : S1024x200.Slices ![0, 2] S1024x192
  slices_S1024x200_S1024x192_0_3 : S1024x200.Slices ![0, 3] S1024x192
  slices_S1024x200_S1024x192_0_4 : S1024x200.Slices ![0, 4] S1024x192
  slices_S1024x200_S1024x192_0_5 : S1024x200.Slices ![0, 5] S1024x192
  slices_S1024x200_S1024x192_0_6 : S1024x200.Slices ![0, 6] S1024x192
  slices_S1024x200_S1024x192_0_7 : S1024x200.Slices ![0, 7] S1024x192
  slices_S1024x200_S1024x192_0_8 : S1024x200.Slices ![0, 8] S1024x192
  bcast_S1024x192_S1024x192x1_0_1 : S1024x192.BroadcastsInDim S1024x192x1 (![0, 1] : Fin 2 → Fin S1024x192x1.rank)
  concatenates_S1024x192x1_S1024x192x1_S1024x192x1_S1024x192x1_S1024x192x1_S1024x192x1_S1024x192x1_S1024x192x1_S1024x192x1_S1024x192x9_d2 : Shape.Concatenates [S1024x192x1, S1024x192x1, S1024x192x1, S1024x192x1, S1024x192x1, S1024x192x1, S1024x192x1, S1024x192x1, S1024x192x1] S1024x192x9 2
  bcast_S32_S32x1_0 : S32.BroadcastsInDim S32x1 (![0] : Fin 1 → Fin S32x1.rank)
  bcast_S32x1_S1x32x1_1_2 : S32x1.BroadcastsInDim S1x32x1 (![1, 2] : Fin 2 → Fin S1x32x1.rank)
  bcast_S1x32x1_S1024x32x192_0_1_2 : S1x32x1.BroadcastsInDim S1024x32x192 (![0, 1, 2] : Fin 3 → Fin S1024x32x192.rank)
  bcast_S_S32 : S_.BroadcastsInDim S32 (![] : Fin 0 → Fin S32.rank)
  shapeCasts_S1024x32x192_S1024x6144 : S1024x32x192.ShapeCasts S1024x6144
  bcast_S_S200 : S_.BroadcastsInDim S200 (![] : Fin 0 → Fin S200.rank)
  bcast_S_S1024x200 : S_.BroadcastsInDim S1024x200 (![] : Fin 0 → Fin S1024x200.rank)
  transposes_S50000x200_S200x50000_1_0 : S50000x200.Transposes [1, 0] S200x50000
  bcast_S50000_S1x50000_1 : S50000.BroadcastsInDim S1x50000 (![1] : Fin 1 → Fin S1x50000.rank)
  bcast_S1x50000_S1024x50000_0_1 : S1x50000.BroadcastsInDim S1024x50000 (![0, 1] : Fin 2 → Fin S1024x50000.rank)
  bcast_S_S1024x50000 : S_.BroadcastsInDim S1024x50000 (![] : Fin 0 → Fin S1024x50000.rank)
  gather_S50000x200_S1024x1_S1024x200_1_0_n_n_0_1_1200_wf : GatherDims.WF S50000x200 S1024x1 S1024x200 [1] [0] [] [0] [] 1 ![1, 200]
  gather_S400x200_S1024x1_S1024x200_1_0_n_n_0_1_1200_wf : GatherDims.WF S400x200 S1024x1 S1024x200 [1] [0] [] [0] [] 1 ![1, 200]
  dot_S1024x400_S400x200_S1024x200_1_0_0_1_n_n_wf : DotDims.WF S1024x400 S400x200 S1024x200 [1] [0] [0] [1] [] []
  dot_S1024x200_S200x288_S1024x288_1_0_0_1_n_n_wf : DotDims.WF S1024x200 S200x288 S1024x288 [1] [0] [0] [1] [] []
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x50000_S1024x50000_1_0_0_1_n_n_wf : DotDims.WF S1024x200 S200x50000 S1024x50000 [1] [0] [0] [1] [] []

variable [Facts₀]

def gather_S50000x200_S1024x1_S1024x200_1_0_n_n_0_1_1200 : GatherDims S50000x200 S1024x1 S1024x200 where
  offsetDims := [1]
  collapsedSliceDims := [0]
  operandBatchingDims := []
  startIndicesBatchingDims := []
  startIndexMap := [0]
  indexVectorDim := 1
  sliceSizes := ![1, 200]
  wf := gather_S50000x200_S1024x1_S1024x200_1_0_n_n_0_1_1200_wf
def gather_S400x200_S1024x1_S1024x200_1_0_n_n_0_1_1200 : GatherDims S400x200 S1024x1 S1024x200 where
  offsetDims := [1]
  collapsedSliceDims := [0]
  operandBatchingDims := []
  startIndicesBatchingDims := []
  startIndexMap := [0]
  indexVectorDim := 1
  sliceSizes := ![1, 200]
  wf := gather_S400x200_S1024x1_S1024x200_1_0_n_n_0_1_1200_wf
def dot_S1024x400_S400x200_S1024x200_1_0_0_1_n_n : DotDims S1024x400 S400x200 S1024x200 where
  lhsContracting := [1]
  rhsContracting := [0]
  lhsNonContracting := [0]
  rhsNonContracting := [1]
  lhsBatch := []
  rhsBatch := []
  wf := dot_S1024x400_S400x200_S1024x200_1_0_0_1_n_n_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x50000_S1024x50000_1_0_0_1_n_n : DotDims S1024x200 S200x50000 S1024x50000 where
  lhsContracting := [1]
  rhsContracting := [0]
  lhsNonContracting := [0]
  rhsNonContracting := [1]
  lhsBatch := []
  rhsBatch := []
  wf := dot_S1024x200_S200x50000_S1024x50000_1_0_0_1_n_n_wf

class Facts : Prop extends Facts₀ where

variable [Facts]
-- ==== Proof.Spec.lean ====
/-
  The function both programs compute, written once, row by row, on the extended reals.

  One sample's dense path depends only on that sample's three gathered rows (two entity rows, one relation row) and on the
  parameters:  the 400-wide concatenation of the two entity rows goes through the first linear layer and a one-channel
  batch norm (`x`);  the relation row goes through the second linear layer to give 32 filters of 9 taps (`kk`);  each filter
  slides over `x` (`conv`, 192 positions), is normalised per channel (`cbn`), the 32 x 192 results are flattened channel-major
  and go through the last linear layer (`hh`), a per-feature batch norm and the positive part (`h`).  A score is the logistic
  function of the inner product of a sample's `h` row with an entity row, plus that entity's bias (`out`).

  The three batch norms enter through their SCALE only (`s0`, `s1`, `s2`), because the two programs spell it differently:
  `g * rsqrt (v + eps)` (`scaleK`) and `g / sqrt (v + eps)` (`scaleR`).  They agree when `g` is finite and `0 ≤ v`.
-/
import Idealize.ShloMosaic.PureOps.Ideal
import Idealize.ShloMosaic.PureOps.Ideal.Laws
import Idealize.ShloMosaic.Lib.ValueIdx

noncomputable section

namespace Cert.Spec

open Idealize.ShloMosaic

/-- The f32 literal both programs add to a variance (the f32 nearest to 1e-5), as the exact real it denotes. -/
def eps : EReal := Ideal.ofBits .f32 0x3727C5AC#32

/-- A batch-norm scale spelt with the reciprocal square root. -/
def scaleK (g v : EReal) : EReal := g * Ideal.rsqrt (v + eps)

/-- A batch-norm scale spelt as a quotient by the square root. -/
def scaleR (g v : EReal) : EReal := Ideal.div g (Ideal.sqrt (v + eps))

section Row

variable (es ec rr : Fin 200 → EReal)
  (w1 : Fin 400 → Fin 200 → EReal) (w1b : Fin 200 → EReal)
  (fc1t : Fin 9 → Fin 200 → Fin 32 → EReal) (fc1bt : Fin 9 → Fin 32 → EReal)
  (fcw3 : Fin 32 → Fin 192 → Fin 200 → EReal) (fcb : Fin 200 → EReal)
  (m0 s0 b0 : EReal) (m1 s1 b1 : Fin 32 → EReal) (m2 s2 b2 : Fin 200 → EReal)

/-- The two entity rows side by side: entries 0..199 from the first, 200..399 from the second. -/
def cat (k : Fin 400) : EReal :=
  if h : k.val < 200 then es ⟨k.val, h⟩ else ec ⟨k.val - 200, by omega⟩

/-- First linear layer and the one-channel batch norm. -/
def x (e : Fin 200) : EReal :=
  ((∑ k : Fin 400, cat es ec k * w1 k e) + w1b e - m0) * s0 + b0

/-- Tap `w` of filter `o`: the second linear layer, its weights given tap-major (`fc1t w j o`, `fc1bt w o`). -/
def kk (o : Fin 32) (w : Fin 9) : EReal :=
  (∑ j : Fin 200, rr j * fc1t w j o) + fc1bt w o

/-- Position `p` of the sliding window, tap `w`: entry `p + w` of `x`. -/
def shift (p : Fin 192) (w : Fin 9) : Fin 200 := ⟨p.val + w.val, by omega⟩

/-- Filter `o` at position `p`. -/
def conv (o : Fin 32) (p : Fin 192) : EReal :=
  ∑ w : Fin 9, kk rr fc1t fc1bt o w * x es ec w1 w1b m0 s0 b0 (shift p w)

/-- Per-channel batch norm of the filter outputs. -/
def cbn (o : Fin 32) (p : Fin 192) : EReal :=
  (conv es ec rr w1 w1b fc1t fc1bt m0 s0 b0 o p - m1 o) * s1 o + b1 o

/-- Last linear layer, its weights given as (channel, position, feature). -/
def hh (e : Fin 200) : EReal :=
  (∑ o : Fin 32, ∑ p : Fin 192,
      cbn es ec rr w1 w1b fc1t fc1bt m0 s0 b0 m1 s1 b1 o p * fcw3 o p e) + fcb e

/-- Per-feature batch norm and the positive part: one sample's hidden row. -/
def h (e : Fin 200) : EReal :=
  max ((hh es ec rr w1 w1b fc1t fc1bt fcw3 fcb m0 s0 b0 m1 s1 b1 e - m2 e) * s2 e + b2 e) 0

end Row

/-- Column of the second linear layer's 288-wide output that holds tap `w` of filter `o` (filter-major). -/
def tapIdx (o : Fin 32) (w : Fin 9) : Fin 288 := ⟨o.val * 9 + w.val, by omega⟩

/-- Channel-major flattening of (channel, position) into the last layer's 6144 inputs. -/
def flatIdx (o : Fin 32) (p : Fin 192) : Fin 6144 := ⟨o.val * 192 + p.val, by omega⟩

/-- One score: the logistic function of a hidden row against an entity row, plus the entity's bias. -/
def out (hrow embrow : Fin 200 → EReal) (bias : EReal) : EReal :=
  Ideal.logistic ((∑ e : Fin 200, hrow e * embrow e) + bias)

end Cert.Spec

end
-- ==== Proof.Scales.lean ====
/-
  The two spellings of a batch-norm scale agree on the extended reals whenever the variance is not negative.

  With `w = v + eps` and `eps > 0`:  for a real `v ≥ 0`, `w` is a positive real, its square root `s` is a positive real, the
  quotient `g / s` is `g * s⁻¹` and the reciprocal square root of `w` is `s⁻¹`;  for `v = +∞`, `w = +∞`, its square root is `+∞`
  and both spellings give `g * 0`.  No condition on `g` is needed.
-/
import proofs.«164159_j23862838297042_1_alg».proof.Proof.Spec

noncomputable section

namespace Cert.Scales

open Idealize.ShloMosaic

/-- The shared literal is the positive real 10995116 · 2⁻⁴⁰. -/
theorem eps_eq : Cert.Spec.eps = (((10995116 : ℝ) / 2 ^ 40 : ℝ) : EReal) := by
  unfold Cert.Spec.eps
  simp [Ideal.ofBits, Ideal.ieee, -EReal.coe_mul]; norm_num

/-- `g / sqrt (v + eps) = g * rsqrt (v + eps)` for every `g` and every `v ≥ 0`. -/
theorem scaleR_eq_scaleK (g v : EReal) (hv : 0 ≤ v) : Cert.Spec.scaleR g v = Cert.Spec.scaleK g v := by
  unfold Cert.Spec.scaleR Cert.Spec.scaleK
  rw [eps_eq]
  induction v using EReal.rec with
  | bot => exact absurd hv (by simp)
  | top =>
    rw [EReal.top_add_coe]
    simp [Ideal.div]
  | coe r =>
    have hr : 0 ≤ r := EReal.coe_nonneg.mp hv
    have hw : 0 < r + 10995116 / 2 ^ 40 := by positivity
    have hs : Real.sqrt (r + 10995116 / 2 ^ 40) ≠ 0 := (Real.sqrt_pos.mpr hw).ne'
    rw [← EReal.coe_add, Ideal.sqrt_coe, Ideal.rsqrt_coe, if_neg (not_lt.mpr hw.le), if_neg (not_lt.mpr hw.le),
      if_neg hw.ne']
    unfold Ideal.div
    rw [if_neg (by exact_mod_cast hs), ← EReal.coe_inv]

end Cert.Scales

end
-- ==== Proof.PreFacts.lean ====
/-
  What the precondition says about the three variance inputs.

  The precondition is one `and` of all its conjuncts;  the last three say that every entry of each variance vector is at
  least zero (an `all` of a comparison with a broadcast zero).  They are peeled off the outside of the `and`, each `all`
  gives the comparison at an index, and on the extended reals the comparison `a ≥ 0` is the order's `0 ≤ a`.
-/
import proofs.«164159_j23862838297042_1_alg».proof.Pre_finite_inputs
import Idealize.ShloMosaic.Lib.ReduceAll
import Idealize.ShloMosaic.Lib.Affine
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

/-- An `all` of `a ≥ 0` (the zero a broadcast scalar) that holds gives `0 ≤ a i` at every index. -/
theorem all_ge_zero {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .oge a (broadcastInDim s ![] hb (constant (F := Ideal) S_ .f32 0x00000000#32)))
          (constantI S_ 1 1#1) hr hu ix0 = 1#1) (i : s.Idx) : (0 : EReal) ≤ a i := by
  have h1 := Host.reduce_andi_all _ _ hr hu ix0 e i
  rw [cmpf_apply, Ideal.cmpf_def, broadcastInDim_scalar_apply, constant_apply, Ideal.ofBits_zero_f32] at h1
  by_contra hn
  simp [Ideal.cmp, hn] at h1

/-- The precondition gives: every entry of each of the three variance vectors is at least zero. -/
theorem var_nonneg (a0 a1 a2 : IVec S1024 32) (a3 : FVec Ideal S50000x200 .f32) (a4 a5 : FVec Ideal S400x200 .f32)
    (a6 : FVec Ideal S200 .f32) (a7 : FVec Ideal S200x288 .f32) (a8 : FVec Ideal S288 .f32) (a9 : FVec Ideal S6144x200 .f32)
    (a10 : FVec Ideal S200 .f32) (a11 a12 a13 a14 : FVec Ideal S1 .f32) (a15 a16 a17 a18 : FVec Ideal S32 .f32)
    (a19 a20 a21 a22 : FVec Ideal S200 .f32) (a23 : FVec Ideal S50000 .f32)
    (h : fn (F := Ideal) a0 a1 a2 a3 a4 a5 a6 a7 a8 a9 a10 a11 a12 a13 a14 a15 a16 a17 a18 a19 a20 a21 a22 a23 = (fun _ => 1#1)) :
    (∀ i, (0 : EReal) ≤ a14 i) ∧ (∀ i, (0 : EReal) ≤ a18 i) ∧ (∀ i, (0 : EReal) ≤ a22 i) := by
  have h0 := congrFun h ix0
  dsimp only [fn, fn_part1, fn_part2, fn_part3, fn_part4, fn_part5, fn_part6] at h0
  obtain ⟨h1, e22⟩ := IntOp.andi_eq_one.mp h0
  obtain ⟨h2, e18⟩ := IntOp.andi_eq_one.mp h1
  obtain ⟨_, e14⟩ := IntOp.andi_eq_one.mp h2
  exact ⟨all_ge_zero a14 _ _ _ e14, all_ge_zero a18 _ _ _ e18, all_ge_zero a22 _ _ _ e22⟩

end Cert.PreFacts

end
-- ==== Proof.KernelRun.lean ====
/-
  The idealized kernel program's run with its RESULT named.

  @main is nine segments: the host operations before the first pallas_call, the first region (the dense path, eight
  blocks of 128 samples), five short host stretches (the zero paddings of the entity table and of the bias), the second
  region (the scores, 25 blocks of 2048 entities) and the final slice.  The buffer contents at each boundary are a fold
  from the launch memory (`W0 … W9`);  every weakly fair execution terminates with every unscoped buffer at the fold's
  last value `W9`.  The frame statement keeps of that only the argument arrays;  here the result array is kept too:
  it ends at `W9` read at the result's buffer.
-/
import proofs.«164159_j23862838297042_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result array at the fold's final
    contents and the argument arrays as launched. -/
theorem run : θ_run defs (onTc (τ := τ) (main (F := F))) ⟨m, fun _ => 0, ρ⟩ (fun r => ∀ c : Dev nD,
      r.2.mem ((c.tc : Thread nD τ).loc main_v31) = W9 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c)⟩)

end Cert.KernelRun

end
-- ==== Proof.HostPre.lean ====
/-
  What the first region finds in its input arrays: the host operations before it, read.

  Three arrays are rows gathered out of the entity and relation tables by the three index vectors (an index below zero
  is first moved up by the table's height, as array indexing does; the gather itself is left as it is printed: the
  reference performs the same one).  Three are re-laid parameters: the second layer's weights [200, 288] are read as
  [200, 32, 9] and transposed to tap-major [9, 200, 32], so entry (w, j, o) is column o·9 + w of row j;  its bias [288] is
  read as [32, 9] and transposed to [9, 32], entry (w, o) being entry o·9 + w;  the last layer's weights [6144, 200] are
  read as [32, 192, 200], entry (o, p, e) being row o·192 + p.  Every other input array is an argument untouched.
-/
import proofs.«164159_j23862838297042_1_alg».proof.Proof.Gen.KernelIdeal.Frame
import proofs.«164159_j23862838297042_1_alg».proof.Proof.Spec
import Idealize.ShloMosaic.Lib.StableHlo.Run
import Idealize.ShloMosaic.Lib.Pipeline.Value
import Idealize.ShloMosaic.Lib.ValueIdx

set_option maxRecDepth 16384

noncomputable section

namespace Cert.HostPre

open Cert.KernelIdeal Cert.KernelIdeal.Gen
open Idealize.ShloMosaic Idealize.ShloMosaic.TcCoe Idealize.ShloMosaic.ValueIdx Idealize.SL.Sem Idealize.ShloMosaic.StableHlo

/-- Rows of the entity table gathered by an index vector (negative indices moved up by 50000 first). -/
def gatherE (tbl : FVec Ideal S50000x200 .f32) (ix : IVec S1024 32) : FVec Ideal S1024x200 .f32 :=
  Host.gather gather_S50000x200_S1024x1_S1024x200_1_0_n_n_0_1_1200 tbl
    (broadcastInDim S1024x1 ![0] bcast_S1024_S1024x1_0
      (select (cmpi CmpIPredicate.slt ix (broadcastInDim S1024 ![] bcast_S_S1024 (constantI S_ 32 0#32)))
        (addi ix (broadcastInDim S1024 ![] bcast_S_S1024 (constantI S_ 32 50000#32))) ix))

/-- Rows of the relation table gathered by an index vector (negative indices moved up by 400 first). -/
def gatherR (tbl : FVec Ideal S400x200 .f32) (ix : IVec S1024 32) : FVec Ideal S1024x200 .f32 :=
  Host.gather gather_S400x200_S1024x1_S1024x200_1_0_n_n_0_1_1200 tbl
    (broadcastInDim S1024x1 ![0] bcast_S1024_S1024x1_0
      (select (cmpi CmpIPredicate.slt ix (broadcastInDim S1024 ![] bcast_S_S1024 (constantI S_ 32 0#32)))
        (addi ix (broadcastInDim S1024 ![] bcast_S_S1024 (constantI S_ 32 400#32))) ix))

variable (m : (ℓ : Loc nD τ sig) → Buf (Elt Ideal) ℓ) (ρ : Dev nD → PrngReg)

set_option maxHeartbeats 2000000 in
theorem V1_es (c : Dev nD) : Gen.V1 (F := Ideal) m ρ c main_v6
    = gatherE (m ((c : Thread nD τ).loc main_arg3)) (m ((c : Thread nD τ).loc main_arg0)) := by
  dsimp only [Gen.V1, Gen.W1, Gen.hostOps0]; after_results; rfl

set_option maxHeartbeats 2000000 in
theorem V1_ec (c : Dev nD) : Gen.V1 (F := Ideal) m ρ c main_v13
    = gatherE (m ((c : Thread nD τ).loc main_arg3)) (m ((c : Thread nD τ).loc main_arg2)) := by
  dsimp only [Gen.V1, Gen.W1, Gen.hostOps0]; after_results; rfl

set_option maxHeartbeats 2000000 in
theorem V1_rr (c : Dev nD) : Gen.V1 (F := Ideal) m ρ c main_v20
    = gatherR (m ((c : Thread nD τ).loc main_arg4)) (m ((c : Thread nD τ).loc main_arg1)) := by
  dsimp only [Gen.V1, Gen.W1, Gen.hostOps0]; after_results; rfl

set_option maxHeartbeats 2000000 in
/-- The second layer's weights, tap-major. -/
theorem V1_fc1t (c : Dev nD) (w : Fin 9) (j : Fin 200) (o : Fin 32) :
    (Gen.V1 (F := Ideal) m ρ c main_v22 : S9x200x32.Idx → EReal) (ix3 w j o)
    = (m ((c : Thread nD τ).loc main_arg7) : S200x288.Idx → EReal) (ix2 j (Cert.Spec.tapIdx o w)) := by
  have e : (Gen.V1 (F := Ideal) m ρ c main_v22 : S9x200x32.Idx → EReal)
      = transpose S9x200x32 [2, 0, 1]
          (shapeCast S200x32x9 (m ((c : Thread nD τ).loc main_arg7) : S200x288.Idx → EReal) shapeCasts_S200x288_S200x32x9)
          transposes_S200x32x9_S9x200x32_2_0_1 := by
    dsimp only [Gen.V1, Gen.W1, Gen.hostOps0]; after_results; rfl
  rw [e]
  refine (transpose_apply [2, 0, 1] _ transposes_S200x32x9_S9x200x32_2_0_1 (ix3 w j o) (ix3 j o w) (fun b => match b with
    | ⟨0, _⟩ => rfl
    | ⟨1, _⟩ => rfl
    | ⟨2, _⟩ => rfl)).trans ?_
  exact shapeCast_apply _ shapeCasts_S200x288_S200x32x9 (ix3 j o w) (ix2 j (Cert.Spec.tapIdx o w))
    (by rewrite [Shape.rowMajor_val_two, Shape.rowMajor_val_three]
        show j.val * 288 + (o.val * 9 + w.val) = (j.val * 32 + o.val) * 9 + w.val
        omega)

set_option maxHeartbeats 2000000 in
/-- The second layer's bias, tap-major. -/
theorem V1_fc1bt (c : Dev nD) (w : Fin 9) (o : Fin 32) :
    (Gen.V1 (F := Ideal) m ρ c main_v24 : S9x32.Idx → EReal) (ix2 w o)
    = (m ((c : Thread nD τ).loc main_arg8) : S288.Idx → EReal) (ix1 (Cert.Spec.tapIdx o w)) := by
  have e : (Gen.V1 (F := Ideal) m ρ c main_v24 : S9x32.Idx → EReal)
      = transpose S9x32 [1, 0]
          (shapeCast S32x9 (m ((c : Thread nD τ).loc main_arg8) : S288.Idx → EReal) shapeCasts_S288_S32x9)
          transposes_S32x9_S9x32_1_0 := by
    dsimp only [Gen.V1, Gen.W1, Gen.hostOps0]; after_results; rfl
  rw [e]
  refine (transpose_apply [1, 0] _ transposes_S32x9_S9x32_1_0 (ix2 w o) (ix2 o w) (fun b => match b with
    | ⟨0, _⟩ => rfl
    | ⟨1, _⟩ => rfl)).trans ?_
  exact shapeCast_apply _ shapeCasts_S288_S32x9 (ix2 o w) (ix1 (Cert.Spec.tapIdx o w))
    (by rewrite [Shape.rowMajor_val_one, Shape.rowMajor_val_two]
        show o.val * 9 + w.val = o.val * 9 + w.val
        rfl)

set_option maxHeartbeats 2000000 in
/-- The last layer's weights as (channel, position, feature). -/
theorem V1_fcw3 (c : Dev nD) (o : Fin 32) (p : Fin 192) (e' : Fin 200) :
    (Gen.V1 (F := Ideal) m ρ c main_v25 : S32x192x200.Idx → EReal) (ix3 o p e')
    = (m ((c : Thread nD τ).loc main_arg9) : S6144x200.Idx → EReal) (ix2 (Cert.Spec.flatIdx o p) e') := by
  have e : (Gen.V1 (F := Ideal) m ρ c main_v25 : S32x192x200.Idx → EReal)
      = shapeCast S32x192x200 (m ((c : Thread nD τ).loc main_arg9) : S6144x200.Idx → EReal) shapeCasts_S6144x200_S32x192x200 := by
    dsimp only [Gen.V1, Gen.W1, Gen.hostOps0]; after_results; rfl
  rw [e]
  exact shapeCast_apply _ shapeCasts_S6144x200_S32x192x200 (ix3 o p e') (ix2 (Cert.Spec.flatIdx o p) e')
    (by rewrite [Shape.rowMajor_val_two, Shape.rowMajor_val_three]
        show (o.val * 192 + p.val) * 200 + e'.val = (o.val * 192 + p.val) * 200 + e'.val
        rfl)

/-! An argument no host operation before the region writes is found as launched. -/

set_option maxHeartbeats 2000000 in
theorem V1_arg5 (c : Dev nD) : Gen.V1 (F := Ideal) m ρ c main_arg5 = m ((c : Thread nD τ).loc main_arg5) := by
  dsimp only [Gen.V1, Gen.W1, Gen.hostOps0]; after_results

set_option maxHeartbeats 2000000 in
theorem V1_arg6 (c : Dev nD) : Gen.V1 (F := Ideal) m ρ c main_arg6 = m ((c : Thread nD τ).loc main_arg6) := by
  dsimp only [Gen.V1, Gen.W1, Gen.hostOps0]; after_results

set_option maxHeartbeats 2000000 in
theorem V1_arg10 (c : Dev nD) : Gen.V1 (F := Ideal) m ρ c main_arg10 = m ((c : Thread nD τ).loc main_arg10) := by
  dsimp only [Gen.V1, Gen.W1, Gen.hostOps0]; after_results

set_option maxHeartbeats 2000000 in
theorem V1_arg11 (c : Dev nD) : Gen.V1 (F := Ideal) m ρ c main_arg11 = m ((c : Thread nD τ).loc main_arg11) := by
  dsimp only [Gen.V1, Gen.W1, Gen.hostOps0]; after_results

set_option maxHeartbeats 2000000 in
theorem V1_arg12 (c : Dev nD) : Gen.V1 (F := Ideal) m ρ c main_arg12 = m ((c : Thread nD τ).loc main_arg12) := by
  dsimp only [Gen.V1, Gen.W1, Gen.hostOps0]; after_results

set_option maxHeartbeats 2000000 in
theorem V1_arg13 (c : Dev nD) : Gen.V1 (F := Ideal) m ρ c main_arg13 = m ((c : Thread nD τ).loc main_arg13) := by
  dsimp only [Gen.V1, Gen.W1, Gen.hostOps0]; after_results

set_option maxHeartbeats 2000000 in
theorem V1_arg14 (c : Dev nD) : Gen.V1 (F := Ideal) m ρ c main_arg14 = m ((c : Thread nD τ).loc main_arg14) := by
  dsimp only [Gen.V1, Gen.W1, Gen.hostOps0]; after_results

set_option maxHeartbeats 2000000 in
theorem V1_arg15 (c : Dev nD) : Gen.V1 (F := Ideal) m ρ c main_arg15 = m ((c : Thread nD τ).loc main_arg15) := by
  dsimp only [Gen.V1, Gen.W1, Gen.hostOps0]; after_results

set_option maxHeartbeats 2000000 in
theorem V1_arg16 (c : Dev nD) : Gen.V1 (F := Ideal) m ρ c main_arg16 = m ((c : Thread nD τ).loc main_arg16) := by
  dsimp only [Gen.V1, Gen.W1, Gen.hostOps0]; after_results

set_option maxHeartbeats 2000000 in
theorem V1_arg17 (c : Dev nD) : Gen.V1 (F := Ideal) m ρ c main_arg17 = m ((c : Thread nD τ).loc main_arg17) := by
  dsimp only [Gen.V1, Gen.W1, Gen.hostOps0]; after_results

set_option maxHeartbeats 2000000 in
theorem V1_arg18 (c : Dev nD) : Gen.V1 (F := Ideal) m ρ c main_arg18 = m ((c : Thread nD τ).loc main_arg18) := by
  dsimp only [Gen.V1, Gen.W1, Gen.hostOps0]; after_results

set_option maxHeartbeats 2000000 in
theorem V1_arg19 (c : Dev nD) : Gen.V1 (F := Ideal) m ρ c main_arg19 = m ((c : Thread nD τ).loc main_arg19) := by
  dsimp only [Gen.V1, Gen.W1, Gen.hostOps0]; after_results

set_option maxHeartbeats 2000000 in
theorem V1_arg20 (c : Dev nD) : Gen.V1 (F := Ideal) m ρ c main_arg20 = m ((c : Thread nD τ).loc main_arg20) := by
  dsimp only [Gen.V1, Gen.W1, Gen.hostOps0]; after_results

set_option maxHeartbeats 2000000 in
theorem V1_arg21 (c : Dev nD) : Gen.V1 (F := Ideal) m ρ c main_arg21 = m ((c : Thread nD τ).loc main_arg21) := by
  dsimp only [Gen.V1, Gen.W1, Gen.hostOps0]; after_results

set_option maxHeartbeats 2000000 in
theorem V1_arg22 (c : Dev nD) : Gen.V1 (F := Ideal) m ρ c main_arg22 = m ((c : Thread nD τ).loc main_arg22) := by
  dsimp only [Gen.V1, Gen.W1, Gen.hostOps0]; after_results

end Cert.HostPre

end
-- ==== Proof.RefSide.lean ====
/-
  The reference program read at one entry.

  Its result at (sample b, entity n) is followed backwards through the host operations, one layer of the network at a
  time, each layer stated at explicit coordinates:  the two gathered entity rows laid side by side, the first linear
  layer and its one-channel normalisation;  the relation row through the second linear layer, regrouped as 32 filters
  of 9 taps;  the nine shifted windows of the normalised row stacked along a last axis, so that entry (p, w) is entry
  p + w of the row;  the filters slid over the row as a batched product over the nine taps;  the per-channel
  normalisation;  the channel-major flattening into the last linear layer, whose sum over 6144 inputs is regrouped as a
  sum over (channel, position);  the per-feature normalisation and positive part;  the inner product with an entity
  row plus that entity's bias;  and the logistic function spelt as 1 / (1 + exp (-s)).
  The three gathers are never opened:  the rows they deliver are carried as given.
-/
import proofs.«164159_j23862838297042_1_alg».proof.Proof.Gen.ReferenceIdeal.Read
import proofs.«164159_j23862838297042_1_alg».proof.Proof.Spec
import Idealize.ShloMosaic.Lib.IdealHost
import Idealize.ShloMosaic.Lib.Pipeline.Value
import Idealize.ShloMosaic.Lib.ValueIdx

noncomputable section

namespace Cert.RefSide

open Idealize.ShloMosaic Idealize.ShloMosaic.ValueIdx Cert.ReferenceIdeal Cert.ReferenceIdeal.Read

/-- Two index functions of rank one agree when their one coordinate does. -/
macro "idx1" : tactic => `(tactic| (funext a; match a with | ⟨0, _⟩ => rfl))
/-- Two index functions of rank two agree when both coordinates do. -/
macro "idx2" : tactic => `(tactic| (funext a; match a with | ⟨0, _⟩ => rfl | ⟨1, _⟩ => rfl))
/-- Two index functions of rank three agree when all three coordinates do. -/
macro "idx3" : tactic => `(tactic| (funext a; match a with | ⟨0, _⟩ => rfl | ⟨1, _⟩ => rfl | ⟨2, _⟩ => rfl))

variable (x0 x1 x2 : (⟨S1024, .i32⟩ : BufTy).Contents (Elt Ideal))
  (x3 : (⟨S50000x200, .f32⟩ : BufTy).Contents (Elt Ideal))
  (x4 x5 : (⟨S400x200, .f32⟩ : BufTy).Contents (Elt Ideal))
  (x6 : (⟨S200, .f32⟩ : BufTy).Contents (Elt Ideal))
  (x7 : (⟨S200x288, .f32⟩ : BufTy).Contents (Elt Ideal))
  (x8 : (⟨S288, .f32⟩ : BufTy).Contents (Elt Ideal))
  (x9 : (⟨S6144x200, .f32⟩ : BufTy).Contents (Elt Ideal))
  (x10 : (⟨S200, .f32⟩ : BufTy).Contents (Elt Ideal))
  (x11 x12 x13 x14 : (⟨S1, .f32⟩ : BufTy).Contents (Elt Ideal))
  (x15 x16 x17 x18 : (⟨S32, .f32⟩ : BufTy).Contents (Elt Ideal))
  (x19 x20 x21 x22 : (⟨S200, .f32⟩ : BufTy).Contents (Elt Ideal))
  (x23 : (⟨S50000, .f32⟩ : BufTy).Contents (Elt Ideal))

/-! ## The first linear layer and its normalisation -/

/-- The side-by-side concatenation of the two gathered entity arrays, at (b, k): the first array's row below 200, the
    second's from 200 on. -/
theorem cat_at (b : Fin 1024) (k : Fin 400) :
    val_main_v21 (F := Ideal) x0 x2 x3 (ix2 b k)
      = Cert.Spec.cat (fun j => val_main_v6 (F := Ideal) x0 x3 (ix2 b j))
          (fun j => val_main_v13 (F := Ideal) x2 x3 (ix2 b j)) k := by
  unfold val_main_v21 Cert.Spec.cat
  generalize val_main_v6 (F := Ideal) x0 x3 = A
  generalize val_main_v13 (F := Ideal) x2 x3 = B
  by_cases h : k.val < 200
  · rw [dif_pos h]
    exact concatenate_pair_apply_left 1 A B _ (ix2 b k) rfl (ix2 b ⟨k.val, h⟩)
      (fun c => match c with | ⟨0, _⟩ => rfl | ⟨1, _⟩ => rfl)
  · rw [dif_neg h]
    exact concatenate_pair_apply_right 1 A B _ (ix2 b k) rfl rfl (ix2 b ⟨k.val - 200, by omega⟩)
      (fun c hc => match c, hc with | ⟨0, _⟩, _ => rfl | ⟨1, _⟩, hc => absurd rfl hc)
      (by show (k.val - 200) + 200 = k.val; omega)

/-- The first product at (b, e): the concatenated row against column e of the weights. -/
theorem v22_at (b : Fin 1024) (e : Fin 200) :
    val_main_v22 (F := Ideal) x0 x2 x3 x5 (ix2 b e)
      = ∑ k : Fin 400, Cert.Spec.cat (fun j => val_main_v6 (F := Ideal) x0 x3 (ix2 b j))
          (fun j => val_main_v13 (F := Ideal) x2 x3 (ix2 b j)) k * x5 (ix2 k e) := by
  rw [val_main_v22_apply]
  refine Finset.sum_congr rfl fun k _ => ?_
  have hl : lidx_main_v22 (ix2 b e) k = ix2 b k := by idx2
  have hr : ridx_main_v22 (ix2 b e) k = ix2 k e := by idx2
  rw [hl, hr, cat_at]

/-- A bias vector broadcast down the rows reads its own entry. -/
theorem v24_at (b : Fin 1024) (e : Fin 200) : val_main_v24 (F := Ideal) x6 (ix2 b e) = x6 (ix1 e) := by
  rw [val_main_v24_apply, val_main_v23_apply]; refine congrArg x6 ?_; idx1

/-- The one-channel mean, broadcast everywhere. -/
theorem v27_at (b : Fin 1024) (e : Fin 200) : val_main_v27 (F := Ideal) x13 (ix2 b e) = x13 (ix1 0) := by
  rw [val_main_v27_apply, val_main_v26_apply]; refine congrArg x13 ?_; idx1

/-- The one-channel scale, broadcast everywhere: the gain over the square root of the shifted variance. -/
theorem v34_at (b : Fin 1024) (e : Fin 200) :
    val_main_v34 (F := Ideal) x11 x14 (ix2 b e) = Cert.Spec.scaleR (x11 (ix1 0)) (x14 (ix1 0)) := by
  rw [val_main_v34_apply, val_main_v33_apply, val_main_v32_apply, val_main_v31_apply, val_main_v30_apply,
    val_main_v29_apply, val_main_cst_apply]
  have hi : idx_main_v33 (idx_main_v34 (ix2 b e)) = ix1 0 := by idx1
  rw [hi]; rfl

/-- The one-channel shift, broadcast everywhere. -/
theorem v37_at (b : Fin 1024) (e : Fin 200) : val_main_v37 (F := Ideal) x12 (ix2 b e) = x12 (ix1 0) := by
  rw [val_main_v37_apply, val_main_v36_apply]; refine congrArg x12 ?_; idx1

/-- The normalised first layer at (b, e). -/
theorem x_at (b : Fin 1024) (e : Fin 200) :
    val_main_v38 (F := Ideal) x0 x2 x3 x5 x6 x11 x12 x13 x14 (ix2 b e)
      = Cert.Spec.x (fun j => val_main_v6 (F := Ideal) x0 x3 (ix2 b j))
          (fun j => val_main_v13 (F := Ideal) x2 x3 (ix2 b j))
          (fun k e => x5 (ix2 k e)) (fun e => x6 (ix1 e))
          (x13 (ix1 0)) (Cert.Spec.scaleR (x11 (ix1 0)) (x14 (ix1 0))) (x12 (ix1 0)) e := by
  rw [val_main_v38_apply, val_main_v35_apply, val_main_v28_apply, val_main_v25_apply, v22_at, v24_at, v27_at,
    v34_at, v37_at]
  rfl

/-! ## The second linear layer, regrouped as filters of taps -/

/-- The second product at (b, c). -/
theorem v39_at (b : Fin 1024) (c : Fin 288) :
    val_main_v39 (F := Ideal) x1 x4 x7 (ix2 b c)
      = ∑ j : Fin 200, val_main_v20 (F := Ideal) x1 x4 (ix2 b j) * x7 (ix2 j c) := by
  rw [val_main_v39_apply]
  refine Finset.sum_congr rfl fun k _ => ?_
  have hl : lidx_main_v39 (ix2 b c) k = ix2 b k := by idx2
  have hr : ridx_main_v39 (ix2 b c) k = ix2 k c := by idx2
  rw [hl, hr]

/-- Its bias, broadcast down the rows. -/
theorem v41_at (b : Fin 1024) (c : Fin 288) : val_main_v41 (F := Ideal) x8 (ix2 b c) = x8 (ix1 c) := by
  rw [val_main_v41_apply, val_main_v40_apply]; refine congrArg x8 ?_; idx1

/-- Row-major regrouping of 288 columns as 32 x 9: entry (o, w) is column o * 9 + w. -/
theorem idx43 (b : Fin 1024) (o : Fin 32) (w : Fin 9) :
    idx_main_v43 (ix3 b o w) = ix2 b (Cert.Spec.tapIdx o w) := by
  funext a
  match a with
  | ⟨0, _⟩ =>
    exact Fin.ext (by
      show ((b.val * 32 + o.val) * 9 + w.val) / 288 = b.val
      have := o.isLt; have := w.isLt; omega)
  | ⟨1, _⟩ =>
    exact Fin.ext (by
      show ((b.val * 32 + o.val) * 9 + w.val) % 288 = o.val * 9 + w.val
      have := o.isLt; have := w.isLt; omega)

/-- Tap w of filter o for sample b. -/
theorem kk_at (b : Fin 1024) (o : Fin 32) (w : Fin 9) :
    val_main_v43 (F := Ideal) x1 x4 x7 x8 (ix3 b o w)
      = Cert.Spec.kk (fun j => val_main_v20 (F := Ideal) x1 x4 (ix2 b j))
          (fun w j o => x7 (ix2 j (Cert.Spec.tapIdx o w))) (fun w o => x8 (ix1 (Cert.Spec.tapIdx o w))) o w := by
  rw [val_main_v43_apply, idx43, val_main_v42_apply, v39_at, v41_at]
  rfl

/-! ## The nine shifted windows -/

/-- The nine windows of the normalised row, as one family: window w starts at entry w. -/
def win : Fin 9 → (⟨S1024x192x1, .f32⟩ : BufTy).Contents (Elt Ideal) := fun n => match n with
  | ⟨0, _⟩ => val_main_v53 (F := Ideal) x0 x2 x3 x5 x6 x11 x12 x13 x14
  | ⟨1, _⟩ => val_main_v54 (F := Ideal) x0 x2 x3 x5 x6 x11 x12 x13 x14
  | ⟨2, _⟩ => val_main_v55 (F := Ideal) x0 x2 x3 x5 x6 x11 x12 x13 x14
  | ⟨3, _⟩ => val_main_v56 (F := Ideal) x0 x2 x3 x5 x6 x11 x12 x13 x14
  | ⟨4, _⟩ => val_main_v57 (F := Ideal) x0 x2 x3 x5 x6 x11 x12 x13 x14
  | ⟨5, _⟩ => val_main_v58 (F := Ideal) x0 x2 x3 x5 x6 x11 x12 x13 x14
  | ⟨6, _⟩ => val_main_v59 (F := Ideal) x0 x2 x3 x5 x6 x11 x12 x13 x14
  | ⟨7, _⟩ => val_main_v60 (F := Ideal) x0 x2 x3 x5 x6 x11 x12 x13 x14
  | ⟨8, _⟩ => val_main_v61 (F := Ideal) x0 x2 x3 x5 x6 x11 x12 x13 x14

/-- The stacked windows are the concatenation of that family along the last axis. -/
theorem v62_eq :
    val_main_v62 (F := Ideal) x0 x2 x3 x5 x6 x11 x12 x13 x14
      = concatenate S1024x192x9 2
          (List.ofFn fun n : Fin 9 => (⟨S1024x192x1, win x0 x2 x3 x5 x6 x11 x12 x13 x14 n⟩ : (s : Shape) × (s.Idx → Elt Ideal .f32)))
          Cert.ReferenceIdeal.Gen.concatenates_S1024x192x1_S1024x192x1_S1024x192x1_S1024x192x1_S1024x192x1_S1024x192x1_S1024x192x1_S1024x192x1_S1024x192x1_S1024x192x9_d2 := rfl

/-- Entry (p, w) of the stacked windows is entry p + w of the normalised row. -/
theorem win_at (b : Fin 1024) (p : Fin 192) (w : Fin 9) :
    val_main_v62 (F := Ideal) x0 x2 x3 x5 x6 x11 x12 x13 x14 (ix3 b p w)
      = val_main_v38 (F := Ideal) x0 x2 x3 x5 x6 x11 x12 x13 x14 (ix2 b (Cert.Spec.shift p w)) := by
  rw [v62_eq]
  refine (concatenate_ofFn_unit_apply (t := S1024x192x9) (s₁ := S1024x192x1) 2 (win x0 x2 x3 x5 x6 x11 x12 x13 x14) _ rfl rfl (ix3 b p w) w rfl (ix3 b p (0 : Fin 1))
    (fun c hc => match c, hc with | ⟨0, _⟩, _ => rfl | ⟨1, _⟩, _ => rfl | ⟨2, _⟩, hc => absurd rfl hc)).trans ?_
  match w with
  | ⟨0, _⟩ =>
    show val_main_v53 (F := Ideal) x0 x2 x3 x5 x6 x11 x12 x13 x14 (ix3 b p (0 : Fin 1)) = _
    rw [val_main_v53_apply, val_main_v44_apply]
    refine congrArg _ ?_
    funext a
    match a with
    | ⟨0, _⟩ => rfl
    | ⟨1, _⟩ => exact Fin.ext (by show p.val = p.val + 0; omega)
  | ⟨1, _⟩ =>
    show val_main_v54 (F := Ideal) x0 x2 x3 x5 x6 x11 x12 x13 x14 (ix3 b p (0 : Fin 1)) = _
    rw [val_main_v54_apply, val_main_v45_apply]
    refine congrArg _ ?_
    funext a
    match a with
    | ⟨0, _⟩ => rfl
    | ⟨1, _⟩ => exact Fin.ext (by show 1 + p.val = p.val + 1; omega)
  | ⟨2, _⟩ =>
    show val_main_v55 (F := Ideal) x0 x2 x3 x5 x6 x11 x12 x13 x14 (ix3 b p (0 : Fin 1)) = _
    rw [val_main_v55_apply, val_main_v46_apply]
    refine congrArg _ ?_
    funext a
    match a with
    | ⟨0, _⟩ => rfl
    | ⟨1, _⟩ => exact Fin.ext (by show 2 + p.val = p.val + 2; omega)
  | ⟨3, _⟩ =>
    show val_main_v56 (F := Ideal) x0 x2 x3 x5 x6 x11 x12 x13 x14 (ix3 b p (0 : Fin 1)) = _
    rw [val_main_v56_apply, val_main_v47_apply]
    refine congrArg _ ?_
    funext a
    match a with
    | ⟨0, _⟩ => rfl
    | ⟨1, _⟩ => exact Fin.ext (by show 3 + p.val = p.val + 3; omega)
  | ⟨4, _⟩ =>
    show val_main_v57 (F := Ideal) x0 x2 x3 x5 x6 x11 x12 x13 x14 (ix3 b p (0 : Fin 1)) = _
    rw [val_main_v57_apply, val_main_v48_apply]
    refine congrArg _ ?_
    funext a
    match a with
    | ⟨0, _⟩ => rfl
    | ⟨1, _⟩ => exact Fin.ext (by show 4 + p.val = p.val + 4; omega)
  | ⟨5, _⟩ =>
    show val_main_v58 (F := Ideal) x0 x2 x3 x5 x6 x11 x12 x13 x14 (ix3 b p (0 : Fin 1)) = _
    rw [val_main_v58_apply, val_main_v49_apply]
    refine congrArg _ ?_
    funext a
    match a with
    | ⟨0, _⟩ => rfl
    | ⟨1, _⟩ => exact Fin.ext (by show 5 + p.val = p.val + 5; omega)
  | ⟨6, _⟩ =>
    show val_main_v59 (F := Ideal) x0 x2 x3 x5 x6 x11 x12 x13 x14 (ix3 b p (0 : Fin 1)) = _
    rw [val_main_v59_apply, val_main_v50_apply]
    refine congrArg _ ?_
    funext a
    match a with
    | ⟨0, _⟩ => rfl
    | ⟨1, _⟩ => exact Fin.ext (by show 6 + p.val = p.val + 6; omega)
  | ⟨7, _⟩ =>
    show val_main_v60 (F := Ideal) x0 x2 x3 x5 x6 x11 x12 x13 x14 (ix3 b p (0 : Fin 1)) = _
    rw [val_main_v60_apply, val_main_v51_apply]
    refine congrArg _ ?_
    funext a
    match a with
    | ⟨0, _⟩ => rfl
    | ⟨1, _⟩ => exact Fin.ext (by show 7 + p.val = p.val + 7; omega)
  | ⟨8, _⟩ =>
    show val_main_v61 (F := Ideal) x0 x2 x3 x5 x6 x11 x12 x13 x14 (ix3 b p (0 : Fin 1)) = _
    rw [val_main_v61_apply, val_main_v52_apply]
    refine congrArg _ ?_
    funext a
    match a with
    | ⟨0, _⟩ => rfl
    | ⟨1, _⟩ => exact Fin.ext (by show 8 + p.val = p.val + 8; omega)

/-! ## The filters slid over the row, and the per-channel normalisation -/

/-- The batched product over the nine taps at (b, o, p). -/
theorem conv_at (b : Fin 1024) (o : Fin 32) (p : Fin 192) :
    val_main_v63 (F := Ideal) x0 x1 x2 x3 x4 x5 x6 x7 x8 x11 x12 x13 x14 (ix3 b o p)
      = ∑ w : Fin 9, val_main_v43 (F := Ideal) x1 x4 x7 x8 (ix3 b o w)
          * val_main_v62 (F := Ideal) x0 x2 x3 x5 x6 x11 x12 x13 x14 (ix3 b p w) := by
  rw [val_main_v63_apply]
  refine Finset.sum_congr rfl fun k _ => ?_
  have hl : lidx_main_v63 (ix3 b o p) k = ix3 b o k := by idx3
  have hr : ridx_main_v63 (ix3 b o p) k = ix3 b p k := by idx3
  rw [hl, hr]

/-- A per-channel vector broadcast over samples and positions reads the channel's entry. -/
theorem v66_at (b : Fin 1024) (o : Fin 32) (p : Fin 192) :
    val_main_v66 (F := Ideal) x17 (ix3 b o p) = x17 (ix1 o) := by
  rw [val_main_v66_apply, val_main_v65_apply, val_main_v64_apply]; refine congrArg x17 ?_; idx1

/-- The per-channel scale, broadcast over samples and positions. -/
theorem v74_at (b : Fin 1024) (o : Fin 32) (p : Fin 192) :
    val_main_v74 (F := Ideal) x15 x18 (ix3 b o p) = Cert.Spec.scaleR (x15 (ix1 o)) (x18 (ix1 o)) := by
  rw [val_main_v74_apply, val_main_v73_apply, val_main_v72_apply, val_main_v71_apply, val_main_v70_apply,
    val_main_v69_apply, val_main_v68_apply, val_main_cst_5_apply]
  have hi : idx_main_v72 (idx_main_v73 (idx_main_v74 (ix3 b o p))) = ix1 o := by idx1
  rw [hi]; rfl

/-- The per-channel shift, broadcast over samples and positions. -/
theorem v78_at (b : Fin 1024) (o : Fin 32) (p : Fin 192) :
    val_main_v78 (F := Ideal) x16 (ix3 b o p) = x16 (ix1 o) := by
  rw [val_main_v78_apply, val_main_v77_apply, val_main_v76_apply]; refine congrArg x16 ?_; idx1

/-- The normalised filter output at (b, o, p). -/
theorem cbn_at (b : Fin 1024) (o : Fin 32) (p : Fin 192) :
    val_main_v79 (F := Ideal) x0 x1 x2 x3 x4 x5 x6 x7 x8 x11 x12 x13 x14 x15 x16 x17 x18 (ix3 b o p)
      = (val_main_v63 (F := Ideal) x0 x1 x2 x3 x4 x5 x6 x7 x8 x11 x12 x13 x14 (ix3 b o p) - x17 (ix1 o))
          * Cert.Spec.scaleR (x15 (ix1 o)) (x18 (ix1 o)) + x16 (ix1 o) := by
  rw [val_main_v79_apply, val_main_v75_apply, val_main_v67_apply, v66_at, v74_at, v78_at]
  rfl

/-! ## The channel-major flattening and the last linear layer -/

/-- A sum over the 6144 flattened inputs is the sum over channels of the sum over positions. -/
theorem sum_flat {M : Type*} [AddCommMonoid M] (f : Fin 6144 → M) :
    ∑ k, f k = ∑ o : Fin 32, ∑ p : Fin 192, f (Cert.Spec.flatIdx o p) := by
  rw [← Equiv.sum_comp (finProdFinEquiv : Fin 32 × Fin 192 ≃ Fin 6144) f, Fintype.sum_prod_type]
  refine Finset.sum_congr rfl fun o _ => Finset.sum_congr rfl fun p _ => ?_
  refine congrArg f (Fin.ext ?_)
  show p.val + 192 * o.val = o.val * 192 + p.val
  omega

/-- Row-major flattening of 32 x 192 into 6144: input o * 192 + p is entry (o, p). -/
theorem idx80 (b : Fin 1024) (o : Fin 32) (p : Fin 192) :
    idx_main_v80 (ix2 b (Cert.Spec.flatIdx o p)) = ix3 b o p := by
  funext a
  match a with
  | ⟨0, _⟩ =>
    exact Fin.ext (by
      show (b.val * 6144 + (o.val * 192 + p.val)) / 6144 = b.val
      have := o.isLt; have := p.isLt; omega)
  | ⟨1, _⟩ =>
    exact Fin.ext (by
      show (b.val * 6144 + (o.val * 192 + p.val)) / 192 % 32 = o.val
      have := o.isLt; have := p.isLt; omega)
  | ⟨2, _⟩ =>
    exact Fin.ext (by
      show (b.val * 6144 + (o.val * 192 + p.val)) % 192 = p.val
      have := o.isLt; have := p.isLt; omega)

/-- The last product at (b, e), its sum regrouped by channel and position. -/
theorem v81_at (b : Fin 1024) (e : Fin 200) :
    val_main_v81 (F := Ideal) x0 x1 x2 x3 x4 x5 x6 x7 x8 x9 x11 x12 x13 x14 x15 x16 x17 x18 (ix2 b e)
      = ∑ o : Fin 32, ∑ p : Fin 192, val_main_v79 (F := Ideal) x0 x1 x2 x3 x4 x5 x6 x7 x8 x11 x12 x13 x14 x15 x16 x17 x18 (ix3 b o p)
          * x9 (ix2 (Cert.Spec.flatIdx o p) e) := by
  rw [val_main_v81_apply]
  refine (sum_flat _).trans (Finset.sum_congr rfl fun o _ => Finset.sum_congr rfl fun p _ => ?_)
  show val_main_v80 (F := Ideal) x0 x1 x2 x3 x4 x5 x6 x7 x8 x11 x12 x13 x14 x15 x16 x17 x18 (lidx_main_v81 (ix2 b e) (Cert.Spec.flatIdx o p))
      * x9 (ridx_main_v81 (ix2 b e) (Cert.Spec.flatIdx o p)) = _
  have hl : lidx_main_v81 (ix2 b e) (Cert.Spec.flatIdx o p) = ix2 b (Cert.Spec.flatIdx o p) := by idx2
  have hr : ridx_main_v81 (ix2 b e) (Cert.Spec.flatIdx o p) = ix2 (Cert.Spec.flatIdx o p) e := by idx2
  rw [hl, hr, val_main_v80_apply, idx80]

/-- Its bias, broadcast down the rows. -/
theorem v83_at (b : Fin 1024) (e : Fin 200) : val_main_v83 (F := Ideal) x10 (ix2 b e) = x10 (ix1 e) := by
  rw [val_main_v83_apply, val_main_v82_apply]; refine congrArg x10 ?_; idx1

/-- The last linear layer at (b, e). -/
theorem hh_at (b : Fin 1024) (e : Fin 200) :
    val_main_v84 (F := Ideal) x0 x1 x2 x3 x4 x5 x6 x7 x8 x9 x10 x11 x12 x13 x14 x15 x16 x17 x18 (ix2 b e)
      = (∑ o : Fin 32, ∑ p : Fin 192, val_main_v79 (F := Ideal) x0 x1 x2 x3 x4 x5 x6 x7 x8 x11 x12 x13 x14 x15 x16 x17 x18 (ix3 b o p)
          * x9 (ix2 (Cert.Spec.flatIdx o p) e)) + x10 (ix1 e) := by
  rw [val_main_v84_apply, v81_at, v83_at]
  rfl

/-! ## The per-feature normalisation and the positive part -/

/-- The per-feature mean, broadcast down the rows. -/
theorem v86_at (b : Fin 1024) (e : Fin 200) : val_main_v86 (F := Ideal) x21 (ix2 b e) = x21 (ix1 e) := by
  rw [val_main_v86_apply, val_main_v85_apply]; refine congrArg x21 ?_; idx1

/-- The per-feature scale, broadcast down the rows. -/
theorem v93_at (b : Fin 1024) (e : Fin 200) :
    val_main_v93 (F := Ideal) x19 x22 (ix2 b e) = Cert.Spec.scaleR (x19 (ix1 e)) (x22 (ix1 e)) := by
  rw [val_main_v93_apply, val_main_v92_apply, val_main_v91_apply, val_main_v90_apply, val_main_v89_apply,
    val_main_v88_apply, val_main_cst_6_apply]
  have hi : idx_main_v92 (idx_main_v93 (ix2 b e)) = ix1 e := by idx1
  rw [hi]; rfl

/-- The per-feature shift, broadcast down the rows. -/
theorem v96_at (b : Fin 1024) (e : Fin 200) : val_main_v96 (F := Ideal) x20 (ix2 b e) = x20 (ix1 e) := by
  rw [val_main_v96_apply, val_main_v95_apply]; refine congrArg x20 ?_; idx1

/-- The broadcast zero the positive part compares against. -/
theorem zero_at (b : Fin 1024) (e : Fin 200) : val_main_call0_v0 (F := Ideal) (ix2 b e) = (0 : EReal) := by
  rw [val_main_call0_v0_apply, val_main_call0_cst_apply]
  exact Ideal.ofBits_zero_f32

/-- The hidden row at (b, e). -/
theorem h_at (b : Fin 1024) (e : Fin 200) :
    val_main_v98 (F := Ideal) x0 x1 x2 x3 x4 x5 x6 x7 x8 x9 x10 x11 x12 x13 x14 x15 x16 x17 x18 x19 x20 x21 x22 (ix2 b e)
      = max ((val_main_v84 (F := Ideal) x0 x1 x2 x3 x4 x5 x6 x7 x8 x9 x10 x11 x12 x13 x14 x15 x16 x17 x18 (ix2 b e) - x21 (ix1 e))
          * Cert.Spec.scaleR (x19 (ix1 e)) (x22 (ix1 e)) + x20 (ix1 e)) 0 := by
  rw [val_main_v98_apply, val_main_v97_apply, val_main_v94_apply, val_main_v87_apply, v86_at, v93_at, v96_at,
    zero_at]
  rfl

/-! ## The scores and the logistic function -/

/-- The hidden rows against the transposed entity table at (b, n): row b against entity row n. -/
theorem v100_at (b : Fin 1024) (n : Fin 50000) :
    val_main_v100 (F := Ideal) x0 x1 x2 x3 x4 x5 x6 x7 x8 x9 x10 x11 x12 x13 x14 x15 x16 x17 x18 x19 x20 x21 x22 (ix2 b n)
      = ∑ e : Fin 200, val_main_v98 (F := Ideal) x0 x1 x2 x3 x4 x5 x6 x7 x8 x9 x10 x11 x12 x13 x14 x15 x16 x17 x18 x19 x20 x21 x22 (ix2 b e) * x3 (ix2 n e) := by
  rw [val_main_v100_apply]
  refine Finset.sum_congr rfl fun k _ => ?_
  have hl : lidx_main_v100 (ix2 b n) k = ix2 b k := by idx2
  have hr : idx_main_v99 (ridx_main_v100 (ix2 b n) k) = ix2 n k := by idx2
  rw [hl, val_main_v99_apply, hr]

/-- The entity bias, broadcast down the rows. -/
theorem v102_at (b : Fin 1024) (n : Fin 50000) : val_main_v102 (F := Ideal) x23 (ix2 b n) = x23 (ix1 n) := by
  rw [val_main_v102_apply, val_main_v101_apply]; refine congrArg x23 ?_; idx1

/-- The result at (b, n): one over one plus the exponential of minus the score is the logistic function of it. -/
theorem out_at (b : Fin 1024) (n : Fin 50000) :
    val_main_v109 (F := Ideal) x0 x1 x2 x3 x4 x5 x6 x7 x8 x9 x10 x11 x12 x13 x14 x15 x16 x17 x18 x19 x20 x21 x22 x23 (ix2 b n)
      = Ideal.logistic ((∑ e : Fin 200, val_main_v98 (F := Ideal) x0 x1 x2 x3 x4 x5 x6 x7 x8 x9 x10 x11 x12 x13 x14 x15 x16 x17 x18 x19 x20 x21 x22 (ix2 b e) * x3 (ix2 n e))
          + x23 (ix1 n)) := by
  rw [val_main_v109_apply, val_main_v108_apply, val_main_cst_8_apply, val_main_v107_apply, val_main_v106_apply,
    val_main_cst_7_apply, val_main_v105_apply, val_main_v104_apply, val_main_v103_apply, v100_at, v102_at]
  simp only [Ideal.hostDivf_def, Ideal.ofBits_def, Ideal.ofBits_one_f32, Ideal.addf_def, Ideal.hostUnary_exp_def,
    Ideal.hostNegf_def, Ideal.negf_def, Ideal.logistic]

/-! ## The reference's result is the specified score -/

/-- The reference program's result at (b, n) is the specification's score of sample b against entity n, the gathered rows
    taken as given and each normalisation's scale spelt as a quotient by the square root. -/
theorem ref_apply (b : Fin 1024) (n : Fin 50000) :
    val_main_v109 (F := Ideal) x0 x1 x2 x3 x4 x5 x6 x7 x8 x9 x10 x11 x12 x13 x14 x15 x16 x17 x18 x19 x20 x21 x22 x23 (ix2 b n)
      = Cert.Spec.out
          (Cert.Spec.h (fun j => val_main_v6 (F := Ideal) x0 x3 (ix2 b j)) (fun j => val_main_v13 (F := Ideal) x2 x3 (ix2 b j))
             (fun j => val_main_v20 (F := Ideal) x1 x4 (ix2 b j))
             (fun k e => x5 (ix2 k e)) (fun e => x6 (ix1 e))
             (fun w j o => x7 (ix2 j (Cert.Spec.tapIdx o w))) (fun w o => x8 (ix1 (Cert.Spec.tapIdx o w)))
             (fun o p e => x9 (ix2 (Cert.Spec.flatIdx o p) e)) (fun e => x10 (ix1 e))
             (x13 (ix1 0)) (Cert.Spec.scaleR (x11 (ix1 0)) (x14 (ix1 0))) (x12 (ix1 0))
             (fun o => x17 (ix1 o)) (fun o => Cert.Spec.scaleR (x15 (ix1 o)) (x18 (ix1 o))) (fun o => x16 (ix1 o))
             (fun e => x21 (ix1 e)) (fun e => Cert.Spec.scaleR (x19 (ix1 e)) (x22 (ix1 e))) (fun e => x20 (ix1 e)))
          (fun e => x3 (ix2 n e)) (x23 (ix1 n)) := by
  simp only [Cert.Spec.out, Cert.Spec.h, Cert.Spec.hh, Cert.Spec.cbn, Cert.Spec.conv, out_at, h_at, hh_at, cbn_at,
    conv_at, win_at, x_at, kk_at]

end Cert.RefSide

end
-- ==== Proof.LibDotForms.lean ====
/-
  A product with ONE contracted axis, read at an output index, as a sum over that axis's coordinate — for ANY
  arrangement of the operands' axes.

  The contraction's index type is a shape of rank one; re-indexing it by the coordinate `k : Fin K` turns the
  contraction sum into `∑ k, lhs (L k) * rhs (R k)`, where `L k` and `R k` are the two operand indices the product
  pairs at `k`. Which indices those are depends on the arrangement (rows times columns, rows times rows of a
  transposed right factor, columns of a transposed left factor times columns): the caller states them, each
  coordinate by computation.
-/
import Idealize.ShloMosaic.PureOps.Ideal.Laws
import Idealize.ShloMosaic.Lib.ValueIdx

noncomputable section

namespace Idealize.ShloMosaic.DotForms

open Idealize.ShloMosaic Idealize.ShloMosaic.ValueIdx

variable {sl sr so : Shape} {φ₁ φ₂ : FTy}

/-- The contraction sum at output index `j`, re-indexed by the one contracted coordinate: the operand entries at the
    indices `L k`, `R k` the product pairs there. -/
theorem contr_sum (d : DotDims sl sr so) (K : Nat) (hr : d.contr.rank = 1) (hs : d.contr.size ⟨0, by omega⟩ = K)
    (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k)
    (lhs : FVec Ideal sl φ₁) (rhs : FVec Ideal sr φ₂) :
    (∑ q : d.contr.Idx, lhs (d.lhsIdx j q) * rhs (d.rhsIdx j q)) = ∑ k : Fin K, lhs (L k) * rhs (R k) := by
  rw [← Equiv.sum_comp (contrEquiv1 d K hr hs).symm]
  refine Finset.sum_congr rfl fun k _ => ?_
  have hk := contrEquiv1_symm_val d K hr hs k
  rw [hL _ k hk, hR _ k hk]

/-- A matrix-unit product into the zero accumulator, at an output index, is that sum. -/
theorem matmul_zero_apply (d : DotDims sl sr so) (prec : Option ContractPrecision) (K : Nat)
    (hr : d.contr.rank = 1) (hs : d.contr.size ⟨0, by omega⟩ = K)
    (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k)
    (lhs : FVec Ideal sl φ₁) (rhs : FVec Ideal sr φ₂) :
    FloatOps.matmul d prec lhs rhs (constant (F := Ideal) so .f32 0x00000000#32) j = ∑ k : Fin K, lhs (L k) * rhs (R k) :=
  (Ideal.matmul_constant_zero_apply d prec lhs rhs j).trans (contr_sum d K hr hs j L R hL hR lhs rhs)

/-- The host's product at an output index is the same sum. -/
theorem dotGeneral_apply (d : DotDims sl sr so) (prec : Option ContractPrecision) (sched : HostSchedule) (K : Nat)
    (hr : d.contr.rank = 1) (hs : d.contr.size ⟨0, by omega⟩ = K)
    (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k)
    (lhs : FVec Ideal sl φ₁) (rhs : FVec Ideal sr φ₂) :
    FloatOps.dotGeneral d prec sched lhs rhs j = ∑ k : Fin K, lhs (L k) * rhs (R k) :=
  (Ideal.dotGeneral_apply d prec sched lhs rhs j).trans (contr_sum d K hr hs j L R hL hR lhs rhs)

end Idealize.ShloMosaic.DotForms

end
-- ==== Proof.ScoreSide.lean ====
/-
  The score side: one entry of the program's result array is the specification's score.

  The second region computes, block by block, the array
      G (b, n') = logistic ( (∑ e, H (b, e) * E (n', e)) + B (0, n') ),      b < 1024, n' < 51200,
  where H is the hidden array as the first region left it, E the entity table with 1200 rows of padding below and B the
  bias with 1200 entries of padding behind, laid out as one row.  Point t of the 25 grid points reads all of H, rows
  2048 t .. 2048 t + 2047 of E and columns 2048 t .. 2048 t + 2047 of B, and writes back columns 2048 t .. 2048 t + 2047 of
  G;  column n' is covered by point n' / 2048, so the 25 blocks fill the array.  The result keeps columns below 50000
  only, and there row n' of E is row n' of the entity table and entry n' of B is entry n' of the bias, both as launched:
  no padding value is ever read.  The float casts on the way into the product are the identity on the extended reals.
-/
import proofs.«164159_j23862838297042_1_alg».proof.Proof.Gen.KernelIdeal.Frame
import proofs.«164159_j23862838297042_1_alg».proof.Proof.Spec
import proofs.«164159_j23862838297042_1_alg».proof.Proof.LibDotForms
import Idealize.ShloMosaic.Lib.Pipeline.Value
import Idealize.ShloMosaic.Lib.KernelVsHost
import Idealize.ShloMosaic.Lib.ValueLayout
import Idealize.ShloMosaic.Lib.Tactic

noncomputable section

namespace Cert.ScoreSide

open Idealize.ShloMosaic Idealize.ShloMosaic.ValueIdx Idealize.ShloMosaic.TcCoe Idealize.SL.Sem
open Cert.KernelIdeal Cert.KernelIdeal.Gen
open Idealize.ShloMosaic.Pipeline (Dat)

/-! ## One block's arithmetic at an entry -/

/-- The body's stored value at entry (b, q) of a block: the logistic function of row `b` of the first operand against row
    `q` of the second (the product pairs the two operands' second axes), plus entry `q` of the one-row third operand. -/
theorem pay_apply (v0 : Vec Ideal S1024x200 .f32) (v3 : Vec Ideal S2048x200 .f32) (v7 : Vec Ideal S1x2048 .f32)
    (b : Fin 1024) (q : Fin 2048) :
    k1_pay1 (F := Ideal) v0 v3 v7 (ix2 b q)
      = Ideal.logistic ((∑ e : Fin 200, v0 (ix2 b e) * v3 (ix2 q e)) + v7 (ix2 (0 : Fin 1) q)) := by
  unfold k1_pay1
  show Ideal.logistic (_ + _) = _
  refine congrArg Ideal.logistic (congrArg₂ (· + ·) ?_ ?_)
  · refine (DotForms.matmul_zero_apply dot_S1024x200_S2048x200_S1024x2048_1_1_0_0_n_n none 200 rfl rfl (ix2 b q)
      (fun e => ix2 b e) (fun e => ix2 q e) ?_ ?_ _ _).trans ?_
    · intro qq k hk; funext a
      match a with
      | ⟨0, _⟩ => rfl
      | ⟨1, _⟩ => exact Fin.ext hk
    · intro qq k hk; funext a
      match a with
      | ⟨0, _⟩ => rfl
      | ⟨1, _⟩ => exact Fin.ext hk
    · refine Finset.sum_congr rfl fun e _ => congrArg₂ (· * ·) ?_ ?_
      · exact congrFun (shapeCast_self v0 shapeCasts_S1024x200_S1024x200) (ix2 b e)
      · exact congrFun (shapeCast_self v3 shapeCasts_S2048x200_S2048x200) (ix2 q e)
  · refine (broadcastTo_1b_ab_apply _ _ b q).trans ?_
    exact congrFun (shapeCast_self v7 shapeCasts_S1x2048_S1x2048) (ix2 (0 : Fin 1) q)

/-! ## The whole score array, and its blocks -/

/-- The score array over the padded entity table `E` and the padded bias row `B`. -/
def scoreArr (H : S1024x200.Idx → EReal) (E : S51200x200.Idx → EReal) (B : S1x51200.Idx → EReal) :
    S1024x51200.Idx → EReal :=
  fun i => Ideal.logistic ((∑ e : Fin 200, H (ix2 (i 0) e) * E (ix2 (i 1) e)) + B (ix2 (0 : Fin 1) (i 1)))

/-- The score array at an entry. -/
theorem scoreArr_apply (H : S1024x200.Idx → EReal) (E : S51200x200.Idx → EReal) (B : S1x51200.Idx → EReal)
    (b : Fin 1024) (n : Fin 51200) :
    scoreArr H E B (ix2 b n)
      = Ideal.logistic ((∑ e : Fin 200, H (ix2 b e) * E (ix2 n e)) + B (ix2 (0 : Fin 1) n)) := rfl

/-- The zero offset of a whole-buffer access. -/
theorem hz : (![0, 0] : Fin 2 → Nat) = fun _ => 0 := funext fun a => by fin_cases a <;> rfl

/-- The four index maps over the 25 grid points: the hidden array's block never moves; the entity block moves down its
    rows, the bias block and the output block along their columns, each with the point. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

section Region
variable (V : (c : Dev nD) → (b : Ref sig .tc) → Buf (Elt Ideal) ((c : Thread nD τ).loc b))

/-- The hidden window's block is the whole hidden array. -/
theorem blk0_apply (c : Dev nD) (t : Fin cfg1.N) (b : Fin 1024) (e : Fin 200) :
    (iblk1 V c 0 t : Vec Ideal S1024x200 .f32) (ix2 b e) = (V c main_v26 : S1024x200.Idx → EReal) (ix2 b e) := by
  obtain ⟨e0, e1, -⟩ := idx_facts t
  unfold iblk1
  rw [View.read_apply]
  show V c main_v26 _ = V c main_v26 _
  refine congrArg _ (funext fun a => Fin.ext ?_)
  match a with
  | ⟨0, _⟩ => show win1_0.index t (0 : Fin 2) * 1024 + 1 * b.val = b.val; rw [e0]; omega
  | ⟨1, _⟩ => show win1_0.index t (1 : Fin 2) * 200 + 1 * e.val = e.val; rw [e1]; omega

/-- Row `q` of the entity window's block at point `t` is row `2048 t + q` of the padded table. -/
theorem blk1_apply (c : Dev nD) (t : Fin cfg1.N) (q : Fin 2048) (e : Fin 200) (n : Fin 51200)
    (hn : n.val = t.val * 2048 + q.val) :
    (iblk1 V c 1 t : Vec Ideal S2048x200 .f32) (ix2 q e) = (V c main_v27 : S51200x200.Idx → EReal) (ix2 n e) := by
  obtain ⟨-, -, e0, e1, -⟩ := idx_facts t
  unfold iblk1
  rw [View.read_apply]
  show V c main_v27 _ = V c main_v27 _
  refine congrArg _ (funext fun a => Fin.ext ?_)
  match a with
  | ⟨0, _⟩ => show win1_1.index t (0 : Fin 2) * 2048 + 1 * q.val = n.val; rw [e0, hn]; omega
  | ⟨1, _⟩ => show win1_1.index t (1 : Fin 2) * 200 + 1 * e.val = e.val; rw [e1]; omega

/-- Entry `q` of the bias window's block at point `t` is entry `2048 t + q` of the padded bias row. -/
theorem blk2_apply (c : Dev nD) (t : Fin cfg1.N) (q : Fin 2048) (n : Fin 51200)
    (hn : n.val = t.val * 2048 + q.val) :
    (iblk1 V c 2 t : Vec Ideal S1x2048 .f32) (ix2 (0 : Fin 1) q) = (V c main_v29 : S1x51200.Idx → EReal) (ix2 (0 : Fin 1) n) := by
  obtain ⟨-, -, -, -, e0, e1, -⟩ := idx_facts t
  unfold iblk1
  rw [View.read_apply]
  show V c main_v29 _ = V c main_v29 _
  refine congrArg _ (funext fun a => Fin.ext ?_)
  match a with
  | ⟨0, _⟩ => show win1_2.index t (0 : Fin 2) * 1 + 1 * 0 = 0; rw [e0]
  | ⟨1, _⟩ => show win1_2.index t (1 : Fin 2) * 2048 + 1 * q.val = n.val; rw [e1, hn]; omega

/-- Entry (p, q) of the output window's block at point `t` sits at (p, 2048 t + q) of the output array. -/
theorem emb3_apply (t : Fin cfg1.N) (p : Fin 1024) (q : Fin 2048) (n : Fin 51200)
    (hn : n.val = t.val * 2048 + q.val) :
    ((cfg1.win 3).blk t).view.emb (ix2 p q) = (ix2 p n : S1024x51200.Idx) := by
  obtain ⟨-, -, -, -, -, -, e0, e1⟩ := idx_facts t
  refine funext fun a => Fin.ext ?_
  match a with
  | ⟨0, _⟩ => show win1_3.index t (0 : Fin 2) * 1024 + 1 * p.val = p.val; rw [e0]; omega
  | ⟨1, _⟩ => show win1_3.index t (1 : Fin 2) * 2048 + 1 * q.val = n.val; rw [e1, hn]; omega

/-- What point `t` writes back is its block of the score array. -/
theorem flushed_eq (c : Dev nD) (t : Fin cfg1.N) :
    (dat1 (F := Ideal) V c).flushed 3 t
      = ((cfg1.win 3).blk t).view.read (Elt Ideal) (scoreArr (V c main_v26) (V c main_v27) (V c main_v29)) := by
  show (cfg1.win 3).cut (grid1.coords t) ((dat1 (F := Ideal) V c).after 3 t) = _
  rw [after1_3]
  unfold out1_3
  rw [View.canon_unit_zero hz]
  simp only [View.ld_unit_zero (S := S1024x200) hz, View.ld_unit_zero (S := S2048x200) hz, View.ld_unit_zero (S := S1x2048) hz]
  funext j
  obtain ⟨p, q, rfl⟩ : ∃ (p : Fin 1024) (q : Fin 2048), j = ix2 p q := ⟨j 0, j 1, eq_ix2 j⟩
  have hN : cfg1.N = 25 := N_1
  have ht : t.val < 25 := by have := t.isLt; omega
  have hn : (⟨t.val * 2048 + q.val, by have := q.isLt; omega⟩ : Fin 51200).val = t.val * 2048 + q.val := rfl
  show k1_pay1 (iblk1 V c 0 t) (iblk1 V c 1 t) (iblk1 V c 2 t) (ix2 p q)
    = scoreArr (V c main_v26) (V c main_v27) (V c main_v29) (((cfg1.win 3).blk t).view.emb (ix2 p q))
  rw [emb3_apply t p q _ hn, scoreArr_apply]
  refine (pay_apply _ _ _ p q).trans ?_
  refine congrArg Ideal.logistic (congrArg₂ (· + ·) (Finset.sum_congr rfl fun e _ => congrArg₂ (· * ·) ?_ ?_) ?_)
  · exact blk0_apply V c t p e
  · exact blk1_apply V c t q e _ hn
  · exact blk2_apply V c t q _ hn

/-- An index of the output array is in point `t`'s block iff each coordinate is in the block's range. -/
theorem mem_blk (t : Fin cfg1.N) (i : S1024x51200.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v30).slice (win1_3.rect t)).set ↔ _
  rw [View.set_slice_whole, Rect.mem_set_unit]
  exact Iff.rfl

/-- The output array after the 25 points is the score array: column `n'` is covered by point `n' / 2048`. -/
theorem final (c : Dev nD) :
    (dat1 (F := Ideal) V c).arrAt 3 cfg1.N = scoreArr (V c main_v26) (V c main_v27) (V c main_v29) :=
  (dat1 (F := Ideal) V c).arrAt_eq_of_cover 3 _ (fun t _ => flushed_eq V c t) fun i => by
    have hN : cfg1.N = 25 := N_1
    have h0 : (i 0).val < 1024 := (i 0).isLt
    have h1 : (i 1).val < 51200 := (i 1).isLt
    have ht : (i 1).val / 2048 < cfg1.N := by omega
    obtain ⟨-, -, -, -, -, -, e0, e1⟩ := idx_facts ⟨(i 1).val / 2048, ht⟩
    refine ⟨⟨(i 1).val / 2048, ht⟩, flush1_3 _, ?_⟩
    rw [mem_blk]
    intro a
    match a with
    | ⟨0, _⟩ =>
      show win1_3.index ⟨(i 1).val / 2048, ht⟩ (0 : Fin 2) * 1024 ≤ (i 0).val
        ∧ (i 0).val < win1_3.index ⟨(i 1).val / 2048, ht⟩ (0 : Fin 2) * 1024 + 1024
      rw [e0]; omega
    | ⟨1, _⟩ =>
      show win1_3.index ⟨(i 1).val / 2048, ht⟩ (1 : Fin 2) * 2048 ≤ (i 1).val
        ∧ (i 1).val < win1_3.index ⟨(i 1).val / 2048, ht⟩ (1 : Fin 2) * 2048 + 2048
      rw [e1]; show (i 1).val / 2048 * 2048 ≤ (i 1).val ∧ (i 1).val < (i 1).val / 2048 * 2048 + 2048; omega

end Region

/-! ## The host operations around the second region, and the launch memory -/

variable (m : (ℓ : Loc nD τ sig) → Buf (Elt Ideal) ℓ) (ρ : Dev nD → PrngReg)

/-- The result array is the score array with the padding columns cut off. -/
theorem result_slice (c : Dev nD) :
    (W9 (F := Ideal) m ρ c (Proc.devRef .tc main_v31) : S1024x50000.Idx → EReal)
      = extractStridedSlice S1024x50000 ![0, 0]
          (W8 (F := Ideal) m ρ c (Proc.devRef .tc main_v30) : S1024x51200.Idx → EReal)
          slices_S1024x51200_S1024x50000_0_0 := by
  show StableHlo.after hostOps2 (W8 m ρ c) (Proc.devRef .tc main_v31) = _
  after_results

/-- Nothing between the two regions writes the hidden array. -/
theorem entry_hidden (c : Dev nD) :
    V7 (F := Ideal) m ρ c main_v26 = W2 (F := Ideal) m ρ c (Proc.devRef .tc main_v26) := by
  dsimp only [V7, W7, W6, W5, W4, W3]
  after_results

/-- The entity block array at the second region's entry: the entity table with 1200 rows of the padding value below. -/
theorem entry_table (c : Dev nD) :
    (V7 (F := Ideal) m ρ c main_v27 : S51200x200.Idx → EReal)
      = pad S51200x200 ![0, 0] ![1200, 0] ![0, 0]
          (W2 (F := Ideal) m ρ c (Proc.devRef .tc main_arg3) : S50000x200.Idx → EReal)
          (sitofp (F := Ideal) .f32 (constantI S_ 32 0#32)) pads_S50000x200_S51200x200_012000_000 h_S_ := by
  dsimp only [V7, W7, W6, W5, W4, W3]
  after_results
  rfl

/-- The bias row at the second region's entry: the bias with 1200 padding entries behind, as one row. -/
theorem entry_bias (c : Dev nD) :
    (V7 (F := Ideal) m ρ c main_v29 : S1x51200.Idx → EReal)
      = shapeCast S1x51200 (pad S51200 ![0] ![1200] ![0]
          (W2 (F := Ideal) m ρ c (Proc.devRef .tc main_arg23) : S50000.Idx → EReal)
          (sitofp (F := Ideal) .f32 (constantI S_ 32 0#32)) pads_S50000_S51200_012000 h_S_) shapeCasts_S51200_S1x51200 := by
  dsimp only [V7, W7, W6, W5, W4, W3]
  after_results
  rfl

/-- The first region and the host operations before it leave the entity table as launched. -/
theorem launch_table (c : Dev nD) :
    W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first region and the host operations before it leave the bias as launched. -/
theorem launch_bias (c : Dev nD) :
    W2 (F := Ideal) m ρ c (Proc.devRef .tc main_arg23) = m ((c : Thread nD τ).loc main_arg23) :=
  calc W2 (F := Ideal) m ρ c (Proc.devRef .tc main_arg23)
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

/-! ## One entry of the result -/

/-- One entry of the result array: the score of sample `b`'s hidden row, as the first region left it, against entity
    `n`'s row and bias of the launch memory. -/
theorem score_apply (c : Dev nD) (b : Fin 1024) (n : Fin 50000) :
    (W9 (F := Ideal) m ρ c (Proc.devRef .tc main_v31) : S1024x50000.Idx → EReal) (ix2 b n)
      = Cert.Spec.out (fun e => (W2 (F := Ideal) m ρ c (Proc.devRef .tc main_v26) : S1024x200.Idx → EReal) (ix2 b e))
          (fun e => (m ((c : Thread nD τ).loc main_arg3) : S50000x200.Idx → EReal) (ix2 n e))
          ((m ((c : Thread nD τ).loc main_arg23) : S50000.Idx → EReal) (ix1 n)) := by
  have hn : n.val < 51200 := by have := n.isLt; omega
  have hW : (W8 (F := Ideal) m ρ c (Proc.devRef .tc main_v30) : S1024x51200.Idx → EReal)
      = scoreArr (V7 m ρ c main_v26) (V7 m ρ c main_v27) (V7 m ρ c main_v29) :=
    (W8_arr m ρ c 3).trans (final (V7 m ρ) c)
  rw [result_slice]
  refine (extractStridedSlice_apply _ _ _ (ix2 b n) (ix2 b (⟨n.val, hn⟩ : Fin 51200)) (fun a => ?_)).trans ?_
  · match a with
    | ⟨0, _⟩ => show b.val = 0 + b.val; omega
    | ⟨1, _⟩ => show n.val = 0 + n.val; omega
  rw [hW, scoreArr_apply, entry_hidden, entry_table, entry_bias]
  unfold Cert.Spec.out
  refine congrArg Ideal.logistic (congrArg₂ (· + ·) (Finset.sum_congr rfl fun e _ => congrArg₂ (· * ·) rfl ?_) ?_)
  · refine (pad_apply_of_inside _ _ _ _ _ _ _ (ix2 (⟨n.val, hn⟩ : Fin 51200) e) (ix2 n e) (fun a => ?_)).trans ?_
    · match a with
      | ⟨0, _⟩ => show n.val = 0 + n.val * (0 + 1); omega
      | ⟨1, _⟩ => show e.val = 0 + e.val * (0 + 1); omega
    · exact congrFun (launch_table m ρ c) (ix2 n e)
  · refine (shapeCast_a_1a_apply _ _ (0 : Fin 1) (⟨n.val, hn⟩ : Fin 51200)).trans ?_
    refine (pad_apply_of_inside _ _ _ _ _ _ _ (ix1 (⟨n.val, hn⟩ : Fin 51200)) (ix1 n) (fun a => ?_)).trans ?_
    · match a with
      | ⟨0, _⟩ => show n.val = 0 + n.val * (0 + 1); omega
    · exact congrFun (launch_bias m ρ c) (ix1 n)

end Cert.ScoreSide

end
-- ==== Proof.BodyDense.lean ====
/-
  The dense path of one sample, read off the first region's stored block.

  The body of the first region stores one 128 x 200 block.  Read at entry (r, e), that block is the
  specification's hidden row of sample r at feature e:

  * the two entity rows of the sample side by side, through the first linear layer, its bias and the
    one-channel normalisation, give the 200-vector `x` (`x_apply`);
  * the relation row of the sample, through nine 200 x 32 products (one per tap) plus the tap's bias row, gives
    the 32 filters of nine taps; tap `w` of filter `o` multiplies the window of `x` that starts at column `w`,
    and the nine products are added one after the other starting from zero; the 32 x 192 results are normalised
    per channel (`cbn_apply`, `cbnFull_apply`);
  * channel by channel, the 192 positions of a channel meet one 192 x 200 slab of the last layer's weights, and
    the 32 results are added one after the other starting from zero; then the bias, the per-feature
    normalisation and the positive part (`chain_apply`).

  Every number format of the body is the extended reals here, so the changes of format are the identity.  Sums
  unrolled in the body (nine taps, 32 channels) are folded back into the specification's sums over `Fin 9` and
  `Fin 32` (`sum9`, `sum32`).  The first sections read the body's layout operations, its three matrix products
  and its loads of one slab of a stacked parameter at an index.
-/
import proofs.«164159_j23862838297042_1_alg».proof.Proof.Gen.KernelIdeal.Frame
import proofs.«164159_j23862838297042_1_alg».proof.Proof.Spec
import proofs.«164159_j23862838297042_1_alg».proof.Proof.LibDotForms
import Idealize.ShloMosaic.Lib.ValueLayout

noncomputable section

namespace Cert.BodyDense

open Idealize.ShloMosaic Idealize.ShloMosaic.ValueIdx Cert.KernelIdeal

/-! ## Layout operations of the body, read at an index -/

section Layout
variable {α : Type}

/-- A vector of 200 entries laid along the columns of a 128 x 200 block: entry `(r, e)` is entry `e`. -/
theorem bcRow_apply (v : S200.Idx → α) (h1 : S200.ShapeCasts S1x200) (h2 : S1x200.Broadcasts S128x200)
    (r : Fin 128) (e : Fin 200) :
    broadcastTo S128x200 (shapeCast S1x200 v h1) h2 (ix2 r e) = v (ix1 e) :=
  (broadcastTo_1b_ab_apply _ h2 r e).trans (shapeCast_a_1a_apply v h1 0 e)

/-- A one-entry vector spread over a 128 x 200 block: every entry is that one entry. -/
theorem bcScalar_apply (v : S1.Idx → α) (h1 : S1.ShapeCasts S1x1) (h2 : S1x1.Broadcasts S128x200)
    (r : Fin 128) (e : Fin 200) :
    broadcastTo S128x200 (shapeCast S1x1 v h1) h2 (ix2 r e) = v (ix1 (0 : Fin 1)) :=
  (broadcastTo_apply _ h2 (ix2 r e) (ix2 (0 : Fin 1) (0 : Fin 1)) (fun a => by
      match a with
      | ⟨0, _⟩ => rfl
      | ⟨1, _⟩ => rfl)).trans (shapeCast_a_1a_apply v h1 0 0)

/-- A one-row matrix of 32 entries, flattened, made a row again and laid along the columns of a 128 x 32 block. -/
theorem bcBias_apply (v : S1x32.Idx → α) (h1 : S1x32.ShapeCasts S32) (h2 : S32.ShapeCasts S1x32)
    (h3 : S1x32.Broadcasts S128x32) (r : Fin 128) (o : Fin 32) :
    broadcastTo S128x32 (shapeCast S1x32 (shapeCast S32 v h1) h2) h3 (ix2 r o) = v (ix2 (0 : Fin 1) o) :=
  ((broadcastTo_1b_ab_apply _ h3 r o).trans (shapeCast_a_1a_apply _ h2 0 o)).trans (shapeCast_1a_a_apply v h1 o)

/-- A 128 x 32 matrix repeated along a third axis of 192: entry `(r, o, p)` is entry `(r, o)`. -/
theorem bcCol_apply (kw : S128x32.Idx → α) (h1 : S128x32.ShapeCasts S128x32x1) (h2 : S128x32x1.Broadcasts S128x32x192)
    (r : Fin 128) (o : Fin 32) (p : Fin 192) :
    broadcastTo S128x32x192 (shapeCast S128x32x1 kw h1) h2 (ix3 r o p) = kw (ix2 r o) :=
  (broadcastTo_apply _ h2 (ix3 r o p) (ix3 r o (0 : Fin 1)) (fun a => by
      match a with
      | ⟨0, _⟩ => rfl
      | ⟨1, _⟩ => rfl
      | ⟨2, _⟩ => rfl)).trans
    (shapeCast_apply kw h1 (ix3 r o (0 : Fin 1)) (ix2 r o) (by
      rw [Shape.rowMajor_val_two, Shape.rowMajor_val_three]
      show r.val * 32 + o.val = (r.val * 32 + o.val) * 1 + 0
      omega))

/-- A window of 192 columns starting at column `w` stays inside 200 columns. -/
theorem shift_lt {w : Nat} (hs : S128x200.Slices ![0, w] S128x192) (p : Fin 192) : p.val + w < 200 := by
  have h : w + 192 ≤ 200 := hs.2 1
  omega

/-- The window of 192 columns of a 128 x 200 matrix starting at column `w`, repeated along a middle axis of 32:
    entry `(r, o, p)` is entry `(r, p + w)` of the matrix. -/
theorem bcSlice_apply (xv : S128x200.Idx → α) (w : Nat) (hs : S128x200.Slices ![0, w] S128x192)
    (h1 : S128x192.ShapeCasts S128x1x192) (h2 : S128x1x192.Broadcasts S128x32x192)
    (r : Fin 128) (o : Fin 32) (p : Fin 192) :
    broadcastTo S128x32x192 (shapeCast S128x1x192 (extractStridedSlice S128x192 ![0, w] xv hs) h1) h2 (ix3 r o p)
      = xv (ix2 r ⟨p.val + w, shift_lt hs p⟩) :=
  ((broadcastTo_apply _ h2 (ix3 r o p) (ix3 r (0 : Fin 1) p) (fun a => by
      match a with
      | ⟨0, _⟩ => rfl
      | ⟨1, _⟩ => rfl
      | ⟨2, _⟩ => rfl)).trans
    (shapeCast_apply _ h1 (ix3 r (0 : Fin 1) p) (ix2 r p) (by
      rw [Shape.rowMajor_val_two, Shape.rowMajor_val_three]
      show r.val * 192 + p.val = (r.val * 1 + 0) * 192 + p.val
      omega))).trans
    (slice2_axis1_apply w xv hs r p ⟨p.val + w, shift_lt hs p⟩ (Nat.add_comm _ _))

/-- The same window before the repetition (the form one payload hands to the next). -/
theorem castSlice_apply (xv : S128x200.Idx → α) (w : Nat) (hs : S128x200.Slices ![0, w] S128x192)
    (h1 : S128x192.ShapeCasts S128x1x192) (r : Fin 128) (u : Fin 1) (p : Fin 192) :
    shapeCast S128x1x192 (extractStridedSlice S128x192 ![0, w] xv hs) h1 (ix3 r u p)
      = xv (ix2 r ⟨p.val + w, shift_lt hs p⟩) :=
  (shapeCast_apply _ h1 (ix3 r u p) (ix2 r p) (by
      have hu : u.val = 0 := by omega
      rw [Shape.rowMajor_val_two, Shape.rowMajor_val_three]
      show r.val * 192 + p.val = (r.val * 1 + u.val) * 192 + p.val
      rw [hu]; omega)).trans
    (slice2_axis1_apply w xv hs r p ⟨p.val + w, shift_lt hs p⟩ (Nat.add_comm _ _))

/-- A 128 x 1 x 192 array repeated along its middle axis. -/
theorem bcMid_apply (y : S128x1x192.Idx → α) (h2 : S128x1x192.Broadcasts S128x32x192)
    (r : Fin 128) (o : Fin 32) (p : Fin 192) :
    broadcastTo S128x32x192 y h2 (ix3 r o p) = y (ix3 r (0 : Fin 1) p) :=
  broadcastTo_apply _ h2 (ix3 r o p) (ix3 r (0 : Fin 1) p) (fun a => by
      match a with
      | ⟨0, _⟩ => rfl
      | ⟨1, _⟩ => rfl
      | ⟨2, _⟩ => rfl)

/-- A vector of 32 entries laid along the middle axis of a 128 x 32 x 192 block. -/
theorem bcChan_apply (v : S32.Idx → α) (h1 : S32.ShapeCasts S1x32x1) (h2 : S1x32x1.Broadcasts S128x32x192)
    (r : Fin 128) (o : Fin 32) (p : Fin 192) :
    broadcastTo S128x32x192 (shapeCast S1x32x1 v h1) h2 (ix3 r o p) = v (ix1 o) :=
  (broadcastTo_apply _ h2 (ix3 r o p) (ix3 (0 : Fin 1) o (0 : Fin 1)) (fun a => by
      match a with
      | ⟨0, _⟩ => rfl
      | ⟨1, _⟩ => rfl
      | ⟨2, _⟩ => rfl)).trans
    (shapeCast_apply v h1 (ix3 (0 : Fin 1) o (0 : Fin 1)) (ix1 o) (by
      rw [Shape.rowMajor_val_one, Shape.rowMajor_val_three]
      show o.val = (0 * 32 + o.val) * 1 + 0
      omega))

/-- Channel `o` lies among 32 channels. -/
theorem chan_lt {o : Nat} (hs : S128x32x192.Slices ![0, o, 0] S128x1x192) : o < 32 := by
  have h : o + 1 ≤ 32 := hs.2 1
  omega

/-- Channel `o` of a 128 x 32 x 192 array as a 128 x 192 matrix. -/
theorem chanSlice_apply (c : S128x32x192.Idx → α) (o : Nat) (hs : S128x32x192.Slices ![0, o, 0] S128x1x192)
    (h1 : S128x1x192.ShapeCasts S128x192) (r : Fin 128) (p : Fin 192) :
    shapeCast S128x192 (extractStridedSlice S128x1x192 ![0, o, 0] c hs) h1 (ix2 r p) = c (ix3 r ⟨o, chan_lt hs⟩ p) :=
  (shapeCast_apply _ h1 (ix2 r p) (ix3 r (0 : Fin 1) p) (by
      rw [Shape.rowMajor_val_two, Shape.rowMajor_val_three]
      show (r.val * 1 + 0) * 192 + p.val = r.val * 192 + p.val
      omega)).trans
    (slice3_axis1_apply o c hs r (0 : Fin 1) p ⟨o, chan_lt hs⟩ rfl)

end Layout

/-! ## The three matrix products of the body, read at an entry -/

section Products

/-- Rows of the left factor are paired with columns of the right factor (`dot_S128x400_S400x200_S128x200_1_0_0_1_n_n`). -/
theorem mmA_lhs0 (i : S128x200.Idx) (q : dot_S128x400_S400x200_S128x200_1_0_0_1_n_n.contr.Idx) :
    (dot_S128x400_S400x200_S128x200_1_0_0_1_n_n.lhsIdx i q 0).val = (i 0).val := by
  unfold DotDims.lhsIdx
  rw [dif_neg (show ¬(0 : Fin S128x400.rank) ∈ dot_S128x400_S400x200_S128x200_1_0_0_1_n_n.lhsBatch by decide),
    dif_pos (show (0 : Fin S128x400.rank) ∈ dot_S128x400_S400x200_S128x200_1_0_0_1_n_n.lhsNonContracting by decide)]
  rfl
theorem mmA_rhs1 (i : S128x200.Idx) (q : dot_S128x400_S400x200_S128x200_1_0_0_1_n_n.contr.Idx) :
    (dot_S128x400_S400x200_S128x200_1_0_0_1_n_n.rhsIdx i q 1).val = (i 1).val := by
  unfold DotDims.rhsIdx
  rw [dif_neg (show ¬(1 : Fin S400x200.rank) ∈ dot_S128x400_S400x200_S128x200_1_0_0_1_n_n.rhsBatch by decide),
    dif_pos (show (1 : Fin S400x200.rank) ∈ dot_S128x400_S400x200_S128x200_1_0_0_1_n_n.rhsNonContracting by decide)]
  rfl

/-- The 128 x 400 by 400 x 200 product into the zero block, at entry `(r, e)`: the sum over the shared axis. -/
theorem mmA_apply {φ₁ φ₂ : FTy} (A : FVec Ideal S128x400 φ₁) (B : FVec Ideal S400x200 φ₂) (r : Fin 128) (e : Fin 200) :
    matmul dot_S128x400_S400x200_S128x200_1_0_0_1_n_n none A B (constant (F := Ideal) S128x200 .f32 0x00000000#32) (ix2 r e)
      = ∑ k : Fin 400, A (ix2 r k) * B (ix2 k e) :=
  DotForms.matmul_zero_apply dot_S128x400_S400x200_S128x200_1_0_0_1_n_n none 400 rfl rfl (ix2 r e)
    (fun k => ix2 r k) (fun k => ix2 k e)
    (fun q k hk => funext fun a => Fin.ext (by
      match a with
      | ⟨0, _⟩ => exact mmA_lhs0 (ix2 r e) q
      | ⟨1, _⟩ => exact (dot_S128x400_S400x200_S128x200_1_0_0_1_n_n.lhsIdx_val_of_single rfl (ix2 r e) q).trans hk))
    (fun q k hk => funext fun a => Fin.ext (by
      match a with
      | ⟨0, _⟩ => exact (dot_S128x400_S400x200_S128x200_1_0_0_1_n_n.rhsIdx_val_of_single rfl (ix2 r e) q).trans hk
      | ⟨1, _⟩ => exact mmA_rhs1 (ix2 r e) q))
    A B

/-- Rows of the left factor are paired with columns of the right factor (`dot_S128x200_S200x32_S128x32_1_0_0_1_n_n`). -/
theorem mmB_lhs0 (i : S128x32.Idx) (q : dot_S128x200_S200x32_S128x32_1_0_0_1_n_n.contr.Idx) :
    (dot_S128x200_S200x32_S128x32_1_0_0_1_n_n.lhsIdx i q 0).val = (i 0).val := by
  unfold DotDims.lhsIdx
  rw [dif_neg (show ¬(0 : Fin S128x200.rank) ∈ dot_S128x200_S200x32_S128x32_1_0_0_1_n_n.lhsBatch by decide),
    dif_pos (show (0 : Fin S128x200.rank) ∈ dot_S128x200_S200x32_S128x32_1_0_0_1_n_n.lhsNonContracting by decide)]
  rfl
theorem mmB_rhs1 (i : S128x32.Idx) (q : dot_S128x200_S200x32_S128x32_1_0_0_1_n_n.contr.Idx) :
    (dot_S128x200_S200x32_S128x32_1_0_0_1_n_n.rhsIdx i q 1).val = (i 1).val := by
  unfold DotDims.rhsIdx
  rw [dif_neg (show ¬(1 : Fin S200x32.rank) ∈ dot_S128x200_S200x32_S128x32_1_0_0_1_n_n.rhsBatch by decide),
    dif_pos (show (1 : Fin S200x32.rank) ∈ dot_S128x200_S200x32_S128x32_1_0_0_1_n_n.rhsNonContracting by decide)]
  rfl

/-- The 128 x 200 by 200 x 32 product into the zero block, at entry `(r, o)`: the sum over the shared axis. -/
theorem mmB_apply {φ₁ φ₂ : FTy} (A : FVec Ideal S128x200 φ₁) (B : FVec Ideal S200x32 φ₂) (r : Fin 128) (o : Fin 32) :
    matmul dot_S128x200_S200x32_S128x32_1_0_0_1_n_n none A B (constant (F := Ideal) S128x32 .f32 0x00000000#32) (ix2 r o)
      = ∑ k : Fin 200, A (ix2 r k) * B (ix2 k o) :=
  DotForms.matmul_zero_apply dot_S128x200_S200x32_S128x32_1_0_0_1_n_n none 200 rfl rfl (ix2 r o)
    (fun k => ix2 r k) (fun k => ix2 k o)
    (fun q k hk => funext fun a => Fin.ext (by
      match a with
      | ⟨0, _⟩ => exact mmB_lhs0 (ix2 r o) q
      | ⟨1, _⟩ => exact (dot_S128x200_S200x32_S128x32_1_0_0_1_n_n.lhsIdx_val_of_single rfl (ix2 r o) q).trans hk))
    (fun q k hk => funext fun a => Fin.ext (by
      match a with
      | ⟨0, _⟩ => exact (dot_S128x200_S200x32_S128x32_1_0_0_1_n_n.rhsIdx_val_of_single rfl (ix2 r o) q).trans hk
      | ⟨1, _⟩ => exact mmB_rhs1 (ix2 r o) q))
    A B

/-- Rows of the left factor are paired with columns of the right factor (`dot_S128x192_S192x200_S128x200_1_0_0_1_n_n`). -/
theorem mmC_lhs0 (i : S128x200.Idx) (q : dot_S128x192_S192x200_S128x200_1_0_0_1_n_n.contr.Idx) :
    (dot_S128x192_S192x200_S128x200_1_0_0_1_n_n.lhsIdx i q 0).val = (i 0).val := by
  unfold DotDims.lhsIdx
  rw [dif_neg (show ¬(0 : Fin S128x192.rank) ∈ dot_S128x192_S192x200_S128x200_1_0_0_1_n_n.lhsBatch by decide),
    dif_pos (show (0 : Fin S128x192.rank) ∈ dot_S128x192_S192x200_S128x200_1_0_0_1_n_n.lhsNonContracting by decide)]
  rfl
theorem mmC_rhs1 (i : S128x200.Idx) (q : dot_S128x192_S192x200_S128x200_1_0_0_1_n_n.contr.Idx) :
    (dot_S128x192_S192x200_S128x200_1_0_0_1_n_n.rhsIdx i q 1).val = (i 1).val := by
  unfold DotDims.rhsIdx
  rw [dif_neg (show ¬(1 : Fin S192x200.rank) ∈ dot_S128x192_S192x200_S128x200_1_0_0_1_n_n.rhsBatch by decide),
    dif_pos (show (1 : Fin S192x200.rank) ∈ dot_S128x192_S192x200_S128x200_1_0_0_1_n_n.rhsNonContracting by decide)]
  rfl

/-- The 128 x 192 by 192 x 200 product into the zero block, at entry `(r, e)`: the sum over the shared axis. -/
theorem mmC_apply {φ₁ φ₂ : FTy} (A : FVec Ideal S128x192 φ₁) (B : FVec Ideal S192x200 φ₂) (r : Fin 128) (e : Fin 200) :
    matmul dot_S128x192_S192x200_S128x200_1_0_0_1_n_n none A B (constant (F := Ideal) S128x200 .f32 0x00000000#32) (ix2 r e)
      = ∑ k : Fin 192, A (ix2 r k) * B (ix2 k e) :=
  DotForms.matmul_zero_apply dot_S128x192_S192x200_S128x200_1_0_0_1_n_n none 192 rfl rfl (ix2 r e)
    (fun k => ix2 r k) (fun k => ix2 k e)
    (fun q k hk => funext fun a => Fin.ext (by
      match a with
      | ⟨0, _⟩ => exact mmC_lhs0 (ix2 r e) q
      | ⟨1, _⟩ => exact (dot_S128x192_S192x200_S128x200_1_0_0_1_n_n.lhsIdx_val_of_single rfl (ix2 r e) q).trans hk))
    (fun q k hk => funext fun a => Fin.ext (by
      match a with
      | ⟨0, _⟩ => exact (dot_S128x192_S192x200_S128x200_1_0_0_1_n_n.rhsIdx_val_of_single rfl (ix2 r e) q).trans hk
      | ⟨1, _⟩ => exact mmC_rhs1 (ix2 r e) q))
    A B

end Products

/-! ## One slab of a stacked parameter, loaded -/

section Loads

theorem tap_lt {w : Nat} (inb : ∀ a, (![w, 0, 0] : Fin 3 → Nat) a + S1x200x32.size a ≤ S9x200x32.size a) : w < 9 := by
  have h : w + 1 ≤ 9 := inb 0
  omega

/-- Slab `w` of the tap-major second-layer weights. -/
theorem ldTapW_apply (x5 : Vec Ideal S9x200x32 .f32) (w : Nat)
    (inb : ∀ a, (![w, 0, 0] : Fin 3 → Nat) a + S1x200x32.size a ≤ S9x200x32.size a)
    (u : Fin 1) (j : Fin 200) (o : Fin 32) :
    View.ld x5 (Rect.unit (s := S9x200x32) ![w, 0, 0] S1x200x32.size inb) (ix3 u j o) = x5 (ix3 ⟨w, tap_lt inb⟩ j o) := by
  refine congrArg x5 (funext fun a => Fin.ext ?_)
  match a with
  | ⟨0, _⟩ => show w + 1 * u.val = w; omega
  | ⟨1, _⟩ => show 0 + 1 * j.val = j.val; omega
  | ⟨2, _⟩ => show 0 + 1 * o.val = o.val; omega

theorem tapB_lt {w : Nat} (inb : ∀ a, (![w, 0] : Fin 2 → Nat) a + S1x32.size a ≤ S9x32.size a) : w < 9 := by
  have h : w + 1 ≤ 9 := inb 0
  omega

/-- Row `w` of the tap-major second-layer bias. -/
theorem ldTapB_apply (x6 : Vec Ideal S9x32 .f32) (w : Nat)
    (inb : ∀ a, (![w, 0] : Fin 2 → Nat) a + S1x32.size a ≤ S9x32.size a) (u : Fin 1) (o : Fin 32) :
    View.ld x6 (Rect.unit (s := S9x32) ![w, 0] S1x32.size inb) (ix2 u o) = x6 (ix2 ⟨w, tapB_lt inb⟩ o) := by
  refine congrArg x6 (funext fun a => Fin.ext ?_)
  match a with
  | ⟨0, _⟩ => show w + 1 * u.val = w; omega
  | ⟨1, _⟩ => show 0 + 1 * o.val = o.val; omega

theorem chanW_lt {c : Nat} (inb : ∀ a, (![c, 0, 0] : Fin 3 → Nat) a + S1x192x200.size a ≤ S32x192x200.size a) : c < 32 := by
  have h : c + 1 ≤ 32 := inb 0
  omega

/-- Slab `c` of the last layer's weights. -/
theorem ldChanW_apply (x7 : Vec Ideal S32x192x200 .f32) (c : Nat)
    (inb : ∀ a, (![c, 0, 0] : Fin 3 → Nat) a + S1x192x200.size a ≤ S32x192x200.size a)
    (u : Fin 1) (p : Fin 192) (e : Fin 200) :
    View.ld x7 (Rect.unit (s := S32x192x200) ![c, 0, 0] S1x192x200.size inb) (ix3 u p e) = x7 (ix3 ⟨c, chanW_lt inb⟩ p e) := by
  refine congrArg x7 (funext fun a => Fin.ext ?_)
  match a with
  | ⟨0, _⟩ => show c + 1 * u.val = c; omega
  | ⟨1, _⟩ => show 0 + 1 * p.val = p.val; omega
  | ⟨2, _⟩ => show 0 + 1 * e.val = e.val; omega

theorem zero2 : (![0, 0] : Fin 2 → Nat) = fun _ => 0 := by
  funext a; match a with | ⟨0, _⟩ => rfl | ⟨1, _⟩ => rfl
theorem zero1 : (![0] : Fin 1 → Nat) = fun _ => 0 := by
  funext a; match a with | ⟨0, _⟩ => rfl

end Loads

/-! ## Unrolled sums -/

section Sums

/-- Nine terms added one after the other, starting from zero, are their sum. -/
theorem sum9 (T : Fin 9 → EReal) :
    ((((((((0 + T ⟨0, by omega⟩) + T ⟨1, by omega⟩) + T ⟨2, by omega⟩) + T ⟨3, by omega⟩) + T ⟨4, by omega⟩)
      + T ⟨5, by omega⟩) + T ⟨6, by omega⟩) + T ⟨7, by omega⟩) + T ⟨8, by omega⟩ = ∑ w, T w := by
  simp only [Fin.sum_univ_castSucc, Fin.sum_univ_zero]
  rfl

/-- Thirty-two terms added one after the other, starting from zero, are their sum. -/
theorem sum32 (T : Fin 32 → EReal) :
    (((((((((((((((((((((((((((((((0 + T ⟨0, by omega⟩) + T ⟨1, by omega⟩) + T ⟨2, by omega⟩) + T ⟨3, by omega⟩)
      + T ⟨4, by omega⟩) + T ⟨5, by omega⟩) + T ⟨6, by omega⟩) + T ⟨7, by omega⟩) + T ⟨8, by omega⟩) + T ⟨9, by omega⟩)
      + T ⟨10, by omega⟩) + T ⟨11, by omega⟩) + T ⟨12, by omega⟩) + T ⟨13, by omega⟩) + T ⟨14, by omega⟩)
      + T ⟨15, by omega⟩) + T ⟨16, by omega⟩) + T ⟨17, by omega⟩) + T ⟨18, by omega⟩) + T ⟨19, by omega⟩)
      + T ⟨20, by omega⟩) + T ⟨21, by omega⟩) + T ⟨22, by omega⟩) + T ⟨23, by omega⟩) + T ⟨24, by omega⟩)
      + T ⟨25, by omega⟩) + T ⟨26, by omega⟩) + T ⟨27, by omega⟩) + T ⟨28, by omega⟩) + T ⟨29, by omega⟩)
      + T ⟨30, by omega⟩) + T ⟨31, by omega⟩ = ∑ o, T o := by
  simp only [Fin.sum_univ_castSucc, Fin.sum_univ_zero]
  rfl

end Sums

/-! ## The first linear layer and its normalisation -/

section FirstLayer

/-- The reciprocal square root of a vector, at an index. -/
theorem rsqrtV_apply {s : Shape} {φ : FTy} (a : FVec Ideal s φ) (i : s.Idx) : rsqrt a i = Ideal.rsqrt (a i) := rfl

/-- The two blocks of entity rows side by side: row `r` is the two rows side by side. -/
theorem catRow_apply (v0 v2 : S128x200.Idx → EReal) (h0 : S128x200.ShapeCasts S128x200)
    (hc : Shape.Concatenates [S128x200, S128x200] S128x400 1) (r : Fin 128) (k : Fin 400) :
    concatenate S128x400 1 [⟨S128x200, shapeCast S128x200 v0 h0⟩, ⟨S128x200, shapeCast S128x200 v2 h0⟩] hc (ix2 r k)
      = Spec.cat (fun j => v0 (ix2 r j)) (fun j => v2 (ix2 r j)) k := by
  rw [shapeCast_self, shapeCast_self]
  unfold Spec.cat
  by_cases h : k.val < 200
  · rw [dif_pos h]
    exact concatenate_pair_apply_left (1 : Fin S128x400.rank) v0 v2 hc (ix2 r k) rfl (ix2 r ⟨k.val, h⟩)
      (fun b => by match b with | ⟨0, _⟩ => rfl | ⟨1, _⟩ => rfl)
  · rw [dif_neg h]
    exact concatenate_pair_apply_right (1 : Fin S128x400.rank) v0 v2 hc (ix2 r k) rfl rfl
      (ix2 r ⟨k.val - 200, by have := k.isLt; omega⟩)
      (fun b hb => by
        match b with
        | ⟨0, _⟩ => rfl
        | ⟨1, _⟩ => exact absurd rfl hb)
      (by show (k.val - 200) + 200 = k.val; omega)

/-- The first payload at entry `(r, e)`: the specification's `x` of sample `r`. -/
theorem x_apply (v0 v2 : Vec Ideal S128x200 .f32) (v8 : Vec Ideal S400x200 .f32) (v11 : Vec Ideal S200 .f32)
    (v15 v16 v21 v28 : Vec Ideal S1 .f32) (r : Fin 128) (e : Fin 200) :
    Gen.k0_pay1 (F := Ideal) v0 v2 v8 v11 v15 v16 v21 v28 (ix2 r e)
      = Spec.x (fun j => v0 (ix2 r j)) (fun j => v2 (ix2 r j)) (fun k e' => v8 (ix2 k e')) (fun e' => v11 (ix1 e'))
          (v21 (ix1 0)) (Spec.scaleK (v15 (ix1 0)) (v16 (ix1 0))) (v28 (ix1 0)) e := by
  unfold Gen.k0_pay1
  simp only [addf_apply, subf_apply, mulf_apply, truncf_apply, rsqrtV_apply, broadcast_apply, mmA_apply,
    bcRow_apply, bcScalar_apply, catRow_apply]
  rfl

end FirstLayer

/-! ## The nine taps and the per-channel normalisation -/

section Taps

/-- The filter bank slid over `X` and normalised per channel: the body's 128 x 32 x 192 array at entry `(r, o, p)`,
    for any first-layer output `X`. -/
theorem cbn_apply (X : FVec Ideal S128x200 .f32) (x2 : Vec Ideal S128x200 .f32) (x5 : Vec Ideal S9x200x32 .f32)
    (x6 : Vec Ideal S9x32 .f32) (g v m b : Vec Ideal S32 .f32) (r : Fin 128) (o : Fin 32) (p : Fin 192) :
    Gen.k0_pay12 (F := Ideal) X
      (Gen.k0_pay9 X (Gen.k0_pay2 x2)
        (Gen.k0_pay6 X (Gen.k0_pay2 x2)
          (Gen.k0_pay5 X (Gen.k0_pay2 x2) (Gen.k0_pay3 (F := Ideal)) (Gen.k0_pay4 x2 (View.ld x5 Gen.r0_4))
            (View.ld x6 Gen.r0_5) (View.ld x5 Gen.r0_6) (View.ld x6 Gen.r0_7) (View.ld x5 Gen.r0_8) (View.ld x6 Gen.r0_9))
          (View.ld x5 Gen.r0_10) (View.ld x6 Gen.r0_11) (View.ld x5 Gen.r0_12) (View.ld x6 Gen.r0_13))
        (Gen.k0_pay7 X) (Gen.k0_pay8 (Gen.k0_pay2 x2) (View.ld x5 Gen.r0_14) (View.ld x6 Gen.r0_15))
        (View.ld x5 Gen.r0_16) (View.ld x6 Gen.r0_17) (View.ld x5 Gen.r0_18) (View.ld x6 Gen.r0_19))
      (Gen.k0_pay10 (Gen.k0_pay2 x2) (View.ld x5 Gen.r0_20)) (Gen.k0_pay11 (View.ld x6 Gen.r0_21))
      g v m b (ix3 r o p)
    = ((∑ w : Fin 9, Spec.kk (fun j => x2 (ix2 r j)) (fun w j o => x5 (ix3 w j o)) (fun w o => x6 (ix2 w o)) o w
          * X (ix2 r (Spec.shift p w))) - m (ix1 o)) * Spec.scaleK (g (ix1 o)) (v (ix1 o)) + b (ix1 o) := by
  unfold Gen.k0_pay12 Gen.k0_pay9 Gen.k0_pay6 Gen.k0_pay5 Gen.k0_pay7 Gen.k0_pay8 Gen.k0_pay10 Gen.k0_pay11
    Gen.k0_pay4 Gen.k0_pay3 Gen.k0_pay2
  simp only [addf_apply, subf_apply, mulf_apply, truncf_apply, rsqrtV_apply, broadcast_apply, mmB_apply,
    bcBias_apply, bcCol_apply, bcSlice_apply, bcChan_apply, shapeCast_self, shapeCast_1ab_ab_apply,
    Ideal.ofBits_def, Ideal.ofBits_zero_f32]
  have t0 : ∀ (k : Fin 200) (o : Fin 32), View.ld x5 Gen.r0_4 (ix3 0 k o) = x5 (ix3 ⟨0, by omega⟩ k o) :=
    fun k o => ldTapW_apply x5 0 _ 0 k o
  have c0 : ∀ (o : Fin 32), View.ld x6 Gen.r0_5 (ix2 0 o) = x6 (ix2 ⟨0, by omega⟩ o) :=
    fun o => ldTapB_apply x6 0 _ 0 o
  have t1 : ∀ (k : Fin 200) (o : Fin 32), View.ld x5 Gen.r0_6 (ix3 0 k o) = x5 (ix3 ⟨1, by omega⟩ k o) :=
    fun k o => ldTapW_apply x5 1 _ 0 k o
  have c1 : ∀ (o : Fin 32), View.ld x6 Gen.r0_7 (ix2 0 o) = x6 (ix2 ⟨1, by omega⟩ o) :=
    fun o => ldTapB_apply x6 1 _ 0 o
  have t2 : ∀ (k : Fin 200) (o : Fin 32), View.ld x5 Gen.r0_8 (ix3 0 k o) = x5 (ix3 ⟨2, by omega⟩ k o) :=
    fun k o => ldTapW_apply x5 2 _ 0 k o
  have c2 : ∀ (o : Fin 32), View.ld x6 Gen.r0_9 (ix2 0 o) = x6 (ix2 ⟨2, by omega⟩ o) :=
    fun o => ldTapB_apply x6 2 _ 0 o
  have t3 : ∀ (k : Fin 200) (o : Fin 32), View.ld x5 Gen.r0_10 (ix3 0 k o) = x5 (ix3 ⟨3, by omega⟩ k o) :=
    fun k o => ldTapW_apply x5 3 _ 0 k o
  have c3 : ∀ (o : Fin 32), View.ld x6 Gen.r0_11 (ix2 0 o) = x6 (ix2 ⟨3, by omega⟩ o) :=
    fun o => ldTapB_apply x6 3 _ 0 o
  have t4 : ∀ (k : Fin 200) (o : Fin 32), View.ld x5 Gen.r0_12 (ix3 0 k o) = x5 (ix3 ⟨4, by omega⟩ k o) :=
    fun k o => ldTapW_apply x5 4 _ 0 k o
  have c4 : ∀ (o : Fin 32), View.ld x6 Gen.r0_13 (ix2 0 o) = x6 (ix2 ⟨4, by omega⟩ o) :=
    fun o => ldTapB_apply x6 4 _ 0 o
  have t5 : ∀ (k : Fin 200) (o : Fin 32), View.ld x5 Gen.r0_14 (ix3 0 k o) = x5 (ix3 ⟨5, by omega⟩ k o) :=
    fun k o => ldTapW_apply x5 5 _ 0 k o
  have c5 : ∀ (o : Fin 32), View.ld x6 Gen.r0_15 (ix2 0 o) = x6 (ix2 ⟨5, by omega⟩ o) :=
    fun o => ldTapB_apply x6 5 _ 0 o
  have t6 : ∀ (k : Fin 200) (o : Fin 32), View.ld x5 Gen.r0_16 (ix3 0 k o) = x5 (ix3 ⟨6, by omega⟩ k o) :=
    fun k o => ldTapW_apply x5 6 _ 0 k o
  have c6 : ∀ (o : Fin 32), View.ld x6 Gen.r0_17 (ix2 0 o) = x6 (ix2 ⟨6, by omega⟩ o) :=
    fun o => ldTapB_apply x6 6 _ 0 o
  have t7 : ∀ (k : Fin 200) (o : Fin 32), View.ld x5 Gen.r0_18 (ix3 0 k o) = x5 (ix3 ⟨7, by omega⟩ k o) :=
    fun k o => ldTapW_apply x5 7 _ 0 k o
  have c7 : ∀ (o : Fin 32), View.ld x6 Gen.r0_19 (ix2 0 o) = x6 (ix2 ⟨7, by omega⟩ o) :=
    fun o => ldTapB_apply x6 7 _ 0 o
  have t8 : ∀ (k : Fin 200) (o : Fin 32), View.ld x5 Gen.r0_20 (ix3 0 k o) = x5 (ix3 ⟨8, by omega⟩ k o) :=
    fun k o => ldTapW_apply x5 8 _ 0 k o
  have c8 : ∀ (o : Fin 32), View.ld x6 Gen.r0_21 (ix2 0 o) = x6 (ix2 ⟨8, by omega⟩ o) :=
    fun o => ldTapB_apply x6 8 _ 0 o
  simp only [t0, t1, t2, t3, t4, t5, t6, t7, t8, c0, c1, c2, c3, c4, c5, c6, c7, c8]
  rw [← sum9 (fun w => Spec.kk (fun j => x2 (ix2 r j)) (fun w j o => x5 (ix3 w j o)) (fun w o => x6 (ix2 w o)) o w
          * X (ix2 r (Spec.shift p w)))]
  rfl

end Taps

section TapsOfX

/-- The same array over the body's own first-layer output: the specification's normalised filter outputs. -/
theorem cbnFull_apply (x0 x1 x2 : Vec Ideal S128x200 .f32) (x3 : Vec Ideal S400x200 .f32) (x4 : Vec Ideal S200 .f32)
    (x5 : Vec Ideal S9x200x32 .f32) (x6 : Vec Ideal S9x32 .f32) (x9 x10 x11 x12 : Vec Ideal S1 .f32)
    (x13 x14 x15 x16 : Vec Ideal S32 .f32) (r : Fin 128) (o : Fin 32) (p : Fin 192) :
    Gen.k0_pay12 (F := Ideal) (Gen.k0_pay1 x0 x1 x3 x4 x9 x12 x11 x10)
      (Gen.k0_pay9 (Gen.k0_pay1 x0 x1 x3 x4 x9 x12 x11 x10) (Gen.k0_pay2 x2)
        (Gen.k0_pay6 (Gen.k0_pay1 x0 x1 x3 x4 x9 x12 x11 x10) (Gen.k0_pay2 x2)
          (Gen.k0_pay5 (Gen.k0_pay1 x0 x1 x3 x4 x9 x12 x11 x10) (Gen.k0_pay2 x2) (Gen.k0_pay3 (F := Ideal))
            (Gen.k0_pay4 x2 (View.ld x5 Gen.r0_4))
            (View.ld x6 Gen.r0_5) (View.ld x5 Gen.r0_6) (View.ld x6 Gen.r0_7) (View.ld x5 Gen.r0_8) (View.ld x6 Gen.r0_9))
          (View.ld x5 Gen.r0_10) (View.ld x6 Gen.r0_11) (View.ld x5 Gen.r0_12) (View.ld x6 Gen.r0_13))
        (Gen.k0_pay7 (Gen.k0_pay1 x0 x1 x3 x4 x9 x12 x11 x10)) (Gen.k0_pay8 (Gen.k0_pay2 x2) (View.ld x5 Gen.r0_14) (View.ld x6 Gen.r0_15))
        (View.ld x5 Gen.r0_16) (View.ld x6 Gen.r0_17) (View.ld x5 Gen.r0_18) (View.ld x6 Gen.r0_19))
      (Gen.k0_pay10 (Gen.k0_pay2 x2) (View.ld x5 Gen.r0_20)) (Gen.k0_pay11 (View.ld x6 Gen.r0_21))
      x13 x16 x15 x14 (ix3 r o p)
    = Spec.cbn (fun j => x0 (ix2 r j)) (fun j => x1 (ix2 r j)) (fun j => x2 (ix2 r j))
        (fun k e' => x3 (ix2 k e')) (fun e' => x4 (ix1 e'))
        (fun w j o => x5 (ix3 w j o)) (fun w o => x6 (ix2 w o))
        (x11 (ix1 0)) (Spec.scaleK (x9 (ix1 0)) (x12 (ix1 0))) (x10 (ix1 0))
        (fun o => x15 (ix1 o)) (fun o => Spec.scaleK (x13 (ix1 o)) (x16 (ix1 o))) (fun o => x14 (ix1 o)) o p := by
  refine (cbn_apply _ x2 x5 x6 x13 x16 x15 x14 r o p).trans ?_
  simp only [x_apply]
  rfl

end TapsOfX

/-! ## The last linear layer, channel by channel -/

section Channels

/-- Channel `o`'s share of the last linear layer at entry `(r, e)`: the channel's 192 positions against one
    slab of the weights. -/
def chanSum (C : FVec Ideal S128x32x192 .bf16) (W : Vec Ideal S1x192x200 .f32) (r : Fin 128) (e : Fin 200)
    (o : Fin 32) : EReal :=
  ∑ p : Fin 192, C (ix3 r o p) * W (ix3 (0 : Fin 1) p e)

/-- The body's stored value at entry `(r, e)`, over the normalised filter outputs `C` and the 32 weight slabs:
    the channels' shares added one after the other, the bias, the per-feature normalisation and the positive part. -/
theorem chain_apply (v31 : FVec Ideal S128x200 .f32) (v161 : FVec Ideal S128x32x192 .f32) (v165 : FVec Ideal S128x32 .f32)
    (v168 : FVec Ideal S1x32 .f32) (g1 vv1 m1 b1 : Vec Ideal S32 .f32)
    (C : FVec Ideal S128x32x192 .bf16) (hC : C = Gen.k0_pay12 v31 v161 v165 v168 g1 vv1 m1 b1)
    (w0 w1 w2 w3 w4 w5 w6 w7 w8 w9 w10 w11 w12 w13 w14 w15 w16 w17 w18 w19 w20 w21 w22 w23 w24 w25 w26 w27 w28 w29 w30
      w31 : Vec Ideal S1x192x200 .f32)
    (fcb g2 vv2 m2 b2 : Vec Ideal S200 .f32) (r : Fin 128) (e : Fin 200) :
    Gen.k0_pay28 (F := Ideal) C
      (Gen.k0_pay25 C
        (Gen.k0_pay23 C
          (Gen.k0_pay20 C
            (Gen.k0_pay18 C
              (Gen.k0_pay15 C (Gen.k0_pay13 v31 v161 v165 v168 g1 vv1 m1 b1 w0 w1)
                (Gen.k0_pay14 v31 v161 v165 v168 g1 vv1 m1 b1) w2 w3 w4 w5 w6)
              (Gen.k0_pay16 C) (Gen.k0_pay17 w7) (constant (F := Ideal) S128x200 .f32 0x00000000#32) w8 w9 w10 w11 w12)
            (Gen.k0_pay19 C) w13 w14 w15 w16 w17)
          (Gen.k0_pay21 C) (Gen.k0_pay22 w18) w19 w20 w21 w22 w23)
        (Gen.k0_pay24 C) w24 w25 w26 w27 w28)
      (Gen.k0_pay26 C) (Gen.k0_pay27 w29) w30 w31 fcb g2 vv2 m2 b2 (ix2 r e)
    = max ((((((((((((((((((((((((((((((((((0 + chanSum C w0 r e ⟨0, by omega⟩) + chanSum C w1 r e ⟨1, by omega⟩) + chanSum C w2 r e ⟨2, by omega⟩)
         + chanSum C w3 r e ⟨3, by omega⟩) + chanSum C w4 r e ⟨4, by omega⟩) + chanSum C w5 r e ⟨5, by omega⟩)
         + chanSum C w6 r e ⟨6, by omega⟩) + chanSum C w7 r e ⟨7, by omega⟩) + chanSum C w8 r e ⟨8, by omega⟩)
         + chanSum C w9 r e ⟨9, by omega⟩) + chanSum C w10 r e ⟨10, by omega⟩) + chanSum C w11 r e ⟨11, by omega⟩)
         + chanSum C w12 r e ⟨12, by omega⟩) + chanSum C w13 r e ⟨13, by omega⟩) + chanSum C w14 r e ⟨14, by omega⟩)
         + chanSum C w15 r e ⟨15, by omega⟩) + chanSum C w16 r e ⟨16, by omega⟩) + chanSum C w17 r e ⟨17, by omega⟩)
         + chanSum C w18 r e ⟨18, by omega⟩) + chanSum C w19 r e ⟨19, by omega⟩) + chanSum C w20 r e ⟨20, by omega⟩)
         + chanSum C w21 r e ⟨21, by omega⟩) + chanSum C w22 r e ⟨22, by omega⟩) + chanSum C w23 r e ⟨23, by omega⟩)
         + chanSum C w24 r e ⟨24, by omega⟩) + chanSum C w25 r e ⟨25, by omega⟩) + chanSum C w26 r e ⟨26, by omega⟩)
         + chanSum C w27 r e ⟨27, by omega⟩) + chanSum C w28 r e ⟨28, by omega⟩) + chanSum C w29 r e ⟨29, by omega⟩)
         + chanSum C w30 r e ⟨30, by omega⟩) + chanSum C w31 r e ⟨31, by omega⟩)
          + fcb (ix1 e) - m2 (ix1 e)) * Spec.scaleK (g2 (ix1 e)) (vv2 (ix1 e)) + b2 (ix1 e)) 0 := by
  unfold Gen.k0_pay28 Gen.k0_pay27 Gen.k0_pay26 Gen.k0_pay25 Gen.k0_pay24 Gen.k0_pay23 Gen.k0_pay22 Gen.k0_pay21
    Gen.k0_pay20 Gen.k0_pay19 Gen.k0_pay18 Gen.k0_pay17 Gen.k0_pay16 Gen.k0_pay15 Gen.k0_pay14 Gen.k0_pay13
  rw [← hC]
  simp only [addf_apply, subf_apply, mulf_apply, maximumf_apply, truncf_apply, rsqrtV_apply, broadcast_apply,
    mmC_apply, chanSlice_apply, shapeCast_1ab_ab_apply, bcRow_apply, Ideal.ofBits_def, Ideal.ofBits_zero_f32]
  rfl

end Channels

/-! ## The body's stored block at an entry -/

section Assembly

/-- A channel's share against slab `c` of the loaded weights is its share against the weights themselves. -/
theorem chanSum_ld (C : FVec Ideal S128x32x192 .bf16) (x7 : Vec Ideal S32x192x200 .f32) (c : Nat)
    (inb : ∀ a, (![c, 0, 0] : Fin 3 → Nat) a + S1x192x200.size a ≤ S32x192x200.size a)
    (r : Fin 128) (e : Fin 200) (h : c < 32) :
    chanSum C (View.ld x7 (Rect.unit (s := S32x192x200) ![c, 0, 0] S1x192x200.size inb)) r e ⟨c, h⟩
      = ∑ p : Fin 192, C (ix3 r ⟨c, h⟩ p) * x7 (ix3 ⟨c, h⟩ p e) := by
  unfold chanSum
  exact Finset.sum_congr rfl (fun p _ => by rw [ldChanW_apply])

end Assembly

open Idealize.ShloMosaic Idealize.ShloMosaic.ValueIdx Cert.KernelIdeal in
theorem out_apply
    (x0 x1 x2 : Vec Ideal S128x200 .f32) (x3 : Vec Ideal S400x200 .f32) (x4 : Vec Ideal S200 .f32)
    (x5 : Vec Ideal S9x200x32 .f32) (x6 : Vec Ideal S9x32 .f32) (x7 : Vec Ideal S32x192x200 .f32) (x8 : Vec Ideal S200 .f32)
    (x9 x10 x11 x12 : Vec Ideal S1 .f32) (x13 x14 x15 x16 : Vec Ideal S32 .f32) (x17 x18 x19 x20 : Vec Ideal S200 .f32)
    (r : Fin 128) (e : Fin 200) :
    Cert.KernelIdeal.Gen.out0_21 (F := Ideal) x0 x1 x2 x3 x4 x5 x6 x7 x8 x9 x10 x11 x12 x13 x14 x15 x16 x17 x18 x19 x20 (ix2 r e)
      = Cert.Spec.h (fun j => x0 (ix2 r j)) (fun j => x1 (ix2 r j)) (fun j => x2 (ix2 r j))
          (fun k e' => x3 (ix2 k e')) (fun e' => x4 (ix1 e'))
          (fun w j o => x5 (ix3 w j o)) (fun w o => x6 (ix2 w o))
          (fun o p e' => x7 (ix3 o p e')) (fun e' => x8 (ix1 e'))
          (x11 (ix1 0)) (Cert.Spec.scaleK (x9 (ix1 0)) (x12 (ix1 0))) (x10 (ix1 0))
          (fun o => x15 (ix1 o)) (fun o => Cert.Spec.scaleK (x13 (ix1 o)) (x16 (ix1 o))) (fun o => x14 (ix1 o))
          (fun e' => x19 (ix1 e')) (fun e' => Cert.Spec.scaleK (x17 (ix1 e')) (x20 (ix1 e'))) (fun e' => x18 (ix1 e')) e := by
  unfold Gen.out0_21
  rw [View.canon_unit_zero zero2]
  simp only [View.ld_unit_zero (S := S128x200) zero2, View.ld_unit_zero (S := S400x200) zero2,
    View.ld_unit_zero (S := S200) zero1, View.ld_unit_zero (S := S1) zero1, View.ld_unit_zero (S := S32) zero1]
  refine (chain_apply _ _ _ _ _ _ _ _ _ rfl _ _ _ _ _ _ _ _ _ _ _ _ _ _ _ _ _ _ _ _ _ _ _ _ _ _ _ _ _ _ _ _
    _ _ _ _ _ r e).trans ?_
  simp only [chanSum_ld, cbnFull_apply]
  rw [sum32 (fun o => ∑ p : Fin 192,
    Spec.cbn (fun j => x0 (ix2 r j)) (fun j => x1 (ix2 r j)) (fun j => x2 (ix2 r j))
      (fun k e' => x3 (ix2 k e')) (fun e' => x4 (ix1 e'))
      (fun w j o => x5 (ix3 w j o)) (fun w o => x6 (ix2 w o))
      (x11 (ix1 0)) (Spec.scaleK (x9 (ix1 0)) (x12 (ix1 0))) (x10 (ix1 0))
      (fun o => x15 (ix1 o)) (fun o => Spec.scaleK (x13 (ix1 o)) (x16 (ix1 o))) (fun o => x14 (ix1 o)) o p
      * x7 (ix3 o p e))]
  rfl

end Cert.BodyDense

end
-- ==== Proof.DenseArr.lean ====
/-
  The first region's output array: block by block it is the specification's hidden rows of what the region finds in
  its input arrays.

  The region's grid has eight points; point `t` stages rows 128·t … 128·t + 127 of the three gathered arrays, the whole
  of every parameter array, and writes back rows 128·t … 128·t + 127 of the hidden array.  The body's result at row `r`
  of the block depends on row `r` of the three staged blocks only (the body lemma), which is row 128·t + r of the arrays;
  the eight blocks tile the 1024 rows.
-/
import proofs.«164159_j23862838297042_1_alg».proof.Proof.Gen.KernelIdeal.Frame
import proofs.«164159_j23862838297042_1_alg».proof.Proof.Spec
import proofs.«164159_j23862838297042_1_alg».proof.Proof.BodyDense
import Idealize.ShloMosaic.Lib.Pipeline.Value
import Idealize.ShloMosaic.Lib.ValueIdx

set_option maxRecDepth 16384

noncomputable section

namespace Cert.DenseArr

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

/-- The hidden row depends on its data only through their values. -/
theorem h_congr {es es' : Fin 200 → EReal} {ec ec' : Fin 200 → EReal} {rr rr' : Fin 200 → EReal} {w1 w1' : Fin 400 → Fin 200 → EReal} {w1b w1b' : Fin 200 → EReal} {fc1t fc1t' : Fin 9 → Fin 200 → Fin 32 → EReal} {fc1bt fc1bt' : Fin 9 → Fin 32 → EReal} {fcw3 fcw3' : Fin 32 → Fin 192 → Fin 200 → EReal} {fcb fcb' : Fin 200 → EReal} {m0 m0' : EReal} {s0 s0' : EReal} {b0 b0' : EReal} {m1 m1' : Fin 32 → EReal} {s1 s1' : Fin 32 → EReal} {b1 b1' : Fin 32 → EReal} {m2 m2' : Fin 200 → EReal} {s2 s2' : Fin 200 → EReal} {b2 b2' : Fin 200 → EReal}
    (h0 : es = es') (h1 : ec = ec') (h2 : rr = rr') (h3 : w1 = w1') (h4 : w1b = w1b') (h5 : fc1t = fc1t') (h6 : fc1bt = fc1bt') (h7 : fcw3 = fcw3') (h8 : fcb = fcb') (h9 : m0 = m0') (h10 : s0 = s0') (h11 : b0 = b0') (h12 : m1 = m1') (h13 : s1 = s1') (h14 : b1 = b1') (h15 : m2 = m2') (h16 : s2 = s2') (h17 : b2 = b2') (e : Fin 200) :
    Cert.Spec.h es ec rr w1 w1b fc1t fc1bt fcw3 fcb m0 s0 b0 m1 s1 b1 m2 s2 b2 e = Cert.Spec.h es' ec' rr' w1' w1b' fc1t' fc1bt' fcw3' fcb' m0' s0' b0' m1' s1' b1' m2' s2' b2' e := by
  subst h0 h1 h2 h3 h4 h5 h6 h7 h8 h9 h10 h11 h12 h13 h14 h15 h16 h17; rfl

variable (V : (c : Dev nD) → (b : Ref sig .tc) → Buf (Elt Ideal) ((c : Thread nD τ).loc b))

/-- The hidden row of sample `b`, from the arrays as the region finds them. -/
def Hrow (c : Dev nD) (b : Fin 1024) (e : Fin 200) : EReal :=
  Cert.Spec.h (fun j => (V c main_v6 : S1024x200.Idx → EReal) (ix2 b j)) (fun j => (V c main_v13 : S1024x200.Idx → EReal) (ix2 b j)) (fun j => (V c main_v20 : S1024x200.Idx → EReal) (ix2 b j))
    (fun k e' => (V c main_arg5 : S400x200.Idx → EReal) (ix2 k e')) (fun e' => (V c main_arg6 : S200.Idx → EReal) (ix1 e'))
    (fun w j o => (V c main_v22 : S9x200x32.Idx → EReal) (ix3 w j o)) (fun w o => (V c main_v24 : S9x32.Idx → EReal) (ix2 w o))
    (fun o p e' => (V c main_v25 : S32x192x200.Idx → EReal) (ix3 o p e')) (fun e' => (V c main_arg10 : S200.Idx → EReal) (ix1 e'))
    ((V c main_arg13 : S1.Idx → EReal) (ix1 0)) (Cert.Spec.scaleK ((V c main_arg11 : S1.Idx → EReal) (ix1 0)) ((V c main_arg14 : S1.Idx → EReal) (ix1 0))) ((V c main_arg12 : S1.Idx → EReal) (ix1 0))
    (fun o => (V c main_arg17 : S32.Idx → EReal) (ix1 o)) (fun o => Cert.Spec.scaleK ((V c main_arg15 : S32.Idx → EReal) (ix1 o)) ((V c main_arg18 : S32.Idx → EReal) (ix1 o))) (fun o => (V c main_arg16 : S32.Idx → EReal) (ix1 o))
    (fun e' => (V c main_arg21 : S200.Idx → EReal) (ix1 e')) (fun e' => Cert.Spec.scaleK ((V c main_arg19 : S200.Idx → EReal) (ix1 e')) ((V c main_arg22 : S200.Idx → EReal) (ix1 e'))) (fun e' => (V c main_arg20 : S200.Idx → EReal) (ix1 e')) e

/-- The hidden array. -/
def Harr (c : Dev nD) : S1024x200.Idx → EReal :=
  fun i => Hrow V c ⟨(i 0).val, (i 0).isLt⟩ ⟨(i 1).val, (i 1).isLt⟩

/-- The printed index maps over the grid: the three gathered arrays and the output move down one block of rows per
    point; every parameter array is staged whole at every point. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_21.index t (0 : Fin 2) = t.val
    ∧ win0_21.index t (1 : Fin 2) = 0
    ∧ win0_3.index t (0 : Fin 2) = 0
    ∧ win0_3.index t (1 : Fin 2) = 0
    ∧ win0_4.index t (0 : Fin 1) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 3) = 0
    ∧ win0_7.index t (1 : Fin 3) = 0
    ∧ win0_7.index t (2 : Fin 3) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 1) = 0
    ∧ win0_13.index t (0 : Fin 1) = 0
    ∧ win0_14.index t (0 : Fin 1) = 0
    ∧ win0_15.index t (0 : Fin 1) = 0
    ∧ win0_16.index t (0 : Fin 1) = 0
    ∧ win0_17.index t (0 : Fin 1) = 0
    ∧ win0_18.index t (0 : Fin 1) = 0
    ∧ win0_19.index t (0 : Fin 1) = 0
    ∧ win0_20.index t (0 : Fin 1) = 0 :=
  (by decide +kernel : ∀ t : Fin grid0.N, _)

theorem read0 (c : Dev nD) (t : Fin cfg0.N) (y0 : Fin 128) (y1 : Fin 200) :
    iblk0 V c 0 t (ix2 y0 y1) = (V c main_v6 : S1024x200.Idx → EReal) (ix2 (⟨t.val * 128 + y0.val, by have hN : cfg0.N = 8 := N_0; have := t.isLt; have := y0.isLt; omega⟩ : Fin 1024) y1) := by
  have hf := idx_facts t
  show (V c main_v6 : S1024x200.Idx → EReal) (((cfg0.win 0).blk t).view.emb (ix2 y0 y1)) = _
  refine congrArg _ (funext fun a => Fin.ext ?_)
  match a with
    | ⟨0, _⟩ => show win0_0.index t (0 : Fin 2) * 128 + 1 * y0.val = t.val * 128 + y0.val; omega
    | ⟨1, _⟩ => show win0_0.index t (1 : Fin 2) * 200 + 1 * y1.val = y1.val; omega

theorem read1 (c : Dev nD) (t : Fin cfg0.N) (y0 : Fin 128) (y1 : Fin 200) :
    iblk0 V c 1 t (ix2 y0 y1) = (V c main_v13 : S1024x200.Idx → EReal) (ix2 (⟨t.val * 128 + y0.val, by have hN : cfg0.N = 8 := N_0; have := t.isLt; have := y0.isLt; omega⟩ : Fin 1024) y1) := by
  have hf := idx_facts t
  show (V c main_v13 : S1024x200.Idx → EReal) (((cfg0.win 1).blk t).view.emb (ix2 y0 y1)) = _
  refine congrArg _ (funext fun a => Fin.ext ?_)
  match a with
    | ⟨0, _⟩ => show win0_1.index t (0 : Fin 2) * 128 + 1 * y0.val = t.val * 128 + y0.val; omega
    | ⟨1, _⟩ => show win0_1.index t (1 : Fin 2) * 200 + 1 * y1.val = y1.val; omega

theorem read2 (c : Dev nD) (t : Fin cfg0.N) (y0 : Fin 128) (y1 : Fin 200) :
    iblk0 V c 2 t (ix2 y0 y1) = (V c main_v20 : S1024x200.Idx → EReal) (ix2 (⟨t.val * 128 + y0.val, by have hN : cfg0.N = 8 := N_0; have := t.isLt; have := y0.isLt; omega⟩ : Fin 1024) y1) := by
  have hf := idx_facts t
  show (V c main_v20 : S1024x200.Idx → EReal) (((cfg0.win 2).blk t).view.emb (ix2 y0 y1)) = _
  refine congrArg _ (funext fun a => Fin.ext ?_)
  match a with
    | ⟨0, _⟩ => show win0_2.index t (0 : Fin 2) * 128 + 1 * y0.val = t.val * 128 + y0.val; omega
    | ⟨1, _⟩ => show win0_2.index t (1 : Fin 2) * 200 + 1 * y1.val = y1.val; omega

theorem read3 (c : Dev nD) (t : Fin cfg0.N) (y0 : Fin 400) (y1 : Fin 200) :
    iblk0 V c 3 t (ix2 y0 y1) = (V c main_arg5 : S400x200.Idx → EReal) (ix2 y0 y1) := by
  have hf := idx_facts t
  show (V c main_arg5 : S400x200.Idx → EReal) (((cfg0.win 3).blk t).view.emb (ix2 y0 y1)) = _
  refine congrArg _ (funext fun a => Fin.ext ?_)
  match a with
    | ⟨0, _⟩ => show win0_3.index t (0 : Fin 2) * 400 + 1 * y0.val = y0.val; omega
    | ⟨1, _⟩ => show win0_3.index t (1 : Fin 2) * 200 + 1 * y1.val = y1.val; omega

theorem read4 (c : Dev nD) (t : Fin cfg0.N) (y0 : Fin 200) :
    iblk0 V c 4 t (ix1 y0) = (V c main_arg6 : S200.Idx → EReal) (ix1 y0) := by
  have hf := idx_facts t
  show (V c main_arg6 : S200.Idx → EReal) (((cfg0.win 4).blk t).view.emb (ix1 y0)) = _
  refine congrArg _ (funext fun a => Fin.ext ?_)
  match a with
    | ⟨0, _⟩ => show win0_4.index t (0 : Fin 1) * 200 + 1 * y0.val = y0.val; omega

theorem read5 (c : Dev nD) (t : Fin cfg0.N) (y0 : Fin 9) (y1 : Fin 200) (y2 : Fin 32) :
    iblk0 V c 5 t (ix3 y0 y1 y2) = (V c main_v22 : S9x200x32.Idx → EReal) (ix3 y0 y1 y2) := by
  have hf := idx_facts t
  show (V c main_v22 : S9x200x32.Idx → EReal) (((cfg0.win 5).blk t).view.emb (ix3 y0 y1 y2)) = _
  refine congrArg _ (funext fun a => Fin.ext ?_)
  match a with
    | ⟨0, _⟩ => show win0_5.index t (0 : Fin 3) * 9 + 1 * y0.val = y0.val; omega
    | ⟨1, _⟩ => show win0_5.index t (1 : Fin 3) * 200 + 1 * y1.val = y1.val; omega
    | ⟨2, _⟩ => show win0_5.index t (2 : Fin 3) * 32 + 1 * y2.val = y2.val; omega

theorem read6 (c : Dev nD) (t : Fin cfg0.N) (y0 : Fin 9) (y1 : Fin 32) :
    iblk0 V c 6 t (ix2 y0 y1) = (V c main_v24 : S9x32.Idx → EReal) (ix2 y0 y1) := by
  have hf := idx_facts t
  show (V c main_v24 : S9x32.Idx → EReal) (((cfg0.win 6).blk t).view.emb (ix2 y0 y1)) = _
  refine congrArg _ (funext fun a => Fin.ext ?_)
  match a with
    | ⟨0, _⟩ => show win0_6.index t (0 : Fin 2) * 9 + 1 * y0.val = y0.val; omega
    | ⟨1, _⟩ => show win0_6.index t (1 : Fin 2) * 32 + 1 * y1.val = y1.val; omega

theorem read7 (c : Dev nD) (t : Fin cfg0.N) (y0 : Fin 32) (y1 : Fin 192) (y2 : Fin 200) :
    iblk0 V c 7 t (ix3 y0 y1 y2) = (V c main_v25 : S32x192x200.Idx → EReal) (ix3 y0 y1 y2) := by
  have hf := idx_facts t
  show (V c main_v25 : S32x192x200.Idx → EReal) (((cfg0.win 7).blk t).view.emb (ix3 y0 y1 y2)) = _
  refine congrArg _ (funext fun a => Fin.ext ?_)
  match a with
    | ⟨0, _⟩ => show win0_7.index t (0 : Fin 3) * 32 + 1 * y0.val = y0.val; omega
    | ⟨1, _⟩ => show win0_7.index t (1 : Fin 3) * 192 + 1 * y1.val = y1.val; omega
    | ⟨2, _⟩ => show win0_7.index t (2 : Fin 3) * 200 + 1 * y2.val = y2.val; omega

theorem read8 (c : Dev nD) (t : Fin cfg0.N) (y0 : Fin 200) :
    iblk0 V c 8 t (ix1 y0) = (V c main_arg10 : S200.Idx → EReal) (ix1 y0) := by
  have hf := idx_facts t
  show (V c main_arg10 : S200.Idx → EReal) (((cfg0.win 8).blk t).view.emb (ix1 y0)) = _
  refine congrArg _ (funext fun a => Fin.ext ?_)
  match a with
    | ⟨0, _⟩ => show win0_8.index t (0 : Fin 1) * 200 + 1 * y0.val = y0.val; omega

theorem read9 (c : Dev nD) (t : Fin cfg0.N) (y0 : Fin 1) :
    iblk0 V c 9 t (ix1 y0) = (V c main_arg11 : S1.Idx → EReal) (ix1 y0) := by
  have hf := idx_facts t
  show (V c main_arg11 : S1.Idx → EReal) (((cfg0.win 9).blk t).view.emb (ix1 y0)) = _
  refine congrArg _ (funext fun a => Fin.ext ?_)
  match a with
    | ⟨0, _⟩ => show win0_9.index t (0 : Fin 1) * 1 + 1 * y0.val = y0.val; omega

theorem read10 (c : Dev nD) (t : Fin cfg0.N) (y0 : Fin 1) :
    iblk0 V c 10 t (ix1 y0) = (V c main_arg12 : S1.Idx → EReal) (ix1 y0) := by
  have hf := idx_facts t
  show (V c main_arg12 : S1.Idx → EReal) (((cfg0.win 10).blk t).view.emb (ix1 y0)) = _
  refine congrArg _ (funext fun a => Fin.ext ?_)
  match a with
    | ⟨0, _⟩ => show win0_10.index t (0 : Fin 1) * 1 + 1 * y0.val = y0.val; omega

theorem read11 (c : Dev nD) (t : Fin cfg0.N) (y0 : Fin 1) :
    iblk0 V c 11 t (ix1 y0) = (V c main_arg13 : S1.Idx → EReal) (ix1 y0) := by
  have hf := idx_facts t
  show (V c main_arg13 : S1.Idx → EReal) (((cfg0.win 11).blk t).view.emb (ix1 y0)) = _
  refine congrArg _ (funext fun a => Fin.ext ?_)
  match a with
    | ⟨0, _⟩ => show win0_11.index t (0 : Fin 1) * 1 + 1 * y0.val = y0.val; omega

theorem read12 (c : Dev nD) (t : Fin cfg0.N) (y0 : Fin 1) :
    iblk0 V c 12 t (ix1 y0) = (V c main_arg14 : S1.Idx → EReal) (ix1 y0) := by
  have hf := idx_facts t
  show (V c main_arg14 : S1.Idx → EReal) (((cfg0.win 12).blk t).view.emb (ix1 y0)) = _
  refine congrArg _ (funext fun a => Fin.ext ?_)
  match a with
    | ⟨0, _⟩ => show win0_12.index t (0 : Fin 1) * 1 + 1 * y0.val = y0.val; omega

theorem read13 (c : Dev nD) (t : Fin cfg0.N) (y0 : Fin 32) :
    iblk0 V c 13 t (ix1 y0) = (V c main_arg15 : S32.Idx → EReal) (ix1 y0) := by
  have hf := idx_facts t
  show (V c main_arg15 : S32.Idx → EReal) (((cfg0.win 13).blk t).view.emb (ix1 y0)) = _
  refine congrArg _ (funext fun a => Fin.ext ?_)
  match a with
    | ⟨0, _⟩ => show win0_13.index t (0 : Fin 1) * 32 + 1 * y0.val = y0.val; omega

theorem read14 (c : Dev nD) (t : Fin cfg0.N) (y0 : Fin 32) :
    iblk0 V c 14 t (ix1 y0) = (V c main_arg16 : S32.Idx → EReal) (ix1 y0) := by
  have hf := idx_facts t
  show (V c main_arg16 : S32.Idx → EReal) (((cfg0.win 14).blk t).view.emb (ix1 y0)) = _
  refine congrArg _ (funext fun a => Fin.ext ?_)
  match a with
    | ⟨0, _⟩ => show win0_14.index t (0 : Fin 1) * 32 + 1 * y0.val = y0.val; omega

theorem read15 (c : Dev nD) (t : Fin cfg0.N) (y0 : Fin 32) :
    iblk0 V c 15 t (ix1 y0) = (V c main_arg17 : S32.Idx → EReal) (ix1 y0) := by
  have hf := idx_facts t
  show (V c main_arg17 : S32.Idx → EReal) (((cfg0.win 15).blk t).view.emb (ix1 y0)) = _
  refine congrArg _ (funext fun a => Fin.ext ?_)
  match a with
    | ⟨0, _⟩ => show win0_15.index t (0 : Fin 1) * 32 + 1 * y0.val = y0.val; omega

theorem read16 (c : Dev nD) (t : Fin cfg0.N) (y0 : Fin 32) :
    iblk0 V c 16 t (ix1 y0) = (V c main_arg18 : S32.Idx → EReal) (ix1 y0) := by
  have hf := idx_facts t
  show (V c main_arg18 : S32.Idx → EReal) (((cfg0.win 16).blk t).view.emb (ix1 y0)) = _
  refine congrArg _ (funext fun a => Fin.ext ?_)
  match a with
    | ⟨0, _⟩ => show win0_16.index t (0 : Fin 1) * 32 + 1 * y0.val = y0.val; omega

theorem read17 (c : Dev nD) (t : Fin cfg0.N) (y0 : Fin 200) :
    iblk0 V c 17 t (ix1 y0) = (V c main_arg19 : S200.Idx → EReal) (ix1 y0) := by
  have hf := idx_facts t
  show (V c main_arg19 : S200.Idx → EReal) (((cfg0.win 17).blk t).view.emb (ix1 y0)) = _
  refine congrArg _ (funext fun a => Fin.ext ?_)
  match a with
    | ⟨0, _⟩ => show win0_17.index t (0 : Fin 1) * 200 + 1 * y0.val = y0.val; omega

theorem read18 (c : Dev nD) (t : Fin cfg0.N) (y0 : Fin 200) :
    iblk0 V c 18 t (ix1 y0) = (V c main_arg20 : S200.Idx → EReal) (ix1 y0) := by
  have hf := idx_facts t
  show (V c main_arg20 : S200.Idx → EReal) (((cfg0.win 18).blk t).view.emb (ix1 y0)) = _
  refine congrArg _ (funext fun a => Fin.ext ?_)
  match a with
    | ⟨0, _⟩ => show win0_18.index t (0 : Fin 1) * 200 + 1 * y0.val = y0.val; omega

theorem read19 (c : Dev nD) (t : Fin cfg0.N) (y0 : Fin 200) :
    iblk0 V c 19 t (ix1 y0) = (V c main_arg21 : S200.Idx → EReal) (ix1 y0) := by
  have hf := idx_facts t
  show (V c main_arg21 : S200.Idx → EReal) (((cfg0.win 19).blk t).view.emb (ix1 y0)) = _
  refine congrArg _ (funext fun a => Fin.ext ?_)
  match a with
    | ⟨0, _⟩ => show win0_19.index t (0 : Fin 1) * 200 + 1 * y0.val = y0.val; omega

theorem read20 (c : Dev nD) (t : Fin cfg0.N) (y0 : Fin 200) :
    iblk0 V c 20 t (ix1 y0) = (V c main_arg22 : S200.Idx → EReal) (ix1 y0) := by
  have hf := idx_facts t
  show (V c main_arg22 : S200.Idx → EReal) (((cfg0.win 20).blk t).view.emb (ix1 y0)) = _
  refine congrArg _ (funext fun a => Fin.ext ?_)
  match a with
    | ⟨0, _⟩ => show win0_20.index t (0 : Fin 1) * 200 + 1 * y0.val = y0.val; omega

/-- What point `t` writes back is block `t` of the hidden array. -/
theorem flushed_eq (c : Dev nD) (t : Fin cfg0.N) :
    (dat0 V c).flushed 21 t = ((cfg0.win 21).blk t).view.read (Elt Ideal) (Harr V c) := by
  show (cfg0.win 21).cut (grid0.coords t) ((dat0 V c).after 21 t) = _
  rw [after0_21]
  funext y
  obtain ⟨r, e, rfl⟩ : ∃ (r : Fin 128) (e : Fin 200), y = ix2 r e := ⟨y 0, y 1, eq_ix2 y⟩
  have hf := idx_facts t
  show out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 r e) = Harr V c (((cfg0.win 21).blk t).view.emb (ix2 r e))
  refine (Cert.BodyDense.out_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) r e).trans ?_
  have hb : (((cfg0.win 21).blk t).view.emb (ix2 r e) : S1024x200.Idx) = ix2 (⟨t.val * 128 + r.val, by have hN : cfg0.N = 8 := N_0; have := t.isLt; have := r.isLt; omega⟩ : Fin 1024) e := by
    funext a; apply Fin.ext
    match a with
    | ⟨0, _⟩ => show win0_21.index t (0 : Fin 2) * 128 + 1 * r.val = t.val * 128 + r.val; omega
    | ⟨1, _⟩ => show win0_21.index t (1 : Fin 2) * 200 + 1 * e.val = e.val; omega
  rw [hb]
  show _ = Hrow V c (⟨t.val * 128 + r.val, by have hN : cfg0.N = 8 := N_0; have := t.isLt; have := r.isLt; omega⟩ : Fin 1024) e
  unfold Hrow
  refine h_congr ?_ ?_ ?_ ?_ ?_ ?_ ?_ ?_ ?_ ?_ ?_ ?_ ?_ ?_ ?_ ?_ ?_ ?_ e
  · funext j; exact read0 V c t r j
  · funext j; exact read1 V c t r j
  · funext j; exact read2 V c t r j
  · funext k e'; exact read3 V c t k e'
  · funext e'; exact read4 V c t e'
  · funext w j o; exact read5 V c t w j o
  · funext w o; exact read6 V c t w o
  · funext o p e'; exact read7 V c t o p e'
  · funext e'; exact read8 V c t e'
  · exact read11 V c t 0
  · rw [read9 V c t 0, read12 V c t 0]
  · exact read10 V c t 0
  · funext o; exact read15 V c t o
  · funext o; rw [read13 V c t o, read16 V c t o]
  · funext o; exact read14 V c t o
  · funext e'; exact read19 V c t e'
  · funext e'; rw [read17 V c t e', read20 V c t e']
  · funext e'; exact read18 V c t e'

/-- An index of the hidden array is in point `t`'s block iff its row is one of the block's 128 rows. -/
theorem mem_blk (t : Fin cfg0.N) (i : S1024x200.Idx) :
    i ∈ ((cfg0.win 21).blk t).view.set ↔ ∀ a : Fin 2, win0_21.index t a * S128x200.size a ≤ (i a).val ∧ (i a).val < win0_21.index t a * S128x200.size a + S128x200.size a := by
  show i ∈ ((View.whole main_v26).slice (win0_21.rect t)).set ↔ _
  rw [View.set_slice_whole, Rect.mem_set_unit]
  exact Iff.rfl

/-- The eight blocks cover the array: row `b` is in the block of point `b / 128`. -/
theorem cover (i : S1024x200.Idx) :
    ∃ t : Fin cfg0.N, (cfg0.win 21).flush t = true ∧ i ∈ ((cfg0.win 21).blk t).view.set := by
  have hN : cfg0.N = 8 := N_0
  have hi0 : (i 0).val < 1024 := (i 0).isLt
  have hi1 : (i 1).val < 200 := (i 1).isLt
  obtain ⟨t, ht⟩ : ∃ t : Fin cfg0.N, t.val = (i 0).val / 128 := ⟨⟨(i 0).val / 128, by omega⟩, rfl⟩
  have hf := idx_facts t
  refine ⟨t, flush0_21 t, ?_⟩
  rw [mem_blk]
  intro a
  match a with
  | ⟨0, _⟩ => show win0_21.index t (0 : Fin 2) * 128 ≤ (i 0).val ∧ (i 0).val < win0_21.index t (0 : Fin 2) * 128 + 128; omega
  | ⟨1, _⟩ => show win0_21.index t (1 : Fin 2) * 200 ≤ (i 1).val ∧ (i 1).val < win0_21.index t (1 : Fin 2) * 200 + 200; omega

/-- The hidden array after the first region. -/
theorem final (c : Dev nD) : (dat0 V c).arrAt 21 cfg0.N = Harr V c :=
  (dat0 V c).arrAt_eq_of_cover 21 (Harr V c) (fun t _ => flushed_eq V c t) (cover)

end Cert.DenseArr

end
-- ==== Proof.KernelValue.lean ====
/-
  The kernel program's result at one entry, over the arrays it was launched with.

  Three facts are composed.  The result at (b, n) is the score of sample b's hidden row, as the first region left it,
  against entity n's row and bias.  The hidden array the first region leaves is, row by row, the specification's hidden
  row of the arrays that region finds.  And what that region finds are the launch arrays themselves, moved only by the
  operations that run before it:  the three gathered arrays are the gathers of the entity and relation tables at the
  three index vectors (kept as they are, never opened), the second layer's weights and bias are found tap-major, the
  last layer's weights as (channel, position, feature), and every other parameter is found as launched.
-/
import proofs.«164159_j23862838297042_1_alg».proof.Proof.Gen.KernelIdeal.Frame
import proofs.«164159_j23862838297042_1_alg».proof.Proof.Spec
import proofs.«164159_j23862838297042_1_alg».proof.Proof.ScoreSide
import proofs.«164159_j23862838297042_1_alg».proof.Proof.DenseArr
import proofs.«164159_j23862838297042_1_alg».proof.Proof.HostPre
import Idealize.ShloMosaic.Lib.ValueIdx

noncomputable section

namespace Cert.KernelValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The hidden array after the first region, at (b, e): the specification's hidden row of sample b over the launch
    arrays, each normalisation's scale spelt with the reciprocal square root. -/
theorem hidden_apply (c : Dev nD) (b : Fin 1024) (e : Fin 200) :
    (W2 (F := Ideal) m ρ c (Proc.devRef .tc main_v26) : S1024x200.Idx → EReal) (ix2 b e)
      = Cert.Spec.h (fun j => Cert.HostPre.gatherE (m ((c : Thread nD τ).loc main_arg3)) (m ((c : Thread nD τ).loc main_arg0)) (ix2 b j))
             (fun j => Cert.HostPre.gatherE (m ((c : Thread nD τ).loc main_arg3)) (m ((c : Thread nD τ).loc main_arg2)) (ix2 b j))
             (fun j => Cert.HostPre.gatherR (m ((c : Thread nD τ).loc main_arg4)) (m ((c : Thread nD τ).loc main_arg1)) (ix2 b j))
             (fun k e => (m ((c : Thread nD τ).loc main_arg5) : S400x200.Idx → EReal) (ix2 k e)) (fun e => (m ((c : Thread nD τ).loc main_arg6) : S200.Idx → EReal) (ix1 e))
             (fun w j o => (m ((c : Thread nD τ).loc main_arg7) : S200x288.Idx → EReal) (ix2 j (Cert.Spec.tapIdx o w))) (fun w o => (m ((c : Thread nD τ).loc main_arg8) : S288.Idx → EReal) (ix1 (Cert.Spec.tapIdx o w)))
             (fun o p e => (m ((c : Thread nD τ).loc main_arg9) : S6144x200.Idx → EReal) (ix2 (Cert.Spec.flatIdx o p) e)) (fun e => (m ((c : Thread nD τ).loc main_arg10) : S200.Idx → EReal) (ix1 e))
             ((m ((c : Thread nD τ).loc main_arg13) : S1.Idx → EReal) (ix1 0)) (Cert.Spec.scaleK ((m ((c : Thread nD τ).loc main_arg11) : S1.Idx → EReal) (ix1 0)) ((m ((c : Thread nD τ).loc main_arg14) : S1.Idx → EReal) (ix1 0))) ((m ((c : Thread nD τ).loc main_arg12) : S1.Idx → EReal) (ix1 0))
             (fun o => (m ((c : Thread nD τ).loc main_arg17) : S32.Idx → EReal) (ix1 o)) (fun o => Cert.Spec.scaleK ((m ((c : Thread nD τ).loc main_arg15) : S32.Idx → EReal) (ix1 o)) ((m ((c : Thread nD τ).loc main_arg18) : S32.Idx → EReal) (ix1 o))) (fun o => (m ((c : Thread nD τ).loc main_arg16) : S32.Idx → EReal) (ix1 o))
             (fun e => (m ((c : Thread nD τ).loc main_arg21) : S200.Idx → EReal) (ix1 e)) (fun e => Cert.Spec.scaleK ((m ((c : Thread nD τ).loc main_arg19) : S200.Idx → EReal) (ix1 e)) ((m ((c : Thread nD τ).loc main_arg22) : S200.Idx → EReal) (ix1 e))) (fun e => (m ((c : Thread nD τ).loc main_arg20) : S200.Idx → EReal) (ix1 e)) e := by
  have h1 : (W2 (F := Ideal) m ρ c (Proc.devRef .tc main_v26) : S1024x200.Idx → EReal)
      = Cert.DenseArr.Harr (V1 m ρ) c :=
    (W2_arr m ρ c 21).trans (Cert.DenseArr.final (V1 m ρ) c)
  rw [h1]
  show Cert.DenseArr.Hrow (V1 m ρ) c b e = _
  unfold Cert.DenseArr.Hrow
  refine Cert.DenseArr.h_congr ?_ ?_ ?_ ?_ ?_ ?_ ?_ ?_ ?_ ?_ ?_ ?_ ?_ ?_ ?_ ?_ ?_ ?_ e
  · funext j; exact congrFun (Cert.HostPre.V1_es m ρ c) (ix2 b j)
  · funext j; exact congrFun (Cert.HostPre.V1_ec m ρ c) (ix2 b j)
  · funext j; exact congrFun (Cert.HostPre.V1_rr m ρ c) (ix2 b j)
  · funext k e'; exact congrFun (Cert.HostPre.V1_arg5 m ρ c) (ix2 k e')
  · funext e'; exact congrFun (Cert.HostPre.V1_arg6 m ρ c) (ix1 e')
  · funext w j o; exact Cert.HostPre.V1_fc1t m ρ c w j o
  · funext w o; exact Cert.HostPre.V1_fc1bt m ρ c w o
  · funext o p e'; exact Cert.HostPre.V1_fcw3 m ρ c o p e'
  · funext e'; exact congrFun (Cert.HostPre.V1_arg10 m ρ c) (ix1 e')
  · exact congrFun (Cert.HostPre.V1_arg13 m ρ c) (ix1 0)
  · exact congrArg₂ Cert.Spec.scaleK (congrFun (Cert.HostPre.V1_arg11 m ρ c) (ix1 0))
      (congrFun (Cert.HostPre.V1_arg14 m ρ c) (ix1 0))
  · exact congrFun (Cert.HostPre.V1_arg12 m ρ c) (ix1 0)
  · funext o; exact congrFun (Cert.HostPre.V1_arg17 m ρ c) (ix1 o)
  · funext o; exact congrArg₂ Cert.Spec.scaleK (congrFun (Cert.HostPre.V1_arg15 m ρ c) (ix1 o))
      (congrFun (Cert.HostPre.V1_arg18 m ρ c) (ix1 o))
  · funext o; exact congrFun (Cert.HostPre.V1_arg16 m ρ c) (ix1 o)
  · funext e'; exact congrFun (Cert.HostPre.V1_arg21 m ρ c) (ix1 e')
  · funext e'; exact congrArg₂ Cert.Spec.scaleK (congrFun (Cert.HostPre.V1_arg19 m ρ c) (ix1 e'))
      (congrFun (Cert.HostPre.V1_arg22 m ρ c) (ix1 e'))
  · funext e'; exact congrFun (Cert.HostPre.V1_arg20 m ρ c) (ix1 e')

/-- The kernel program's result at (b, n) is the specification's score of sample b against entity n, over the launch
    arrays: the gathered rows as the gathers deliver them, each normalisation's scale spelt with the reciprocal square
    root. -/
theorem kernel_apply (c : Dev nD) (b : Fin 1024) (n : Fin 50000) :
    (W9 (F := Ideal) m ρ c (Proc.devRef .tc main_v31) : S1024x50000.Idx → EReal) (ix2 b n)
      = Cert.Spec.out
          (Cert.Spec.h (fun j => Cert.HostPre.gatherE (m ((c : Thread nD τ).loc main_arg3)) (m ((c : Thread nD τ).loc main_arg0)) (ix2 b j))
             (fun j => Cert.HostPre.gatherE (m ((c : Thread nD τ).loc main_arg3)) (m ((c : Thread nD τ).loc main_arg2)) (ix2 b j))
             (fun j => Cert.HostPre.gatherR (m ((c : Thread nD τ).loc main_arg4)) (m ((c : Thread nD τ).loc main_arg1)) (ix2 b j))
             (fun k e => (m ((c : Thread nD τ).loc main_arg5) : S400x200.Idx → EReal) (ix2 k e)) (fun e => (m ((c : Thread nD τ).loc main_arg6) : S200.Idx → EReal) (ix1 e))
             (fun w j o => (m ((c : Thread nD τ).loc main_arg7) : S200x288.Idx → EReal) (ix2 j (Cert.Spec.tapIdx o w))) (fun w o => (m ((c : Thread nD τ).loc main_arg8) : S288.Idx → EReal) (ix1 (Cert.Spec.tapIdx o w)))
             (fun o p e => (m ((c : Thread nD τ).loc main_arg9) : S6144x200.Idx → EReal) (ix2 (Cert.Spec.flatIdx o p) e)) (fun e => (m ((c : Thread nD τ).loc main_arg10) : S200.Idx → EReal) (ix1 e))
             ((m ((c : Thread nD τ).loc main_arg13) : S1.Idx → EReal) (ix1 0)) (Cert.Spec.scaleK ((m ((c : Thread nD τ).loc main_arg11) : S1.Idx → EReal) (ix1 0)) ((m ((c : Thread nD τ).loc main_arg14) : S1.Idx → EReal) (ix1 0))) ((m ((c : Thread nD τ).loc main_arg12) : S1.Idx → EReal) (ix1 0))
             (fun o => (m ((c : Thread nD τ).loc main_arg17) : S32.Idx → EReal) (ix1 o)) (fun o => Cert.Spec.scaleK ((m ((c : Thread nD τ).loc main_arg15) : S32.Idx → EReal) (ix1 o)) ((m ((c : Thread nD τ).loc main_arg18) : S32.Idx → EReal) (ix1 o))) (fun o => (m ((c : Thread nD τ).loc main_arg16) : S32.Idx → EReal) (ix1 o))
             (fun e => (m ((c : Thread nD τ).loc main_arg21) : S200.Idx → EReal) (ix1 e)) (fun e => Cert.Spec.scaleK ((m ((c : Thread nD τ).loc main_arg19) : S200.Idx → EReal) (ix1 e)) ((m ((c : Thread nD τ).loc main_arg22) : S200.Idx → EReal) (ix1 e))) (fun e => (m ((c : Thread nD τ).loc main_arg20) : S200.Idx → EReal) (ix1 e)))
          (fun e => (m ((c : Thread nD τ).loc main_arg3) : S50000x200.Idx → EReal) (ix2 n e)) ((m ((c : Thread nD τ).loc main_arg23) : S50000.Idx → EReal) (ix1 n)) := by
  refine (Cert.ScoreSide.score_apply m ρ c b n).trans ?_
  exact congrArg
    (fun hrow => Cert.Spec.out hrow (fun e => (m ((c : Thread nD τ).loc main_arg3) : S50000x200.Idx → EReal) (ix2 n e)) ((m ((c : Thread nD τ).loc main_arg23) : S50000.Idx → EReal) (ix1 n)))
    (funext fun e => hidden_apply m ρ c b e)

end Cert.KernelValue

end
-- ==== Proof.Claims.lean ====
/-
  The five claims, from the pieces.

  Both programs compute, entry by entry, the specification's score (`Cert.Spec.out` of `Cert.Spec.h`):  the reference by
  following its host operations backwards from the result, the kernel program by its two regions and the host operations
  around them.  The two readings differ in two places only.  The three row gathers are spelt by each program with its own
  copy of the same operations: the two spellings are one term.  Each of the three normalisation scales is a quotient by
  the square root of `v + eps` in the reference and a product with the reciprocal square root of `v + eps` in the
  kernel: the two agree on the extended reals when `0 ≤ v`, which the precondition says of every entry of the three
  variance vectors.  So from memories that agree on the 24 arguments the two result arrays are equal, and the common
  value can be taken to be the kernel program's result array.
  The three frame claims are the programs' runs with the result dropped; nothing was rewritten between the kernel as
  printed and its idealisation, so that claim is trivial.
-/
import proofs.«164159_j23862838297042_1_alg».proof.Defs
import proofs.«164159_j23862838297042_1_alg».proof.Proof.Gen.Kernel
import proofs.«164159_j23862838297042_1_alg».proof.Proof.Gen.Kernel.Frame
import proofs.«164159_j23862838297042_1_alg».proof.Proof.Gen.KernelIdeal
import proofs.«164159_j23862838297042_1_alg».proof.Proof.Gen.KernelIdeal.Frame
import proofs.«164159_j23862838297042_1_alg».proof.Proof.Gen.ReferenceIdeal
import proofs.«164159_j23862838297042_1_alg».proof.Proof.Gen.ReferenceIdeal.Run
import proofs.«164159_j23862838297042_1_alg».proof.Proof.Gen.ReferenceIdeal.Read
import proofs.«164159_j23862838297042_1_alg».proof.Proof.Gen.Pre_finite_inputs
import proofs.«164159_j23862838297042_1_alg».proof.Proof.Spec
import proofs.«164159_j23862838297042_1_alg».proof.Proof.Scales
import proofs.«164159_j23862838297042_1_alg».proof.Proof.PreFacts
import proofs.«164159_j23862838297042_1_alg».proof.Proof.KernelRun
import proofs.«164159_j23862838297042_1_alg».proof.Proof.HostPre
import proofs.«164159_j23862838297042_1_alg».proof.Proof.RefSide
import proofs.«164159_j23862838297042_1_alg».proof.Proof.KernelValue
import Idealize.ShloMosaic.Lib.ValueIdx

noncomputable section

open Idealize.ShloMosaic Idealize.ShloMosaic.ValueIdx Idealize.ShloMosaic.TcCoe Idealize.SL.Sem

/-! ## The reference's value at an entry, in the kernel side's spelling -/

namespace Cert.Proof.RefValue

open Cert.ReferenceIdeal Cert.ReferenceIdeal.Read

variable (x0 x1 x2 : (⟨S1024, .i32⟩ : BufTy).Contents (Elt Ideal))
  (x3 : (⟨S50000x200, .f32⟩ : BufTy).Contents (Elt Ideal))
  (x4 x5 : (⟨S400x200, .f32⟩ : BufTy).Contents (Elt Ideal))
  (x6 : (⟨S200, .f32⟩ : BufTy).Contents (Elt Ideal))
  (x7 : (⟨S200x288, .f32⟩ : BufTy).Contents (Elt Ideal))
  (x8 : (⟨S288, .f32⟩ : BufTy).Contents (Elt Ideal))
  (x9 : (⟨S6144x200, .f32⟩ : BufTy).Contents (Elt Ideal))
  (x10 : (⟨S200, .f32⟩ : BufTy).Contents (Elt Ideal))
  (x11 x12 x13 x14 : (⟨S1, .f32⟩ : BufTy).Contents (Elt Ideal))
  (x15 x16 x17 x18 : (⟨S32, .f32⟩ : BufTy).Contents (Elt Ideal))
  (x19 x20 x21 x22 : (⟨S200, .f32⟩ : BufTy).Contents (Elt Ideal))
  (x23 : (⟨S50000, .f32⟩ : BufTy).Contents (Elt Ideal))

/-- The reference gathers the first entity rows exactly as the kernel program's host side does. -/
theorem gather_es : val_main_v6 (F := Ideal) x0 x3 = Cert.HostPre.gatherE x3 x0 := rfl

/-- The same for the second entity rows. -/
theorem gather_ec : val_main_v13 (F := Ideal) x2 x3 = Cert.HostPre.gatherE x3 x2 := rfl

/-- The same for the relation rows. -/
theorem gather_rr : val_main_v20 (F := Ideal) x1 x4 = Cert.HostPre.gatherR x4 x1 := rfl

/-- Under the precondition (the three variance vectors are not negative) the reference's result at (b, n) is the
    specification's score with the gathers in the kernel side's spelling and each scale spelt with the reciprocal square
    root: a quotient by the square root of `v + eps` is the product with its reciprocal square root when `0 ≤ v`. -/
theorem ref_value
    (hpre : Cert.Pre_finite_inputs.fn (F := Ideal) x0 x1 x2 x3 x4 x5 x6 x7 x8 x9 x10 x11 x12 x13 x14 x15 x16 x17 x18 x19 x20 x21 x22 x23 = (fun _ => 1#1))
    (b : Fin 1024) (n : Fin 50000) :
    val_main_v109 (F := Ideal) x0 x1 x2 x3 x4 x5 x6 x7 x8 x9 x10 x11 x12 x13 x14 x15 x16 x17 x18 x19 x20 x21 x22 x23 (ix2 b n)
      = Cert.Spec.out
          (Cert.Spec.h (fun j => Cert.HostPre.gatherE x3 x0 (ix2 b j)) (fun j => Cert.HostPre.gatherE x3 x2 (ix2 b j))
             (fun j => Cert.HostPre.gatherR x4 x1 (ix2 b j))
             (fun k e => x5 (ix2 k e)) (fun e => x6 (ix1 e))
             (fun w j o => x7 (ix2 j (Cert.Spec.tapIdx o w))) (fun w o => x8 (ix1 (Cert.Spec.tapIdx o w)))
             (fun o p e => x9 (ix2 (Cert.Spec.flatIdx o p) e)) (fun e => x10 (ix1 e))
             (x13 (ix1 0)) (Cert.Spec.scaleK (x11 (ix1 0)) (x14 (ix1 0))) (x12 (ix1 0))
             (fun o => x17 (ix1 o)) (fun o => Cert.Spec.scaleK (x15 (ix1 o)) (x18 (ix1 o))) (fun o => x16 (ix1 o))
             (fun e => x21 (ix1 e)) (fun e => Cert.Spec.scaleK (x19 (ix1 e)) (x22 (ix1 e))) (fun e => x20 (ix1 e)))
          (fun e => x3 (ix2 n e)) (x23 (ix1 n)) := by
  obtain ⟨v14, v18, v22⟩ := Cert.PreFacts.var_nonneg x0 x1 x2 x3 x4 x5 x6 x7 x8 x9 x10 x11 x12 x13 x14 x15 x16 x17 x18 x19 x20 x21 x22 x23 hpre
  have e14 : Cert.Spec.scaleR (x11 (ix1 0)) (x14 (ix1 0)) = Cert.Spec.scaleK (x11 (ix1 0)) (x14 (ix1 0)) :=
    Cert.Scales.scaleR_eq_scaleK _ _ (v14 _)
  have e18 : (fun o : Fin 32 => Cert.Spec.scaleR (x15 (ix1 o)) (x18 (ix1 o)))
      = fun o : Fin 32 => Cert.Spec.scaleK (x15 (ix1 o)) (x18 (ix1 o)) :=
    funext fun o => Cert.Scales.scaleR_eq_scaleK _ _ (v18 _)
  have e22 : (fun e : Fin 200 => Cert.Spec.scaleR (x19 (ix1 e)) (x22 (ix1 e)))
      = fun e : Fin 200 => Cert.Spec.scaleK (x19 (ix1 e)) (x22 (ix1 e)) :=
    funext fun e => Cert.Scales.scaleR_eq_scaleK _ _ (v22 _)
  rw [Cert.RefSide.ref_apply, gather_es, gather_ec, gather_rr, e14, e18, e22]

end Cert.Proof.RefValue

/-! ## The five claims -/

namespace Cert.Proof.Pieces

open Cert.KernelIdeal Cert.KernelIdeal.Gen

/-- The two programs' results agree: the reference's result array, from a memory that agrees with the kernel program's on
    the 24 arguments, is the kernel program's result array, entry by entry the specification's score. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) = (fun _ => 1#1))
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)
      ∧ m' ((c.tc : Thread Cert.ReferenceIdeal.nD Cert.ReferenceIdeal.τ).loc Cert.ReferenceIdeal.main_arg22) = m ((c.tc : Thread nD τ).loc main_arg22)
      ∧ m' ((c.tc : Thread Cert.ReferenceIdeal.nD Cert.ReferenceIdeal.τ).loc Cert.ReferenceIdeal.main_arg23) = m ((c.tc : Thread nD τ).loc main_arg23)) :
    Cert.ReferenceIdeal.Value.res_main_v109 m' c = W9 (F := Ideal) m ρ c (Proc.devRef .tc main_v31) := by
  obtain ⟨h0, h1, h2, h3, h4, h5, h6, h7, h8, h9, h10, h11, h12, h13, h14, h15, h16, h17, h18, h19, h20, h21, h22, h23⟩ := hag
  refine (Cert.ReferenceIdeal.Read.val_main_v109_eq m' c).trans ?_
  rw [h0, h1, h2, h3, h4, h5, h6, h7, h8, h9, h10, h11, h12, h13, h14, h15, h16, h17, h18, h19, h20, h21, h22, h23]
  funext i
  obtain ⟨b, n, rfl⟩ : ∃ (b : Fin 1024) (n : Fin 50000), i = ix2 b n := ⟨i 0, i 1, eq_ix2 i⟩
  exact (Cert.Proof.RefValue.ref_value _ _ _ _ _ _ _ _ _ _ _ _ _ _ _ _ _ _ _ _ _ _ _ _ hpre b n).trans
    (Cert.KernelValue.kernel_apply m ρ c b n).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run, from memories agreeing on the arguments, to the same result array: the kernel program's. -/
theorem algebraic : Cert.algebraic_KernelIdeal_ReferenceIdeal := by
  intro m ρ m' ρ' hpre hagree
  refine ⟨fun c => W9 (F := Ideal) m ρ c (Proc.devRef .tc main_v31), Cert.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m ρ m' c (hpre c) (hagree c)

end Cert.Proof.Pieces

end
-- ==== Proof.lean ====
/-
  A convolutional knowledge-graph scorer over 1024 samples and 50000 entities, as a kernel program of two regions and as
  a reference of whole-array host operations: the two compute the same array on the extended reals.

  One sample's hidden row depends on that sample's three gathered rows only:  the two entity rows side by side go through
  a linear layer and a one-channel batch norm;  the relation row goes through a second linear layer and is read as 32
  filters of 9 taps;  each filter slides over the normalised row, the 32 x 192 outputs are normalised per channel,
  flattened channel-major, sent through a last linear layer, normalised per feature and cut at zero.  A score is the
  logistic function of the inner product of a hidden row with an entity row, plus that entity's bias.  The
  specification (Proof/Spec.lean) states this once, row by row.
  The kernel program computes the hidden rows in its first region, 128 samples at a time with the taps and the channels
  unrolled, and the scores in its second, 2048 entities at a time over a zero-padded entity table whose padding the
  final slice removes;  the reference does the same with whole-array operations.  Sums are regrouped and reordered,
  which on the extended reals needs nothing;  the only law that needs a hypothesis is that a quotient by the square root
  of `v + eps` is the product with the reciprocal square root, which holds for `0 ≤ v`: the precondition says so of the
  three variance vectors.  The claims are assembled in Proof/Claims.lean; here they stand behind the witnesses of the
  programs' stated facts.
-/
import proofs.«164159_j23862838297042_1_alg».proof.Defs
import proofs.«164159_j23862838297042_1_alg».proof.Proof.Gen.Kernel
import proofs.«164159_j23862838297042_1_alg».proof.Proof.Gen.Kernel.Skeleton
import proofs.«164159_j23862838297042_1_alg».proof.Proof.Gen.Kernel.Launch
import proofs.«164159_j23862838297042_1_alg».proof.Proof.Gen.Kernel.Points
import proofs.«164159_j23862838297042_1_alg».proof.Proof.Gen.Kernel.Frame
import proofs.«164159_j23862838297042_1_alg».proof.Proof.Gen.KernelIdeal
import proofs.«164159_j23862838297042_1_alg».proof.Proof.Gen.KernelIdeal.Skeleton
import proofs.«164159_j23862838297042_1_alg».proof.Proof.Gen.KernelIdeal.Launch
import proofs.«164159_j23862838297042_1_alg».proof.Proof.Gen.KernelIdeal.Points
import proofs.«164159_j23862838297042_1_alg».proof.Proof.Gen.KernelIdeal.Frame
import proofs.«164159_j23862838297042_1_alg».proof.Proof.Gen.ReferenceIdeal
import proofs.«164159_j23862838297042_1_alg».proof.Proof.Gen.ReferenceIdeal.Run
import proofs.«164159_j23862838297042_1_alg».proof.Proof.Gen.ReferenceIdeal.Read
import proofs.«164159_j23862838297042_1_alg».proof.Proof.Gen.Pre_finite_inputs
import Idealize.ShloMosaic.Adequacy
import Idealize.ShloMosaic.Init
import proofs.«164159_j23862838297042_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Pieces.frame_kernel, Pieces.frame_kernelIdeal, Pieces.frame_referenceIdeal, Pieces.preserves, Pieces.algebraic⟩

end Cert.Proof

end
